-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  main_v8
-- ==== Kernel.lean ====
abbrev S16x3x512x512 : Shape := ⟨4, ![16, 3, 512, 512]⟩
abbrev S3x3 : Shape := ⟨2, ![3, 3]⟩
abbrev S3 : Shape := ⟨1, ![3]⟩
abbrev S4194304x3 : Shape := ⟨2, ![4194304, 3]⟩
abbrev S1x3 : Shape := ⟨2, ![1, 3]⟩
abbrev S16x8x128 : Shape := ⟨3, ![16, 8, 128]⟩
abbrev S1x3x512x512 : Shape := ⟨4, ![1, 3, 512, 512]⟩
abbrev S1x8x128 : Shape := ⟨3, ![1, 8, 128]⟩
abbrev S3x512x512 : Shape := ⟨3, ![3, 512, 512]⟩
abbrev S8x128 : Shape := ⟨2, ![8, 128]⟩
abbrev S511x512 : Shape := ⟨2, ![511, 512]⟩
abbrev S1x511x512 : Shape := ⟨3, ![1, 511, 512]⟩
abbrev S511 : Shape := ⟨1, ![511]⟩
abbrev S511x1 : Shape := ⟨2, ![511, 1]⟩
abbrev S1 : Shape := ⟨1, ![1]⟩
abbrev S1x1 : Shape := ⟨2, ![1, 1]⟩
abbrev S1x1x1 : Shape := ⟨3, ![1, 1, 1]⟩
abbrev S512x511 : Shape := ⟨2, ![512, 511]⟩
abbrev S1x512x511 : Shape := ⟨3, ![1, 512, 511]⟩
abbrev S512 : Shape := ⟨1, ![512]⟩
abbrev S512x1 : Shape := ⟨2, ![512, 1]⟩
abbrev S511x511 : Shape := ⟨2, ![511, 511]⟩
abbrev S1x511x511 : Shape := ⟨3, ![1, 511, 511]⟩
abbrev S510x512 : Shape := ⟨2, ![510, 512]⟩
abbrev S1x510x512 : Shape := ⟨3, ![1, 510, 512]⟩
abbrev S510 : Shape := ⟨1, ![510]⟩
abbrev S510x1 : Shape := ⟨2, ![510, 1]⟩
abbrev S512x510 : Shape := ⟨2, ![512, 510]⟩
abbrev S1x512x510 : Shape := ⟨3, ![1, 512, 510]⟩
abbrev S510x511 : Shape := ⟨2, ![510, 511]⟩
abbrev S1x510x511 : Shape := ⟨3, ![1, 510, 511]⟩
abbrev S511x510 : Shape := ⟨2, ![511, 510]⟩
abbrev S1x511x510 : Shape := ⟨3, ![1, 511, 510]⟩
abbrev S510x510 : Shape := ⟨2, ![510, 510]⟩
abbrev S1x510x510 : Shape := ⟨3, ![1, 510, 510]⟩
abbrev S3x512 : Shape := ⟨2, ![3, 512]⟩
abbrev S3x512x1 : Shape := ⟨3, ![3, 512, 1]⟩
abbrev S3x1 : Shape := ⟨2, ![3, 1]⟩
abbrev S3x1x1 : Shape := ⟨3, ![3, 1, 1]⟩
abbrev S_ : Shape := ⟨0, ![]⟩

abbrev nBuf : Space → Nat
  | .hbm => 105
  | .vmem => 8
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S3x3, .f32⟩
  | .hbm, ⟨3, _⟩ => ⟨S3, .f32⟩
  | .hbm, ⟨4, _⟩ => ⟨S4194304x3, .f32⟩
  | .hbm, ⟨5, _⟩ => ⟨S4194304x3, .f32⟩
  | .hbm, ⟨6, _⟩ => ⟨S1x3, .f32⟩
  | .hbm, ⟨7, _⟩ => ⟨S4194304x3, .f32⟩
  | .hbm, ⟨8, _⟩ => ⟨S4194304x3, .f32⟩
  | .hbm, ⟨9, _⟩ => ⟨S16x3x512x512, .f32⟩
  | .hbm, ⟨10, _⟩ => ⟨S16x8x128, .f32⟩
  | .hbm, ⟨11, _⟩ => ⟨S_, .f32⟩
  | .hbm, ⟨12, _⟩ => ⟨S8x128, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1x1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1x1, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1x1, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S1x1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S1x1, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S1x1, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S1x1, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S1x1, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S1x3x512x512, .f32⟩
  | .local _ .vmem, ⟨5, _⟩ => ⟨S1x3x512x512, .f32⟩
  | .local _ .vmem, ⟨6, _⟩ => ⟨S1x8x128, .f32⟩
  | .local _ .vmem, ⟨7, _⟩ => ⟨S1x8x128, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩
abbrev main_cst_12 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_13 : Ref sig .tc := ⟨.hbm, 51, rfl⟩
abbrev main_v35 : Ref sig .tc := ⟨.hbm, 52, rfl⟩
abbrev main_cst_14 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_15 : Ref sig .tc := ⟨.hbm, 58, rfl⟩
abbrev main_v40 : Ref sig .tc := ⟨.hbm, 59, rfl⟩
abbrev main_cst_16 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_17 : Ref sig .tc := ⟨.hbm, 65, rfl⟩
abbrev main_v45 : Ref sig .tc := ⟨.hbm, 66, rfl⟩
abbrev main_cst_18 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_19 : Ref sig .tc := ⟨.hbm, 72, rfl⟩
abbrev main_v50 : Ref sig .tc := ⟨.hbm, 73, rfl⟩
abbrev main_cst_20 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_21 : Ref sig .tc := ⟨.hbm, 79, rfl⟩
abbrev main_v55 : Ref sig .tc := ⟨.hbm, 80, rfl⟩
abbrev main_cst_22 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_23 : Ref sig .tc := ⟨.hbm, 86, rfl⟩
abbrev main_v60 : Ref sig .tc := ⟨.hbm, 87, rfl⟩
abbrev main_cst_24 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_25 : Ref sig .tc := ⟨.hbm, 93, rfl⟩
abbrev main_v65 : Ref sig .tc := ⟨.hbm, 94, rfl⟩
abbrev main_cst_26 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_27 : Ref sig .tc := ⟨.hbm, 100, rfl⟩
abbrev main_v70 : Ref sig .tc := ⟨.hbm, 101, rfl⟩
abbrev main_cst_28 : Ref sig .tc := ⟨.hbm, 102, rfl⟩
abbrev main_v71 : Ref sig .tc := ⟨.hbm, 103, rfl⟩
abbrev main_v72 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x3x512x512_S4194304x3 : S16x3x512x512.ShapeCasts S4194304x3
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  shapeCasts_S4194304x3_S16x3x512x512 : S4194304x3.ShapeCasts S16x3x512x512
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S3x512x512_o0_1_0_S1x511x512 : S3x512x512.Slices ![0, 1, 0] S1x511x512
  shapeCasts_S1x511x512_S511x512 : S1x511x512.ShapeCasts S511x512
  slices_S3x512x512_o0_0_0_S1x511x512 : S3x512x512.Slices ![0, 0, 0] S1x511x512
  slices_S3x512x512_o1_1_0_S1x511x512 : S3x512x512.Slices ![1, 1, 0] S1x511x512
  slices_S3x512x512_o1_0_0_S1x511x512 : S3x512x512.Slices ![1, 0, 0] S1x511x512
  slices_S3x512x512_o2_1_0_S1x511x512 : S3x512x512.Slices ![2, 1, 0] S1x511x512
  slices_S3x512x512_o2_0_0_S1x511x512 : S3x512x512.Slices ![2, 0, 0] S1x511x512
  reduces_S511x512_S511 : S511x512.Reduces [1] S511
  shapeCasts_S511_S511x1 : S511.ShapeCasts S511x1
  reduces_S511x1_S1 : S511x1.Reduces [0] S1
  shapeCasts_S1_S1x1 : S1.ShapeCasts S1x1
  inb_S1x8x128_S1x1x1_0_0_0 : ∀ a, (![0, 0, 0] : Fin 3 → Nat) a + S1x1x1.size a ≤ S1x8x128.size a
  h_S1x1x1 : 0 < S1x1x1.numel
  shapeCasts_S1x1x1_S1x1 : S1x1x1.ShapeCasts S1x1
  shapeCasts_S1x1_S1x1x1 : S1x1.ShapeCasts S1x1x1
  slices_S3x512x512_o0_0_1_S1x512x511 : S3x512x512.Slices ![0, 0, 1] S1x512x511
  shapeCasts_S1x512x511_S512x511 : S1x512x511.ShapeCasts S512x511
  slices_S3x512x512_o0_0_0_S1x512x511 : S3x512x512.Slices ![0, 0, 0] S1x512x511
  slices_S3x512x512_o1_0_1_S1x512x511 : S3x512x512.Slices ![1, 0, 1] S1x512x511
  slices_S3x512x512_o1_0_0_S1x512x511 : S3x512x512.Slices ![1, 0, 0] S1x512x511
  slices_S3x512x512_o2_0_1_S1x512x511 : S3x512x512.Slices ![2, 0, 1] S1x512x511
  slices_S3x512x512_o2_0_0_S1x512x511 : S3x512x512.Slices ![2, 0, 0] S1x512x511
  reduces_S512x511_S512 : S512x511.Reduces [1] S512
  shapeCasts_S512_S512x1 : S512.ShapeCasts S512x1
  reduces_S512x1_S1 : S512x1.Reduces [0] S1
  inb_S1x8x128_S1x1x1_0_0_1 : ∀ a, (![0, 0, 1] : Fin 3 → Nat) a + S1x1x1.size a ≤ S1x8x128.size a
  slices_S3x512x512_o0_1_1_S1x511x511 : S3x512x512.Slices ![0, 1, 1] S1x511x511
  shapeCasts_S1x511x511_S511x511 : S1x511x511.ShapeCasts S511x511
  slices_S3x512x512_o0_0_0_S1x511x511 : S3x512x512.Slices ![0, 0, 0] S1x511x511
  slices_S3x512x512_o1_1_1_S1x511x511 : S3x512x512.Slices ![1, 1, 1] S1x511x511
  slices_S3x512x512_o1_0_0_S1x511x511 : S3x512x512.Slices ![1, 0, 0] S1x511x511
  slices_S3x512x512_o2_1_1_S1x511x511 : S3x512x512.Slices ![2, 1, 1] S1x511x511
  slices_S3x512x512_o2_0_0_S1x511x511 : S3x512x512.Slices ![2, 0, 0] S1x511x511
  reduces_S511x511_S511 : S511x511.Reduces [1] S511
  inb_S1x8x128_S1x1x1_0_0_2 : ∀ a, (![0, 0, 2] : Fin 3 → Nat) a + S1x1x1.size a ≤ S1x8x128.size a
  slices_S3x512x512_o0_1_0_S1x511x511 : S3x512x512.Slices ![0, 1, 0] S1x511x511
  slices_S3x512x512_o0_0_1_S1x511x511 : S3x512x512.Slices ![0, 0, 1] S1x511x511
  slices_S3x512x512_o1_1_0_S1x511x511 : S3x512x512.Slices ![1, 1, 0] S1x511x511
  slices_S3x512x512_o1_0_1_S1x511x511 : S3x512x512.Slices ![1, 0, 1] S1x511x511
  slices_S3x512x512_o2_1_0_S1x511x511 : S3x512x512.Slices ![2, 1, 0] S1x511x511
  slices_S3x512x512_o2_0_1_S1x511x511 : S3x512x512.Slices ![2, 0, 1] S1x511x511
  inb_S1x8x128_S1x1x1_0_0_3 : ∀ a, (![0, 0, 3] : Fin 3 → Nat) a + S1x1x1.size a ≤ S1x8x128.size a
  slices_S3x512x512_o0_2_0_S1x510x512 : S3x512x512.Slices ![0, 2, 0] S1x510x512
  shapeCasts_S1x510x512_S510x512 : S1x510x512.ShapeCasts S510x512
  slices_S3x512x512_o0_0_0_S1x510x512 : S3x512x512.Slices ![0, 0, 0] S1x510x512
  slices_S3x512x512_o1_2_0_S1x510x512 : S3x512x512.Slices ![1, 2, 0] S1x510x512
  slices_S3x512x512_o1_0_0_S1x510x512 : S3x512x512.Slices ![1, 0, 0] S1x510x512
  slices_S3x512x512_o2_2_0_S1x510x512 : S3x512x512.Slices ![2, 2, 0] S1x510x512
  slices_S3x512x512_o2_0_0_S1x510x512 : S3x512x512.Slices ![2, 0, 0] S1x510x512
  reduces_S510x512_S510 : S510x512.Reduces [1] S510
  shapeCasts_S510_S510x1 : S510.ShapeCasts S510x1
  reduces_S510x1_S1 : S510x1.Reduces [0] S1
  inb_S1x8x128_S1x1x1_0_0_4 : ∀ a, (![0, 0, 4] : Fin 3 → Nat) a + S1x1x1.size a ≤ S1x8x128.size a
  slices_S3x512x512_o0_0_2_S1x512x510 : S3x512x512.Slices ![0, 0, 2] S1x512x510
  shapeCasts_S1x512x510_S512x510 : S1x512x510.ShapeCasts S512x510
  slices_S3x512x512_o0_0_0_S1x512x510 : S3x512x512.Slices ![0, 0, 0] S1x512x510
  slices_S3x512x512_o1_0_2_S1x512x510 : S3x512x512.Slices ![1, 0, 2] S1x512x510
  slices_S3x512x512_o1_0_0_S1x512x510 : S3x512x512.Slices ![1, 0, 0] S1x512x510
  slices_S3x512x512_o2_0_2_S1x512x510 : S3x512x512.Slices ![2, 0, 2] S1x512x510
  slices_S3x512x512_o2_0_0_S1x512x510 : S3x512x512.Slices ![2, 0, 0] S1x512x510
  reduces_S512x510_S512 : S512x510.Reduces [1] S512
  inb_S1x8x128_S1x1x1_0_0_5 : ∀ a, (![0, 0, 5] : Fin 3 → Nat) a + S1x1x1.size a ≤ S1x8x128.size a
  slices_S3x512x512_o0_2_1_S1x510x511 : S3x512x512.Slices ![0, 2, 1] S1x510x511
  shapeCasts_S1x510x511_S510x511 : S1x510x511.ShapeCasts S510x511
  slices_S3x512x512_o0_0_0_S1x510x511 : S3x512x512.Slices ![0, 0, 0] S1x510x511
  slices_S3x512x512_o1_2_1_S1x510x511 : S3x512x512.Slices ![1, 2, 1] S1x510x511
  slices_S3x512x512_o1_0_0_S1x510x511 : S3x512x512.Slices ![1, 0, 0] S1x510x511
  slices_S3x512x512_o2_2_1_S1x510x511 : S3x512x512.Slices ![2, 2, 1] S1x510x511
  slices_S3x512x512_o2_0_0_S1x510x511 : S3x512x512.Slices ![2, 0, 0] S1x510x511
  reduces_S510x511_S510 : S510x511.Reduces [1] S510
  inb_S1x8x128_S1x1x1_0_0_6 : ∀ a, (![0, 0, 6] : Fin 3 → Nat) a + S1x1x1.size a ≤ S1x8x128.size a
  slices_S3x512x512_o0_2_0_S1x510x511 : S3x512x512.Slices ![0, 2, 0] S1x510x511
  slices_S3x512x512_o0_0_1_S1x510x511 : S3x512x512.Slices ![0, 0, 1] S1x510x511
  slices_S3x512x512_o1_2_0_S1x510x511 : S3x512x512.Slices ![1, 2, 0] S1x510x511
  slices_S3x512x512_o1_0_1_S1x510x511 : S3x512x512.Slices ![1, 0, 1] S1x510x511
  slices_S3x512x512_o2_2_0_S1x510x511 : S3x512x512.Slices ![2, 2, 0] S1x510x511
  slices_S3x512x512_o2_0_1_S1x510x511 : S3x512x512.Slices ![2, 0, 1] S1x510x511
  inb_S1x8x128_S1x1x1_0_0_7 : ∀ a, (![0, 0, 7] : Fin 3 → Nat) a + S1x1x1.size a ≤ S1x8x128.size a
  slices_S3x512x512_o0_1_2_S1x511x510 : S3x512x512.Slices ![0, 1, 2] S1x511x510
  shapeCasts_S1x511x510_S511x510 : S1x511x510.ShapeCasts S511x510
  slices_S3x512x512_o0_0_0_S1x511x510 : S3x512x512.Slices ![0, 0, 0] S1x511x510
  slices_S3x512x512_o1_1_2_S1x511x510 : S3x512x512.Slices ![1, 1, 2] S1x511x510
  slices_S3x512x512_o1_0_0_S1x511x510 : S3x512x512.Slices ![1, 0, 0] S1x511x510
  slices_S3x512x512_o2_1_2_S1x511x510 : S3x512x512.Slices ![2, 1, 2] S1x511x510
  slices_S3x512x512_o2_0_0_S1x511x510 : S3x512x512.Slices ![2, 0, 0] S1x511x510
  reduces_S511x510_S511 : S511x510.Reduces [1] S511
  inb_S1x8x128_S1x1x1_0_0_8 : ∀ a, (![0, 0, 8] : Fin 3 → Nat) a + S1x1x1.size a ≤ S1x8x128.size a
  slices_S3x512x512_o0_1_0_S1x511x510 : S3x512x512.Slices ![0, 1, 0] S1x511x510
  slices_S3x512x512_o0_0_2_S1x511x510 : S3x512x512.Slices ![0, 0, 2] S1x511x510
  slices_S3x512x512_o1_1_0_S1x511x510 : S3x512x512.Slices ![1, 1, 0] S1x511x510
  slices_S3x512x512_o1_0_2_S1x511x510 : S3x512x512.Slices ![1, 0, 2] S1x511x510
  slices_S3x512x512_o2_1_0_S1x511x510 : S3x512x512.Slices ![2, 1, 0] S1x511x510
  slices_S3x512x512_o2_0_2_S1x511x510 : S3x512x512.Slices ![2, 0, 2] S1x511x510
  inb_S1x8x128_S1x1x1_0_0_9 : ∀ a, (![0, 0, 9] : Fin 3 → Nat) a + S1x1x1.size a ≤ S1x8x128.size a
  slices_S3x512x512_o0_2_2_S1x510x510 : S3x512x512.Slices ![0, 2, 2] S1x510x510
  shapeCasts_S1x510x510_S510x510 : S1x510x510.ShapeCasts S510x510
  slices_S3x512x512_o0_0_0_S1x510x510 : S3x512x512.Slices ![0, 0, 0] S1x510x510
  slices_S3x512x512_o1_2_2_S1x510x510 : S3x512x512.Slices ![1, 2, 2] S1x510x510
  slices_S3x512x512_o1_0_0_S1x510x510 : S3x512x512.Slices ![1, 0, 0] S1x510x510
  slices_S3x512x512_o2_2_2_S1x510x510 : S3x512x512.Slices ![2, 2, 2] S1x510x510
  slices_S3x512x512_o2_0_0_S1x510x510 : S3x512x512.Slices ![2, 0, 0] S1x510x510
  reduces_S510x510_S510 : S510x510.Reduces [1] S510
  inb_S1x8x128_S1x1x1_0_0_10 : ∀ a, (![0, 0, 10] : Fin 3 → Nat) a + S1x1x1.size a ≤ S1x8x128.size a
  slices_S3x512x512_o0_2_0_S1x510x510 : S3x512x512.Slices ![0, 2, 0] S1x510x510
  slices_S3x512x512_o0_0_2_S1x510x510 : S3x512x512.Slices ![0, 0, 2] S1x510x510
  slices_S3x512x512_o1_2_0_S1x510x510 : S3x512x512.Slices ![1, 2, 0] S1x510x510
  slices_S3x512x512_o1_0_2_S1x510x510 : S3x512x512.Slices ![1, 0, 2] S1x510x510
  slices_S3x512x512_o2_2_0_S1x510x510 : S3x512x512.Slices ![2, 2, 0] S1x510x510
  slices_S3x512x512_o2_0_2_S1x510x510 : S3x512x512.Slices ![2, 0, 2] S1x510x510
  inb_S1x8x128_S1x1x1_0_0_11 : ∀ a, (![0, 0, 11] : Fin 3 → Nat) a + S1x1x1.size a ≤ S1x8x128.size a
  reduces_S3x512x512_S3x512 : S3x512x512.Reduces [2] S3x512
  shapeCasts_S3x512_S3x512x1 : S3x512.ShapeCasts S3x512x1
  reduces_S3x512x1_S3x1 : S3x512x1.Reduces [1] S3x1
  shapeCasts_S3x1_S3x1x1 : S3x1.ShapeCasts S3x1x1
  reduces_S3x1x1_S1x1 : S3x1x1.Reduces [0] S1x1
  inb_S1x8x128_S1x1x1_0_0_12 : ∀ a, (![0, 0, 12] : Fin 3 → Nat) a + S1x1x1.size a ≤ S1x8x128.size a
  reducesTo_S16x8x128_S8x128_d0 : S16x8x128.ReducesTo [0] S8x128
  h_S_ : 0 < S_.numel
  slices_S8x128_S1x1_0_0 : S8x128.Slices ![0, 0] S1x1
  shapeCasts_S1x1_S_ : S1x1.ShapeCasts S_
  slices_S8x128_S1x1_0_1 : S8x128.Slices ![0, 1] S1x1
  slices_S8x128_S1x1_0_2 : S8x128.Slices ![0, 2] S1x1
  slices_S8x128_S1x1_0_3 : S8x128.Slices ![0, 3] S1x1
  slices_S8x128_S1x1_0_4 : S8x128.Slices ![0, 4] S1x1
  slices_S8x128_S1x1_0_5 : S8x128.Slices ![0, 5] S1x1
  slices_S8x128_S1x1_0_6 : S8x128.Slices ![0, 6] S1x1
  slices_S8x128_S1x1_0_7 : S8x128.Slices ![0, 7] S1x1
  slices_S8x128_S1x1_0_8 : S8x128.Slices ![0, 8] S1x1
  slices_S8x128_S1x1_0_9 : S8x128.Slices ![0, 9] S1x1
  slices_S8x128_S1x1_0_10 : S8x128.Slices ![0, 10] S1x1
  slices_S8x128_S1x1_0_11 : S8x128.Slices ![0, 11] S1x1
  slices_S8x128_S1x1_0_12 : S8x128.Slices ![0, 12] S1x1
  dot_S4194304x3_S3x3_S4194304x3_1_0_0_1_n_n_wf : DotDims.WF S4194304x3 S3x3 S4194304x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S16x3x512x512.size a
  hwx0_0 : ∀ i : grid0.Coords, EltTy.bits .f32 = 32 ∨ (Rect.block (s := S16x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x512x512.size a ≤ S16x3x512x512.size a
  hwx0_2 : ∀ i : grid0.Coords, EltTy.bits .f32 = 32 ∨ (Rect.block (s := S16x3x512x512) S1x3x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S16x8x128.size a
  hwx0_3 : ∀ i : grid0.Coords, EltTy.bits .f32 = 32 ∨ (Rect.block (s := S16x8x128) S1x8x128.size (cc0_transform_3 i) (hinb0_3 i)).WholeWords (EltTy.packing .f32)

variable [Facts₀]

def dot_S4194304x3_S3x3_S4194304x3_1_0_0_1_n_n : DotDims S4194304x3 S3x3 S4194304x3 where
  lhsContracting := [1]
  rhsContracting := [0]
  lhsNonContracting := [0]
  rhsNonContracting := [1]
  lhsBatch := []
  rhsBatch := []
  wf := dot_S4194304x3_S3x3_S4194304x3_1_0_0_1_n_n_wf

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x3x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S3x3 : Shape := ⟨2, ![3, 3]⟩
abbrev S3 : Shape := ⟨1, ![3]⟩
abbrev S4194304x3 : Shape := ⟨2, ![4194304, 3]⟩
abbrev S1x3 : Shape := ⟨2, ![1, 3]⟩
abbrev S16x3x511x512 : Shape := ⟨4, ![16, 3, 511, 512]⟩
abbrev S_ : Shape := ⟨0, ![]⟩
abbrev S16x511x512 : Shape := ⟨3, ![16, 511, 512]⟩
abbrev S16x3x512x511 : Shape := ⟨4, ![16, 3, 512, 511]⟩
abbrev S16x512x511 : Shape := ⟨3, ![16, 512, 511]⟩
abbrev S16x3x511x511 : Shape := ⟨4, ![16, 3, 511, 511]⟩
abbrev S16x511x511 : Shape := ⟨3, ![16, 511, 511]⟩
abbrev S16x3x510x512 : Shape := ⟨4, ![16, 3, 510, 512]⟩
abbrev S16x510x512 : Shape := ⟨3, ![16, 510, 512]⟩
abbrev S16x3x512x510 : Shape := ⟨4, ![16, 3, 512, 510]⟩
abbrev S16x512x510 : Shape := ⟨3, ![16, 512, 510]⟩
abbrev S16x3x510x511 : Shape := ⟨4, ![16, 3, 510, 511]⟩
abbrev S16x510x511 : Shape := ⟨3, ![16, 510, 511]⟩
abbrev S16x3x511x510 : Shape := ⟨4, ![16, 3, 511, 510]⟩
abbrev S16x511x510 : Shape := ⟨3, ![16, 511, 510]⟩
abbrev S16x3x510x510 : Shape := ⟨4, ![16, 3, 510, 510]⟩
abbrev S16x510x510 : Shape := ⟨3, ![16, 510, 510]⟩

abbrev nBuf : Space → Nat
  | .hbm => 308
  | .vmem => 0
  | .smem => 0
  | _ => 0

abbrev hbmTy0_0 (i : Nat) : BufTy := match i % 128 with
  | 0 => ⟨S16x3x512x512, .f32⟩
  | 1 => ⟨S16x3x512x512, .f32⟩
  | 2 => ⟨S3x3, .f32⟩
  | 3 => ⟨S3, .f32⟩
  | 4 => ⟨S4194304x3, .f32⟩
  | 5 => ⟨S4194304x3, .f32⟩
  | 6 => ⟨S1x3, .f32⟩
  | 7 => ⟨S4194304x3, .f32⟩
  | 8 => ⟨S4194304x3, .f32⟩
  | 9 => ⟨S16x3x512x512, .f32⟩
  | 10 => ⟨S16x3x511x512, .f32⟩
  | 11 => ⟨S16x3x511x512, .f32⟩
  | 12 => ⟨S16x3x511x512, .f32⟩
  | 13 => ⟨S16x3x511x512, .f32⟩
  | 14 => ⟨S_, .f32⟩
  | 15 => ⟨S16x511x512, .f32⟩
  | 16 => ⟨S_, .f32⟩
  | 17 => ⟨S16x511x512, .f32⟩
  | 18 => ⟨S16x511x512, .f32⟩
  | 19 => ⟨S16x511x512, .f32⟩
  | 20 => ⟨S16x3x511x512, .f32⟩
  | 21 => ⟨S16x3x511x512, .f32⟩
  | 22 => ⟨S16x3x511x512, .f32⟩
  | 23 => ⟨S16x3x511x512, .f32⟩
  | 24 => ⟨S_, .f32⟩
  | 25 => ⟨S16x511x512, .f32⟩
  | 26 => ⟨S16x511x512, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S16x3x512x511, .f32⟩
  | 36 => ⟨S16x3x512x511, .f32⟩
  | 37 => ⟨S16x3x512x511, .f32⟩
  | 38 => ⟨S16x3x512x511, .f32⟩
  | 39 => ⟨S_, .f32⟩
  | 40 => ⟨S16x512x511, .f32⟩
  | 41 => ⟨S_, .f32⟩
  | 42 => ⟨S16x512x511, .f32⟩
  | 43 => ⟨S16x512x511, .f32⟩
  | 44 => ⟨S16x512x511, .f32⟩
  | 45 => ⟨S16x3x512x511, .f32⟩
  | 46 => ⟨S16x3x512x511, .f32⟩
  | 47 => ⟨S16x3x512x511, .f32⟩
  | 48 => ⟨S16x3x512x511, .f32⟩
  | 49 => ⟨S_, .f32⟩
  | 50 => ⟨S16x512x511, .f32⟩
  | 51 => ⟨S16x512x511, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S16x3x511x511, .f32⟩
  | 60 => ⟨S16x3x511x511, .f32⟩
  | 61 => ⟨S16x3x511x511, .f32⟩
  | 62 => ⟨S16x3x511x511, .f32⟩
  | 63 => ⟨S_, .f32⟩
  | 64 => ⟨S16x511x511, .f32⟩
  | 65 => ⟨S_, .f32⟩
  | 66 => ⟨S16x511x511, .f32⟩
  | 67 => ⟨S16x511x511, .f32⟩
  | 68 => ⟨S16x511x511, .f32⟩
  | 69 => ⟨S16x3x511x511, .f32⟩
  | 70 => ⟨S16x3x511x511, .f32⟩
  | 71 => ⟨S16x3x511x511, .f32⟩
  | 72 => ⟨S16x3x511x511, .f32⟩
  | 73 => ⟨S_, .f32⟩
  | 74 => ⟨S16x511x511, .f32⟩
  | 75 => ⟨S16x511x511, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S16x3x511x511, .f32⟩
  | 84 => ⟨S16x3x511x511, .f32⟩
  | 85 => ⟨S16x3x511x511, .f32⟩
  | 86 => ⟨S16x3x511x511, .f32⟩
  | 87 => ⟨S_, .f32⟩
  | 88 => ⟨S16x511x511, .f32⟩
  | 89 => ⟨S_, .f32⟩
  | 90 => ⟨S16x511x511, .f32⟩
  | 91 => ⟨S16x511x511, .f32⟩
  | 92 => ⟨S16x511x511, .f32⟩
  | 93 => ⟨S16x3x511x511, .f32⟩
  | 94 => ⟨S16x3x511x511, .f32⟩
  | 95 => ⟨S16x3x511x511, .f32⟩
  | 96 => ⟨S16x3x511x511, .f32⟩
  | 97 => ⟨S_, .f32⟩
  | 98 => ⟨S16x511x511, .f32⟩
  | 99 => ⟨S16x511x511, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S16x3x510x512, .f32⟩
  | 108 => ⟨S16x3x510x512, .f32⟩
  | 109 => ⟨S16x3x510x512, .f32⟩
  | 110 => ⟨S16x3x510x512, .f32⟩
  | 111 => ⟨S_, .f32⟩
  | 112 => ⟨S16x510x512, .f32⟩
  | 113 => ⟨S_, .f32⟩
  | 114 => ⟨S16x510x512, .f32⟩
  | 115 => ⟨S16x510x512, .f32⟩
  | 116 => ⟨S16x510x512, .f32⟩
  | 117 => ⟨S16x3x510x512, .f32⟩
  | 118 => ⟨S16x3x510x512, .f32⟩
  | 119 => ⟨S16x3x510x512, .f32⟩
  | 120 => ⟨S16x3x510x512, .f32⟩
  | 121 => ⟨S_, .f32⟩
  | 122 => ⟨S16x510x512, .f32⟩
  | 123 => ⟨S16x510x512, .f32⟩
  | 124 => ⟨S_, .f32⟩
  | 125 => ⟨S_, .f32⟩
  | 126 => ⟨S_, .f32⟩
  | 127 => ⟨S_, .f32⟩
  | _ => ⟨S16x3x512x512, .f32⟩

abbrev hbmTy0_1 (i : Nat) : BufTy := match i % 128 with
  | 0 => ⟨S_, .f32⟩
  | 1 => ⟨S_, .f32⟩
  | 2 => ⟨S_, .f32⟩
  | 3 => ⟨S16x3x512x510, .f32⟩
  | 4 => ⟨S16x3x512x510, .f32⟩
  | 5 => ⟨S16x3x512x510, .f32⟩
  | 6 => ⟨S16x3x512x510, .f32⟩
  | 7 => ⟨S_, .f32⟩
  | 8 => ⟨S16x512x510, .f32⟩
  | 9 => ⟨S_, .f32⟩
  | 10 => ⟨S16x512x510, .f32⟩
  | 11 => ⟨S16x512x510, .f32⟩
  | 12 => ⟨S16x512x510, .f32⟩
  | 13 => ⟨S16x3x512x510, .f32⟩
  | 14 => ⟨S16x3x512x510, .f32⟩
  | 15 => ⟨S16x3x512x510, .f32⟩
  | 16 => ⟨S16x3x512x510, .f32⟩
  | 17 => ⟨S_, .f32⟩
  | 18 => ⟨S16x512x510, .f32⟩
  | 19 => ⟨S16x512x510, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S16x3x510x511, .f32⟩
  | 28 => ⟨S16x3x510x511, .f32⟩
  | 29 => ⟨S16x3x510x511, .f32⟩
  | 30 => ⟨S16x3x510x511, .f32⟩
  | 31 => ⟨S_, .f32⟩
  | 32 => ⟨S16x510x511, .f32⟩
  | 33 => ⟨S_, .f32⟩
  | 34 => ⟨S16x510x511, .f32⟩
  | 35 => ⟨S16x510x511, .f32⟩
  | 36 => ⟨S16x510x511, .f32⟩
  | 37 => ⟨S16x3x510x511, .f32⟩
  | 38 => ⟨S16x3x510x511, .f32⟩
  | 39 => ⟨S16x3x510x511, .f32⟩
  | 40 => ⟨S16x3x510x511, .f32⟩
  | 41 => ⟨S_, .f32⟩
  | 42 => ⟨S16x510x511, .f32⟩
  | 43 => ⟨S16x510x511, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S16x3x510x511, .f32⟩
  | 52 => ⟨S16x3x510x511, .f32⟩
  | 53 => ⟨S16x3x510x511, .f32⟩
  | 54 => ⟨S16x3x510x511, .f32⟩
  | 55 => ⟨S_, .f32⟩
  | 56 => ⟨S16x510x511, .f32⟩
  | 57 => ⟨S_, .f32⟩
  | 58 => ⟨S16x510x511, .f32⟩
  | 59 => ⟨S16x510x511, .f32⟩
  | 60 => ⟨S16x510x511, .f32⟩
  | 61 => ⟨S16x3x510x511, .f32⟩
  | 62 => ⟨S16x3x510x511, .f32⟩
  | 63 => ⟨S16x3x510x511, .f32⟩
  | 64 => ⟨S16x3x510x511, .f32⟩
  | 65 => ⟨S_, .f32⟩
  | 66 => ⟨S16x510x511, .f32⟩
  | 67 => ⟨S16x510x511, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S16x3x511x510, .f32⟩
  | 76 => ⟨S16x3x511x510, .f32⟩
  | 77 => ⟨S16x3x511x510, .f32⟩
  | 78 => ⟨S16x3x511x510, .f32⟩
  | 79 => ⟨S_, .f32⟩
  | 80 => ⟨S16x511x510, .f32⟩
  | 81 => ⟨S_, .f32⟩
  | 82 => ⟨S16x511x510, .f32⟩
  | 83 => ⟨S16x511x510, .f32⟩
  | 84 => ⟨S16x511x510, .f32⟩
  | 85 => ⟨S16x3x511x510, .f32⟩
  | 86 => ⟨S16x3x511x510, .f32⟩
  | 87 => ⟨S16x3x511x510, .f32⟩
  | 88 => ⟨S16x3x511x510, .f32⟩
  | 89 => ⟨S_, .f32⟩
  | 90 => ⟨S16x511x510, .f32⟩
  | 91 => ⟨S16x511x510, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S16x3x511x510, .f32⟩
  | 100 => ⟨S16x3x511x510, .f32⟩
  | 101 => ⟨S16x3x511x510, .f32⟩
  | 102 => ⟨S16x3x511x510, .f32⟩
  | 103 => ⟨S_, .f32⟩
  | 104 => ⟨S16x511x510, .f32⟩
  | 105 => ⟨S_, .f32⟩
  | 106 => ⟨S16x511x510, .f32⟩
  | 107 => ⟨S16x511x510, .f32⟩
  | 108 => ⟨S16x511x510, .f32⟩
  | 109 => ⟨S16x3x511x510, .f32⟩
  | 110 => ⟨S16x3x511x510, .f32⟩
  | 111 => ⟨S16x3x511x510, .f32⟩
  | 112 => ⟨S16x3x511x510, .f32⟩
  | 113 => ⟨S_, .f32⟩
  | 114 => ⟨S16x511x510, .f32⟩
  | 115 => ⟨S16x511x510, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S16x3x510x510, .f32⟩
  | 124 => ⟨S16x3x510x510, .f32⟩
  | 125 => ⟨S16x3x510x510, .f32⟩
  | 126 => ⟨S16x3x510x510, .f32⟩
  | 127 => ⟨S_, .f32⟩
  | _ => ⟨S16x3x512x512, .f32⟩

abbrev hbmTy0_2 (i : Nat) : BufTy := match i % 128 with
  | 0 => ⟨S16x510x510, .f32⟩
  | 1 => ⟨S_, .f32⟩
  | 2 => ⟨S16x510x510, .f32⟩
  | 3 => ⟨S16x510x510, .f32⟩
  | 4 => ⟨S16x510x510, .f32⟩
  | 5 => ⟨S16x3x510x510, .f32⟩
  | 6 => ⟨S16x3x510x510, .f32⟩
  | 7 => ⟨S16x3x510x510, .f32⟩
  | 8 => ⟨S16x3x510x510, .f32⟩
  | 9 => ⟨S_, .f32⟩
  | 10 => ⟨S16x510x510, .f32⟩
  | 11 => ⟨S16x510x510, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S16x3x510x510, .f32⟩
  | 20 => ⟨S16x3x510x510, .f32⟩
  | 21 => ⟨S16x3x510x510, .f32⟩
  | 22 => ⟨S16x3x510x510, .f32⟩
  | 23 => ⟨S_, .f32⟩
  | 24 => ⟨S16x510x510, .f32⟩
  | 25 => ⟨S_, .f32⟩
  | 26 => ⟨S16x510x510, .f32⟩
  | 27 => ⟨S16x510x510, .f32⟩
  | 28 => ⟨S16x510x510, .f32⟩
  | 29 => ⟨S16x3x510x510, .f32⟩
  | 30 => ⟨S16x3x510x510, .f32⟩
  | 31 => ⟨S16x3x510x510, .f32⟩
  | 32 => ⟨S16x3x510x510, .f32⟩
  | 33 => ⟨S_, .f32⟩
  | 34 => ⟨S16x510x510, .f32⟩
  | 35 => ⟨S16x510x510, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S16x3x512x512, .f32⟩
  | 44 => ⟨S16x3x512x512, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | _ => ⟨S16x3x512x512, .f32⟩

abbrev hbmTy (i : Nat) : BufTy := match i / 128 with
  | 0 => hbmTy0_0 i
  | 1 => hbmTy0_1 i
  | 2 => hbmTy0_2 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_8 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_cst_11 : Ref sig .tc := ⟨.hbm, 52, rfl⟩
abbrev main_v38 : Ref sig .tc := ⟨.hbm, 53, rfl⟩
abbrev main_cst_12 : Ref sig .tc := ⟨.hbm, 54, rfl⟩
abbrev main_v39 : Ref sig .tc := ⟨.hbm, 55, rfl⟩
abbrev main_cst_13 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_14 : Ref sig .tc := ⟨.hbm, 63, rfl⟩
abbrev main_v46 : Ref sig .tc := ⟨.hbm, 64, rfl⟩
abbrev main_cst_15 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_16 : Ref sig .tc := ⟨.hbm, 73, rfl⟩
abbrev main_v54 : Ref sig .tc := ⟨.hbm, 74, rfl⟩
abbrev main_v55 : Ref sig .tc := ⟨.hbm, 75, rfl⟩
abbrev main_cst_17 : Ref sig .tc := ⟨.hbm, 76, rfl⟩
abbrev main_v56 : Ref sig .tc := ⟨.hbm, 77, rfl⟩
abbrev main_cst_18 : Ref sig .tc := ⟨.hbm, 78, rfl⟩
abbrev main_v57 : Ref sig .tc := ⟨.hbm, 79, rfl⟩
abbrev main_cst_19 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_20 : Ref sig .tc := ⟨.hbm, 87, rfl⟩
abbrev main_v64 : Ref sig .tc := ⟨.hbm, 88, rfl⟩
abbrev main_cst_21 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_22 : Ref sig .tc := ⟨.hbm, 97, rfl⟩
abbrev main_v72 : Ref sig .tc := ⟨.hbm, 98, rfl⟩
abbrev main_v73 : Ref sig .tc := ⟨.hbm, 99, rfl⟩
abbrev main_cst_23 : Ref sig .tc := ⟨.hbm, 100, rfl⟩
abbrev main_v74 : Ref sig .tc := ⟨.hbm, 101, rfl⟩
abbrev main_cst_24 : Ref sig .tc := ⟨.hbm, 102, rfl⟩
abbrev main_v75 : Ref sig .tc := ⟨.hbm, 103, rfl⟩
abbrev main_cst_25 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_26 : Ref sig .tc := ⟨.hbm, 111, rfl⟩
abbrev main_v82 : Ref sig .tc := ⟨.hbm, 112, rfl⟩
abbrev main_cst_27 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_28 : Ref sig .tc := ⟨.hbm, 121, rfl⟩
abbrev main_v90 : Ref sig .tc := ⟨.hbm, 122, rfl⟩
abbrev main_v91 : Ref sig .tc := ⟨.hbm, 123, rfl⟩
abbrev main_cst_29 : Ref sig .tc := ⟨.hbm, 124, rfl⟩
abbrev main_v92 : Ref sig .tc := ⟨.hbm, 125, rfl⟩
abbrev main_cst_30 : Ref sig .tc := ⟨.hbm, 126, rfl⟩
abbrev main_v93 : Ref sig .tc := ⟨.hbm, 127, rfl⟩
abbrev main_cst_31 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_32 : Ref sig .tc := ⟨.hbm, 135, rfl⟩
abbrev main_v100 : Ref sig .tc := ⟨.hbm, 136, rfl⟩
abbrev main_cst_33 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_34 : Ref sig .tc := ⟨.hbm, 145, rfl⟩
abbrev main_v108 : Ref sig .tc := ⟨.hbm, 146, rfl⟩
abbrev main_v109 : Ref sig .tc := ⟨.hbm, 147, rfl⟩
abbrev main_cst_35 : Ref sig .tc := ⟨.hbm, 148, rfl⟩
abbrev main_v110 : Ref sig .tc := ⟨.hbm, 149, rfl⟩
abbrev main_cst_36 : Ref sig .tc := ⟨.hbm, 150, rfl⟩
abbrev main_v111 : Ref sig .tc := ⟨.hbm, 151, rfl⟩
abbrev main_cst_37 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_38 : Ref sig .tc := ⟨.hbm, 159, rfl⟩
abbrev main_v118 : Ref sig .tc := ⟨.hbm, 160, rfl⟩
abbrev main_cst_39 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_40 : Ref sig .tc := ⟨.hbm, 169, rfl⟩
abbrev main_v126 : Ref sig .tc := ⟨.hbm, 170, rfl⟩
abbrev main_v127 : Ref sig .tc := ⟨.hbm, 171, rfl⟩
abbrev main_cst_41 : Ref sig .tc := ⟨.hbm, 172, rfl⟩
abbrev main_v128 : Ref sig .tc := ⟨.hbm, 173, rfl⟩
abbrev main_cst_42 : Ref sig .tc := ⟨.hbm, 174, rfl⟩
abbrev main_v129 : Ref sig .tc := ⟨.hbm, 175, rfl⟩
abbrev main_cst_43 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_44 : Ref sig .tc := ⟨.hbm, 183, rfl⟩
abbrev main_v136 : Ref sig .tc := ⟨.hbm, 184, rfl⟩
abbrev main_cst_45 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_46 : Ref sig .tc := ⟨.hbm, 193, rfl⟩
abbrev main_v144 : Ref sig .tc := ⟨.hbm, 194, rfl⟩
abbrev main_v145 : Ref sig .tc := ⟨.hbm, 195, rfl⟩
abbrev main_cst_47 : Ref sig .tc := ⟨.hbm, 196, rfl⟩
abbrev main_v146 : Ref sig .tc := ⟨.hbm, 197, rfl⟩
abbrev main_cst_48 : Ref sig .tc := ⟨.hbm, 198, rfl⟩
abbrev main_v147 : Ref sig .tc := ⟨.hbm, 199, rfl⟩
abbrev main_cst_49 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_cst_50 : Ref sig .tc := ⟨.hbm, 207, rfl⟩
abbrev main_v154 : Ref sig .tc := ⟨.hbm, 208, rfl⟩
abbrev main_cst_51 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_cst_52 : Ref sig .tc := ⟨.hbm, 217, rfl⟩
abbrev main_v162 : Ref sig .tc := ⟨.hbm, 218, rfl⟩
abbrev main_v163 : Ref sig .tc := ⟨.hbm, 219, rfl⟩
abbrev main_cst_53 : Ref sig .tc := ⟨.hbm, 220, rfl⟩
abbrev main_v164 : Ref sig .tc := ⟨.hbm, 221, rfl⟩
abbrev main_cst_54 : Ref sig .tc := ⟨.hbm, 222, rfl⟩
abbrev main_v165 : Ref sig .tc := ⟨.hbm, 223, rfl⟩
abbrev main_cst_55 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_cst_56 : Ref sig .tc := ⟨.hbm, 231, rfl⟩
abbrev main_v172 : Ref sig .tc := ⟨.hbm, 232, rfl⟩
abbrev main_cst_57 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_cst_58 : Ref sig .tc := ⟨.hbm, 241, rfl⟩
abbrev main_v180 : Ref sig .tc := ⟨.hbm, 242, rfl⟩
abbrev main_v181 : Ref sig .tc := ⟨.hbm, 243, rfl⟩
abbrev main_cst_59 : Ref sig .tc := ⟨.hbm, 244, rfl⟩
abbrev main_v182 : Ref sig .tc := ⟨.hbm, 245, rfl⟩
abbrev main_cst_60 : Ref sig .tc := ⟨.hbm, 246, rfl⟩
abbrev main_v183 : Ref sig .tc := ⟨.hbm, 247, rfl⟩
abbrev main_cst_61 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_cst_62 : Ref sig .tc := ⟨.hbm, 255, rfl⟩
abbrev main_v190 : Ref sig .tc := ⟨.hbm, 256, rfl⟩
abbrev main_cst_63 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_cst_64 : Ref sig .tc := ⟨.hbm, 265, rfl⟩
abbrev main_v198 : Ref sig .tc := ⟨.hbm, 266, rfl⟩
abbrev main_v199 : Ref sig .tc := ⟨.hbm, 267, rfl⟩
abbrev main_cst_65 : Ref sig .tc := ⟨.hbm, 268, rfl⟩
abbrev main_v200 : Ref sig .tc := ⟨.hbm, 269, rfl⟩
abbrev main_cst_66 : Ref sig .tc := ⟨.hbm, 270, rfl⟩
abbrev main_v201 : Ref sig .tc := ⟨.hbm, 271, rfl⟩
abbrev main_cst_67 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_68 : Ref sig .tc := ⟨.hbm, 279, rfl⟩
abbrev main_v208 : Ref sig .tc := ⟨.hbm, 280, rfl⟩
abbrev main_cst_69 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_cst_70 : Ref sig .tc := ⟨.hbm, 289, rfl⟩
abbrev main_v216 : Ref sig .tc := ⟨.hbm, 290, rfl⟩
abbrev main_v217 : Ref sig .tc := ⟨.hbm, 291, rfl⟩
abbrev main_cst_71 : Ref sig .tc := ⟨.hbm, 292, rfl⟩
abbrev main_v218 : Ref sig .tc := ⟨.hbm, 293, rfl⟩
abbrev main_cst_72 : Ref sig .tc := ⟨.hbm, 294, rfl⟩
abbrev main_v219 : Ref sig .tc := ⟨.hbm, 295, rfl⟩
abbrev main_cst_73 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_cst_74 : Ref sig .tc := ⟨.hbm, 301, rfl⟩
abbrev main_v224 : Ref sig .tc := ⟨.hbm, 302, rfl⟩
abbrev main_cst_75 : Ref sig .tc := ⟨.hbm, 303, rfl⟩
abbrev main_v225 : Ref sig .tc := ⟨.hbm, 304, rfl⟩
abbrev main_cst_76 : Ref sig .tc := ⟨.hbm, 305, rfl⟩
abbrev main_v226 : Ref sig .tc := ⟨.hbm, 306, rfl⟩
abbrev main_v227 : Ref sig .tc := ⟨.hbm, 307, rfl⟩

abbrev nD : Nat := 1
abbrev τ : Topo := Topo.v7x

variable {F : FTy → Type} [FloatOps F]

class Facts₀ : Prop where
  shapeCasts_S16x3x512x512_S4194304x3 : S16x3x512x512.ShapeCasts S4194304x3
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  shapeCasts_S4194304x3_S16x3x512x512 : S4194304x3.ShapeCasts S16x3x512x512
  slices_S16x3x512x512_S16x3x511x512_0_0_1_0 : S16x3x512x512.Slices ![0, 0, 1, 0] S16x3x511x512
  slices_S16x3x512x512_S16x3x511x512_0_0_0_0 : S16x3x512x512.Slices ![0, 0, 0, 0] S16x3x511x512
  reducesTo_S16x3x511x512_S16x511x512_d1 : S16x3x511x512.ReducesTo [1] S16x511x512
  h_S_ : 0 < S_.numel
  bcast_S_S16x511x512 : S_.BroadcastsInDim S16x511x512 (![] : Fin 0 → Fin S16x511x512.rank)
  reducesTo_S16x511x512_S_d0_1_2 : S16x511x512.ReducesTo [0, 1, 2] S_
  slices_S16x3x512x512_S16x3x512x511_0_0_0_1 : S16x3x512x512.Slices ![0, 0, 0, 1] S16x3x512x511
  slices_S16x3x512x512_S16x3x512x511_0_0_0_0 : S16x3x512x512.Slices ![0, 0, 0, 0] S16x3x512x511
  reducesTo_S16x3x512x511_S16x512x511_d1 : S16x3x512x511.ReducesTo [1] S16x512x511
  bcast_S_S16x512x511 : S_.BroadcastsInDim S16x512x511 (![] : Fin 0 → Fin S16x512x511.rank)
  reducesTo_S16x512x511_S_d0_1_2 : S16x512x511.ReducesTo [0, 1, 2] S_
  slices_S16x3x512x512_S16x3x511x511_0_0_1_1 : S16x3x512x512.Slices ![0, 0, 1, 1] S16x3x511x511
  slices_S16x3x512x512_S16x3x511x511_0_0_0_0 : S16x3x512x512.Slices ![0, 0, 0, 0] S16x3x511x511
  reducesTo_S16x3x511x511_S16x511x511_d1 : S16x3x511x511.ReducesTo [1] S16x511x511
  bcast_S_S16x511x511 : S_.BroadcastsInDim S16x511x511 (![] : Fin 0 → Fin S16x511x511.rank)
  reducesTo_S16x511x511_S_d0_1_2 : S16x511x511.ReducesTo [0, 1, 2] S_
  slices_S16x3x512x512_S16x3x511x511_0_0_1_0 : S16x3x512x512.Slices ![0, 0, 1, 0] S16x3x511x511
  slices_S16x3x512x512_S16x3x511x511_0_0_0_1 : S16x3x512x512.Slices ![0, 0, 0, 1] S16x3x511x511
  slices_S16x3x512x512_S16x3x510x512_0_0_2_0 : S16x3x512x512.Slices ![0, 0, 2, 0] S16x3x510x512
  slices_S16x3x512x512_S16x3x510x512_0_0_0_0 : S16x3x512x512.Slices ![0, 0, 0, 0] S16x3x510x512
  reducesTo_S16x3x510x512_S16x510x512_d1 : S16x3x510x512.ReducesTo [1] S16x510x512
  bcast_S_S16x510x512 : S_.BroadcastsInDim S16x510x512 (![] : Fin 0 → Fin S16x510x512.rank)
  reducesTo_S16x510x512_S_d0_1_2 : S16x510x512.ReducesTo [0, 1, 2] S_
  slices_S16x3x512x512_S16x3x512x510_0_0_0_2 : S16x3x512x512.Slices ![0, 0, 0, 2] S16x3x512x510
  slices_S16x3x512x512_S16x3x512x510_0_0_0_0 : S16x3x512x512.Slices ![0, 0, 0, 0] S16x3x512x510
  reducesTo_S16x3x512x510_S16x512x510_d1 : S16x3x512x510.ReducesTo [1] S16x512x510
  bcast_S_S16x512x510 : S_.BroadcastsInDim S16x512x510 (![] : Fin 0 → Fin S16x512x510.rank)
  reducesTo_S16x512x510_S_d0_1_2 : S16x512x510.ReducesTo [0, 1, 2] S_
  slices_S16x3x512x512_S16x3x510x511_0_0_2_1 : S16x3x512x512.Slices ![0, 0, 2, 1] S16x3x510x511
  slices_S16x3x512x512_S16x3x510x511_0_0_0_0 : S16x3x512x512.Slices ![0, 0, 0, 0] S16x3x510x511
  reducesTo_S16x3x510x511_S16x510x511_d1 : S16x3x510x511.ReducesTo [1] S16x510x511
  bcast_S_S16x510x511 : S_.BroadcastsInDim S16x510x511 (![] : Fin 0 → Fin S16x510x511.rank)
  reducesTo_S16x510x511_S_d0_1_2 : S16x510x511.ReducesTo [0, 1, 2] S_
  slices_S16x3x512x512_S16x3x510x511_0_0_2_0 : S16x3x512x512.Slices ![0, 0, 2, 0] S16x3x510x511
  slices_S16x3x512x512_S16x3x510x511_0_0_0_1 : S16x3x512x512.Slices ![0, 0, 0, 1] S16x3x510x511
  slices_S16x3x512x512_S16x3x511x510_0_0_1_2 : S16x3x512x512.Slices ![0, 0, 1, 2] S16x3x511x510
  slices_S16x3x512x512_S16x3x511x510_0_0_0_0 : S16x3x512x512.Slices ![0, 0, 0, 0] S16x3x511x510
  reducesTo_S16x3x511x510_S16x511x510_d1 : S16x3x511x510.ReducesTo [1] S16x511x510
  bcast_S_S16x511x510 : S_.BroadcastsInDim S16x511x510 (![] : Fin 0 → Fin S16x511x510.rank)
  reducesTo_S16x511x510_S_d0_1_2 : S16x511x510.ReducesTo [0, 1, 2] S_
  slices_S16x3x512x512_S16x3x511x510_0_0_1_0 : S16x3x512x512.Slices ![0, 0, 1, 0] S16x3x511x510
  slices_S16x3x512x512_S16x3x511x510_0_0_0_2 : S16x3x512x512.Slices ![0, 0, 0, 2] S16x3x511x510
  slices_S16x3x512x512_S16x3x510x510_0_0_2_2 : S16x3x512x512.Slices ![0, 0, 2, 2] S16x3x510x510
  slices_S16x3x512x512_S16x3x510x510_0_0_0_0 : S16x3x512x512.Slices ![0, 0, 0, 0] S16x3x510x510
  reducesTo_S16x3x510x510_S16x510x510_d1 : S16x3x510x510.ReducesTo [1] S16x510x510
  bcast_S_S16x510x510 : S_.BroadcastsInDim S16x510x510 (![] : Fin 0 → Fin S16x510x510.rank)
  reducesTo_S16x510x510_S_d0_1_2 : S16x510x510.ReducesTo [0, 1, 2] S_
  slices_S16x3x512x512_S16x3x510x510_0_0_2_0 : S16x3x512x512.Slices ![0, 0, 2, 0] S16x3x510x510
  slices_S16x3x512x512_S16x3x510x510_0_0_0_2 : S16x3x512x512.Slices ![0, 0, 0, 2] S16x3x510x510
  reducesTo_S16x3x512x512_S_d0_1_2_3 : S16x3x512x512.ReducesTo [0, 1, 2, 3] S_
  dot_S4194304x3_S3x3_S4194304x3_1_0_0_1_n_n_wf : DotDims.WF S4194304x3 S3x3 S4194304x3 [1] [0] [0] [1] [] []

variable [Facts₀]

def dot_S4194304x3_S3x3_S4194304x3_1_0_0_1_n_n : DotDims S4194304x3 S3x3 S4194304x3 where
  lhsContracting := [1]
  rhsContracting := [0]
  lhsNonContracting := [0]
  rhsNonContracting := [1]
  lhsBatch := []
  rhsBatch := []
  wf := dot_S4194304x3_S3x3_S4194304x3_1_0_0_1_n_n_wf

class Facts : Prop extends Facts₀ where

variable [Facts]
-- ==== Proof.FrameK.lean ====
/-
  The frame of the stencil-loss program: @main is eight host operations (the colour transform of the first
  argument), one region on a grid of sixteen points — one batch entry each —, and ninety-four host operations
  that reduce the region's result to the loss.

  The region's body reads its three input blocks whole, fills its output block with zeros and then overwrites
  thirteen single cells of it: cell (0,0,k), k = 0 … 11, with the k-th window sum of the entry and cell
  (0,0,12) with the entry's sum of squared differences. What the body leaves in the output block is therefore a
  closed function of the three input blocks: the fourteen stores laid over one another, the last one first
  (`out0_3`). The first store covers the whole block, so the stores cover it, and nothing depends on what the
  block held before.

  With that the run is the library's frame run of a region followed by host operations: the later operations
  touch only unscoped buffers, allocate nothing and write none of the four arrays the region's windows stage,
  so the two argument arrays — which no host operation writes either — end as they were launched.
-/
import proofs.«102783_j41472204210650_1_alg».proof.Proof.Gen.Kernel.Launch
import proofs.«102783_j41472204210650_1_alg».proof.Proof.Gen.Kernel.Skeleton
import proofs.«102783_j41472204210650_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

-- the ninety-four later operations are one `::` list: every fact about them recurses once per operation
set_option maxRecDepth 16384
-- and the statements that mention them are long
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the eight host operations
    of the colour transform. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The operations before the region allocate nothing. -/
theorem hostOps0_fresh : (hostOps0 : List (HloOp τ sig (Elt F))).Forall fun op => op.fresh = ∅ := by
  simp only [List.Forall]; repeat' constructor

set_option maxHeartbeats 4000000 in
/-- Nor do the operations after it. -/
theorem hostOps1_fresh : (hostOps1 : List (HloOp τ sig (Elt F))).Forall fun op => op.fresh = ∅ := by
  simp only [List.Forall]; repeat' constructor

/-- @main is the earlier operations, the region, the later operations: it reduces to the region continued by the later
    operations, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

set_option maxHeartbeats 4000000 in
/-- No later operation writes an array of the region's four windows (the two arguments, the transformed image, the
    region's result): each writes its own result buffer, which is none of them. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes,
    StableHlo.reshape_writes, Finset.mem_singleton]
  repeat' apply And.intro
  all_goals intro w; fin_cases w <;> exact StableHlo.devRef_ne_of_ne (by decide)

/-- The later operations touch unscoped TensorCore buffers only: the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- And they write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  exact (List.forall_iff_forall_mem.mp hostOps1_keeps) op hop

/-- No operation before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, Finset.mem_singleton]
    repeat' apply And.intro
    all_goals exact StableHlo.devRef_ne_of_ne (by decide)))

/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t` (batch entry `t` of its array), read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the run -/

/-- The region's arrays are pairwise distinct buffers. -/
theorem arr_inj0 : Function.Injective (Pipeline.arrRef spec0) := launch0.win.arr_inj

set_option maxHeartbeats 4000000 in
/-- No later operation writes the first argument. -/
theorem hostOps1_keeps_arg0 : (hostOps1 : List (HloOp τ sig (Elt F))).Forall fun op => Proc.devRef .tc main_arg0 ∉ op.writes := by
  simp only [hostOps1, List.Forall, StableHlo.nullary_writes, StableHlo.unary_writes, StableHlo.binary_writes,
    StableHlo.reshape_writes, Finset.mem_singleton]
  repeat' apply And.intro
  all_goals exact StableHlo.devRef_ne_of_ne (by decide)

set_option maxHeartbeats 4000000 in
/-- Nor the second. -/
theorem hostOps1_keeps_arg1 : (hostOps1 : List (HloOp τ sig (Elt F))).Forall fun op => Proc.devRef .tc main_arg1 ∉ op.writes := by
  simp only [hostOps1, List.Forall, StableHlo.nullary_writes, StableHlo.unary_writes, StableHlo.binary_writes,
    StableHlo.reshape_writes, Finset.mem_singleton]
  repeat' apply And.intro
  all_goals exact StableHlo.devRef_ne_of_ne (by decide)

/-- The first argument is window 0's array, an input: after the region it holds what it held at the entry, no later
    operation writes it, and no earlier one did — so it ends as launched, for any proof data whose arrays are the
    region-entry contents. -/
theorem W_main_arg0 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [List.flatten_cons, List.flatten_nil, List.append_nil]; exact hostOps1_keeps_arg0))]
  exact (Pipeline.withArrays_arr spec0 arr_inj0 c (V0 m c) _ 0).trans
    (((dats 0 c).arrAt_in 0 rfl _).trans ((hA c 0).trans (V_main_arg0 m c)))

/-- The second argument is window 2's array, an input: likewise. -/
theorem W_main_arg1 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [List.flatten_cons, List.flatten_nil, List.append_nil]; exact hostOps1_keeps_arg1))]
  exact (Pipeline.withArrays_arr spec0 arr_inj0 c (V0 m c) _ 2).trans
    (((dats 0 c).arrAt_in 2 rfl _).trans ((hA c 2).trans (V_main_arg1 m c)))

/-- The two argument arrays in a final state satisfying the frame run's post, whatever it says of the other buffers:
    each is an input window's array, which the post puts at its region-entry contents. -/
theorem args_of_post (dats : (p : Fin 1) → (c : Dev nD) → Dat τ (Elt F) Unit ℕ (UR sig nD τ) ℕ (cfgs p) c)
    (hA : ∀ c w, (dats 0 c).A w = V m c (Pipeline.arrRef spec0 w))
    (W : (c : Dev nD) → (b : Ref sig .tc) → Buf (Elt F) ((c.tc : Thread nD τ).loc b))
    (r : PUnit × MemSt nD τ sig (Elt F)) (h : Pipeline.FramePost cfgs dats 0 W r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 0).trans (((dats 0 c).arrAt_in 0 rfl _).trans ((hA c 0).trans (V_main_arg0 m c))),
   ((h c).1 2).trans (((dats 0 c).arrAt_in 2 rfl _).trans ((hA c 2).trans (V_main_arg1 m c)))⟩

/-- The frame claim's post from a frame run, for any proof data whose arrays are the region-entry contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => args_of_post m dats hA _ r h c) h

/-! ## The body's accesses -/

/-- An input block, whole. -/
abbrev rIn : Rect S1x3x512x512 := Rect.unit (s := S1x3x512x512) ![0, 0, 0, 0] S1x3x512x512.size inb_S1x3x512x512_S1x3x512x512_0_0_0_0
/-- The output block, whole. -/
abbrev rOut : Rect S1x8x128 := Rect.unit (s := S1x8x128) ![0, 0, 0] S1x8x128.size inb_S1x8x128_S1x8x128_0_0_0
/-- The output block's cell (0, 0, k). -/
abbrev rCell0 : Rect S1x8x128 := Rect.unit (s := S1x8x128) ![0, 0, 0] S1x1x1.size inb_S1x8x128_S1x1x1_0_0_0
abbrev rCell1 : Rect S1x8x128 := Rect.unit (s := S1x8x128) ![0, 0, 1] S1x1x1.size inb_S1x8x128_S1x1x1_0_0_1
abbrev rCell2 : Rect S1x8x128 := Rect.unit (s := S1x8x128) ![0, 0, 2] S1x1x1.size inb_S1x8x128_S1x1x1_0_0_2
abbrev rCell3 : Rect S1x8x128 := Rect.unit (s := S1x8x128) ![0, 0, 3] S1x1x1.size inb_S1x8x128_S1x1x1_0_0_3
abbrev rCell4 : Rect S1x8x128 := Rect.unit (s := S1x8x128) ![0, 0, 4] S1x1x1.size inb_S1x8x128_S1x1x1_0_0_4
abbrev rCell5 : Rect S1x8x128 := Rect.unit (s := S1x8x128) ![0, 0, 5] S1x1x1.size inb_S1x8x128_S1x1x1_0_0_5
abbrev rCell6 : Rect S1x8x128 := Rect.unit (s := S1x8x128) ![0, 0, 6] S1x1x1.size inb_S1x8x128_S1x1x1_0_0_6
abbrev rCell7 : Rect S1x8x128 := Rect.unit (s := S1x8x128) ![0, 0, 7] S1x1x1.size inb_S1x8x128_S1x1x1_0_0_7
abbrev rCell8 : Rect S1x8x128 := Rect.unit (s := S1x8x128) ![0, 0, 8] S1x1x1.size inb_S1x8x128_S1x1x1_0_0_8
abbrev rCell9 : Rect S1x8x128 := Rect.unit (s := S1x8x128) ![0, 0, 9] S1x1x1.size inb_S1x8x128_S1x1x1_0_0_9
abbrev rCell10 : Rect S1x8x128 := Rect.unit (s := S1x8x128) ![0, 0, 10] S1x1x1.size inb_S1x8x128_S1x1x1_0_0_10
abbrev rCell11 : Rect S1x8x128 := Rect.unit (s := S1x8x128) ![0, 0, 11] S1x1x1.size inb_S1x8x128_S1x1x1_0_0_11
abbrev rCell12 : Rect S1x8x128 := Rect.unit (s := S1x8x128) ![0, 0, 12] S1x1x1.size inb_S1x8x128_S1x1x1_0_0_12

/-! ## What the body leaves in the output block -/

/-- The output block after the body, from the three input blocks `x0` (first argument), `x1` (transformed image),
    `x2` (second argument): its fourteen stores as pieces, the LAST FIRST — the squared-difference sum at cell 12,
    the twelve window sums at cells 11 … 0, and under them the zero fill of the whole block. The payloads are the
    skeleton's, over the blocks read whole. -/
def out0_3 (x0 x1 x2 : Vec F S1x3x512x512 .f32) : Vec F S1x8x128 .f32 :=
  View.canon [
    ⟨rCell12, k0_pay2 (k0_pay3 (View.ld x0 rIn)) (k0_pay5 (View.ld x2 rIn))⟩,
    ⟨rCell11, k0_pay1 (k0_pay45 (k0_pay4 (View.ld x1 rIn))) (k0_pay46 (k0_pay5 (View.ld x2 rIn))) (k0_pay47 (F := F))⟩,
    ⟨rCell10, k0_pay44 (k0_pay43 (k0_pay4 (View.ld x1 rIn)) (k0_pay5 (View.ld x2 rIn)))⟩,
    ⟨rCell9, k0_pay42 (k0_pay41 (k0_pay4 (View.ld x1 rIn)) (k0_pay5 (View.ld x2 rIn)))⟩,
    ⟨rCell8, k0_pay40 (k0_pay39 (k0_pay4 (View.ld x1 rIn)) (k0_pay5 (View.ld x2 rIn)))⟩,
    ⟨rCell7, k0_pay38 (k0_pay4 (View.ld x1 rIn)) (k0_pay5 (View.ld x2 rIn)) (k0_pay36 (F := F)) (k0_pay37 (F := F))⟩,
    ⟨rCell6, k0_pay35 (k0_pay4 (View.ld x1 rIn)) (k0_pay5 (View.ld x2 rIn)) (k0_pay31 (F := F)) (k0_pay32 (F := F))
      (k0_pay33 (k0_pay4 (View.ld x1 rIn))) (k0_pay34 (k0_pay4 (View.ld x1 rIn)))⟩,
    ⟨rCell5, k0_pay30 (k0_pay4 (View.ld x1 rIn)) (k0_pay5 (View.ld x2 rIn)) (k0_pay27 (F := F))
      (k0_pay28 (k0_pay4 (View.ld x1 rIn))) (k0_pay29 (k0_pay5 (View.ld x2 rIn)))⟩,
    ⟨rCell4, k0_pay26 (k0_pay4 (View.ld x1 rIn)) (k0_pay5 (View.ld x2 rIn)) (k0_pay23 (F := F))
      (k0_pay24 (k0_pay4 (View.ld x1 rIn))) (k0_pay25 (k0_pay5 (View.ld x2 rIn)))⟩,
    ⟨rCell3, k0_pay22 (k0_pay4 (View.ld x1 rIn)) (k0_pay5 (View.ld x2 rIn)) (k0_pay19 (k0_pay4 (View.ld x1 rIn)))
      (k0_pay20 (k0_pay5 (View.ld x2 rIn))) (k0_pay21 (k0_pay4 (View.ld x1 rIn)))⟩,
    ⟨rCell2, k0_pay18 (k0_pay4 (View.ld x1 rIn)) (k0_pay5 (View.ld x2 rIn)) (k0_pay15 (k0_pay4 (View.ld x1 rIn)))
      (k0_pay16 (k0_pay5 (View.ld x2 rIn))) (k0_pay17 (k0_pay4 (View.ld x1 rIn)))⟩,
    ⟨rCell1, k0_pay14 (k0_pay4 (View.ld x1 rIn)) (k0_pay5 (View.ld x2 rIn)) (k0_pay10 (k0_pay5 (View.ld x2 rIn)))
      (k0_pay11 (k0_pay4 (View.ld x1 rIn))) (k0_pay12 (k0_pay5 (View.ld x2 rIn))) (k0_pay13 (k0_pay5 (View.ld x2 rIn)))⟩,
    ⟨rCell0, k0_pay9 (k0_pay4 (View.ld x1 rIn)) (k0_pay5 (View.ld x2 rIn)) (k0_pay7 (View.ld x1 rIn)) (k0_pay8 (View.ld x2 rIn))⟩,
    ⟨rOut, k0_pay6 (F := F)⟩]

/-- Every index of the output block lies in the whole block's rectangle. -/
theorem mem_rOut (y : S1x8x128.Idx) : y ∈ (rOut).set :=
  View.mem_set_unit_zero (S := S1x8x128) (by funext a; fin_cases a <;> rfl) inb_S1x8x128_S1x8x128_0_0_0 y

/-- The fourteen stores cover the output block, whatever the thirteen later ones are: the first store — the last
    piece — is the whole block. -/
theorem cover0_3 (p0 p1 p2 p3 p4 p5 p6 p7 p8 p9 p10 p11 p12 : View.Piece (Elt F) S1x8x128 .f32) (p : Vec F S1x8x128 .f32) (y : S1x8x128.Idx) :
    ∃ pc ∈ [p0, p1, p2, p3, p4, p5, p6, p7, p8, p9, p10, p11, p12, (⟨rOut, p⟩ : View.Piece (Elt F) S1x8x128 .f32)], y ∈ pc.1.set :=
  ⟨⟨rOut, p⟩, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_rOut y⟩

/-! ## The body's triple -/

set_option maxHeartbeats 4000000 in
/-- The body on whole staging buffers — the three inputs' holding `x0`, `x1`, `x2`, the output's holding anything —
    runs to the continuation with the inputs' as they were and the output's at `out0_3 x0 x1 x2`: the printed function
    is its skeleton, whose loads, stores and part calls are run one after the other; the values it loads from the
    output block are never used. -/
theorem sound_kernel (c : Dev nD) (E : Set ℕ) (i : grid0.Coords)
    (arg1 : Memref sig .tc .vmem S1x3x512x512 .f32) (harg1 : arg1.IsWhole)
    (arg2 : Memref sig .tc .vmem S1x3x512x512 .f32) (harg2 : arg2.IsWhole)
    (arg3 : Memref sig .tc .vmem S1x3x512x512 .f32) (harg3 : arg3.IsWhole)
    (arg4 : Memref sig .tc .vmem S1x8x128 .f32) (harg4 : arg4.IsWhole)
    (x0 x1 x2 : Vec F S1x3x512x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (out0_3 x0 x1 x2)) -∗ K ⟨⟩))
      ⊢ wp frame (wpE (defs₀ (F := F)) Variants.none c none) E (cc0__stencil_kernel i arg1 harg1 arg2 harg2 arg3 harg3 arg4 harg4) K := by
  simp only [cc0__stencil_kernel_eq_skeleton]; unfold cc0__stencil_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _ _ _ _ _ _ _ _ _ _ _ _)

/-! ## The region's proof data -/

/-- The proof data of the region on core `c`: the arrays as the region finds them; after the body at point `t` each
    input's buffer at its block and the output's at `out0_3` of the three input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents (the definition projected, the contents never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, the core's debts, and the four staging buffers — the
    inputs' at what the schedule left there, the output's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 4000000 in
/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, from any memory with zero counters: every weakly fair execution of @main on the TensorCores
    terminates, and in every final state each array of the region holds what the library computes from the proof data and
    every other unscoped buffer what the later operations leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: every weakly fair execution of @main terminates without a fault and leaves both argument arrays as
    launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.FrameKI.lean ====
/-
  The frame of the stencil-loss program: @main is eight host operations (the colour transform of the first
  argument), one region on a grid of sixteen points — one batch entry each —, and ninety-four host operations
  that reduce the region's result to the loss.

  The region's body reads its three input blocks whole, fills its output block with zeros and then overwrites
  thirteen single cells of it: cell (0,0,k), k = 0 … 11, with the k-th window sum of the entry and cell
  (0,0,12) with the entry's sum of squared differences. What the body leaves in the output block is therefore a
  closed function of the three input blocks: the fourteen stores laid over one another, the last one first
  (`out0_3`). The first store covers the whole block, so the stores cover it, and nothing depends on what the
  block held before.

  With that the run is the library's frame run of a region followed by host operations: the later operations
  touch only unscoped buffers, allocate nothing and write none of the four arrays the region's windows stage,
  so the two argument arrays — which no host operation writes either — end as they were launched.
-/
import proofs.«102783_j41472204210650_1_alg».proof.Proof.Gen.KernelIdeal.Launch
import proofs.«102783_j41472204210650_1_alg».proof.Proof.Gen.KernelIdeal.Skeleton
import proofs.«102783_j41472204210650_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

-- the ninety-four later operations are one `::` list: every fact about them recurses once per operation
set_option maxRecDepth 16384
-- and the statements that mention them are long
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the eight host operations
    of the colour transform. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The operations before the region allocate nothing. -/
theorem hostOps0_fresh : (hostOps0 : List (HloOp τ sig (Elt F))).Forall fun op => op.fresh = ∅ := by
  simp only [List.Forall]; repeat' constructor

set_option maxHeartbeats 4000000 in
/-- Nor do the operations after it. -/
theorem hostOps1_fresh : (hostOps1 : List (HloOp τ sig (Elt F))).Forall fun op => op.fresh = ∅ := by
  simp only [List.Forall]; repeat' constructor

/-- @main is the earlier operations, the region, the later operations: it reduces to the region continued by the later
    operations, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

set_option maxHeartbeats 4000000 in
/-- No later operation writes an array of the region's four windows (the two arguments, the transformed image, the
    region's result): each writes its own result buffer, which is none of them. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes,
    StableHlo.reshape_writes, Finset.mem_singleton]
  repeat' apply And.intro
  all_goals intro w; fin_cases w <;> exact StableHlo.devRef_ne_of_ne (by decide)

/-- The later operations touch unscoped TensorCore buffers only: the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- And they write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  exact (List.forall_iff_forall_mem.mp hostOps1_keeps) op hop

/-- No operation before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, Finset.mem_singleton]
    repeat' apply And.intro
    all_goals exact StableHlo.devRef_ne_of_ne (by decide)))

/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t` (batch entry `t` of its array), read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the run -/

/-- The region's arrays are pairwise distinct buffers. -/
theorem arr_inj0 : Function.Injective (Pipeline.arrRef spec0) := launch0.win.arr_inj

set_option maxHeartbeats 4000000 in
/-- No later operation writes the first argument. -/
theorem hostOps1_keeps_arg0 : (hostOps1 : List (HloOp τ sig (Elt F))).Forall fun op => Proc.devRef .tc main_arg0 ∉ op.writes := by
  simp only [hostOps1, List.Forall, StableHlo.nullary_writes, StableHlo.unary_writes, StableHlo.binary_writes,
    StableHlo.reshape_writes, Finset.mem_singleton]
  repeat' apply And.intro
  all_goals exact StableHlo.devRef_ne_of_ne (by decide)

set_option maxHeartbeats 4000000 in
/-- Nor the second. -/
theorem hostOps1_keeps_arg1 : (hostOps1 : List (HloOp τ sig (Elt F))).Forall fun op => Proc.devRef .tc main_arg1 ∉ op.writes := by
  simp only [hostOps1, List.Forall, StableHlo.nullary_writes, StableHlo.unary_writes, StableHlo.binary_writes,
    StableHlo.reshape_writes, Finset.mem_singleton]
  repeat' apply And.intro
  all_goals exact StableHlo.devRef_ne_of_ne (by decide)

/-- The first argument is window 0's array, an input: after the region it holds what it held at the entry, no later
    operation writes it, and no earlier one did — so it ends as launched, for any proof data whose arrays are the
    region-entry contents. -/
theorem W_main_arg0 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [List.flatten_cons, List.flatten_nil, List.append_nil]; exact hostOps1_keeps_arg0))]
  exact (Pipeline.withArrays_arr spec0 arr_inj0 c (V0 m c) _ 0).trans
    (((dats 0 c).arrAt_in 0 rfl _).trans ((hA c 0).trans (V_main_arg0 m c)))

/-- The second argument is window 2's array, an input: likewise. -/
theorem W_main_arg1 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [List.flatten_cons, List.flatten_nil, List.append_nil]; exact hostOps1_keeps_arg1))]
  exact (Pipeline.withArrays_arr spec0 arr_inj0 c (V0 m c) _ 2).trans
    (((dats 0 c).arrAt_in 2 rfl _).trans ((hA c 2).trans (V_main_arg1 m c)))

/-- The two argument arrays in a final state satisfying the frame run's post, whatever it says of the other buffers:
    each is an input window's array, which the post puts at its region-entry contents. -/
theorem args_of_post (dats : (p : Fin 1) → (c : Dev nD) → Dat τ (Elt F) Unit ℕ (UR sig nD τ) ℕ (cfgs p) c)
    (hA : ∀ c w, (dats 0 c).A w = V m c (Pipeline.arrRef spec0 w))
    (W : (c : Dev nD) → (b : Ref sig .tc) → Buf (Elt F) ((c.tc : Thread nD τ).loc b))
    (r : PUnit × MemSt nD τ sig (Elt F)) (h : Pipeline.FramePost cfgs dats 0 W r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 0).trans (((dats 0 c).arrAt_in 0 rfl _).trans ((hA c 0).trans (V_main_arg0 m c))),
   ((h c).1 2).trans (((dats 0 c).arrAt_in 2 rfl _).trans ((hA c 2).trans (V_main_arg1 m c)))⟩

/-- The frame claim's post from a frame run, for any proof data whose arrays are the region-entry contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => args_of_post m dats hA _ r h c) h

/-! ## The body's accesses -/

/-- An input block, whole. -/
abbrev rIn : Rect S1x3x512x512 := Rect.unit (s := S1x3x512x512) ![0, 0, 0, 0] S1x3x512x512.size inb_S1x3x512x512_S1x3x512x512_0_0_0_0
/-- The output block, whole. -/
abbrev rOut : Rect S1x8x128 := Rect.unit (s := S1x8x128) ![0, 0, 0] S1x8x128.size inb_S1x8x128_S1x8x128_0_0_0
/-- The output block's cell (0, 0, k). -/
abbrev rCell0 : Rect S1x8x128 := Rect.unit (s := S1x8x128) ![0, 0, 0] S1x1x1.size inb_S1x8x128_S1x1x1_0_0_0
abbrev rCell1 : Rect S1x8x128 := Rect.unit (s := S1x8x128) ![0, 0, 1] S1x1x1.size inb_S1x8x128_S1x1x1_0_0_1
abbrev rCell2 : Rect S1x8x128 := Rect.unit (s := S1x8x128) ![0, 0, 2] S1x1x1.size inb_S1x8x128_S1x1x1_0_0_2
abbrev rCell3 : Rect S1x8x128 := Rect.unit (s := S1x8x128) ![0, 0, 3] S1x1x1.size inb_S1x8x128_S1x1x1_0_0_3
abbrev rCell4 : Rect S1x8x128 := Rect.unit (s := S1x8x128) ![0, 0, 4] S1x1x1.size inb_S1x8x128_S1x1x1_0_0_4
abbrev rCell5 : Rect S1x8x128 := Rect.unit (s := S1x8x128) ![0, 0, 5] S1x1x1.size inb_S1x8x128_S1x1x1_0_0_5
abbrev rCell6 : Rect S1x8x128 := Rect.unit (s := S1x8x128) ![0, 0, 6] S1x1x1.size inb_S1x8x128_S1x1x1_0_0_6
abbrev rCell7 : Rect S1x8x128 := Rect.unit (s := S1x8x128) ![0, 0, 7] S1x1x1.size inb_S1x8x128_S1x1x1_0_0_7
abbrev rCell8 : Rect S1x8x128 := Rect.unit (s := S1x8x128) ![0, 0, 8] S1x1x1.size inb_S1x8x128_S1x1x1_0_0_8
abbrev rCell9 : Rect S1x8x128 := Rect.unit (s := S1x8x128) ![0, 0, 9] S1x1x1.size inb_S1x8x128_S1x1x1_0_0_9
abbrev rCell10 : Rect S1x8x128 := Rect.unit (s := S1x8x128) ![0, 0, 10] S1x1x1.size inb_S1x8x128_S1x1x1_0_0_10
abbrev rCell11 : Rect S1x8x128 := Rect.unit (s := S1x8x128) ![0, 0, 11] S1x1x1.size inb_S1x8x128_S1x1x1_0_0_11
abbrev rCell12 : Rect S1x8x128 := Rect.unit (s := S1x8x128) ![0, 0, 12] S1x1x1.size inb_S1x8x128_S1x1x1_0_0_12

/-! ## What the body leaves in the output block -/

/-- The output block after the body, from the three input blocks `x0` (first argument), `x1` (transformed image),
    `x2` (second argument): its fourteen stores as pieces, the LAST FIRST — the squared-difference sum at cell 12,
    the twelve window sums at cells 11 … 0, and under them the zero fill of the whole block. The payloads are the
    skeleton's, over the blocks read whole. -/
def out0_3 (x0 x1 x2 : Vec F S1x3x512x512 .f32) : Vec F S1x8x128 .f32 :=
  View.canon [
    ⟨rCell12, k0_pay2 (k0_pay3 (View.ld x0 rIn)) (k0_pay5 (View.ld x2 rIn))⟩,
    ⟨rCell11, k0_pay1 (k0_pay45 (k0_pay4 (View.ld x1 rIn))) (k0_pay46 (k0_pay5 (View.ld x2 rIn))) (k0_pay47 (F := F))⟩,
    ⟨rCell10, k0_pay44 (k0_pay43 (k0_pay4 (View.ld x1 rIn)) (k0_pay5 (View.ld x2 rIn)))⟩,
    ⟨rCell9, k0_pay42 (k0_pay41 (k0_pay4 (View.ld x1 rIn)) (k0_pay5 (View.ld x2 rIn)))⟩,
    ⟨rCell8, k0_pay40 (k0_pay39 (k0_pay4 (View.ld x1 rIn)) (k0_pay5 (View.ld x2 rIn)))⟩,
    ⟨rCell7, k0_pay38 (k0_pay4 (View.ld x1 rIn)) (k0_pay5 (View.ld x2 rIn)) (k0_pay36 (F := F)) (k0_pay37 (F := F))⟩,
    ⟨rCell6, k0_pay35 (k0_pay4 (View.ld x1 rIn)) (k0_pay5 (View.ld x2 rIn)) (k0_pay31 (F := F)) (k0_pay32 (F := F))
      (k0_pay33 (k0_pay4 (View.ld x1 rIn))) (k0_pay34 (k0_pay4 (View.ld x1 rIn)))⟩,
    ⟨rCell5, k0_pay30 (k0_pay4 (View.ld x1 rIn)) (k0_pay5 (View.ld x2 rIn)) (k0_pay27 (F := F))
      (k0_pay28 (k0_pay4 (View.ld x1 rIn))) (k0_pay29 (k0_pay5 (View.ld x2 rIn)))⟩,
    ⟨rCell4, k0_pay26 (k0_pay4 (View.ld x1 rIn)) (k0_pay5 (View.ld x2 rIn)) (k0_pay23 (F := F))
      (k0_pay24 (k0_pay4 (View.ld x1 rIn))) (k0_pay25 (k0_pay5 (View.ld x2 rIn)))⟩,
    ⟨rCell3, k0_pay22 (k0_pay4 (View.ld x1 rIn)) (k0_pay5 (View.ld x2 rIn)) (k0_pay19 (k0_pay4 (View.ld x1 rIn)))
      (k0_pay20 (k0_pay5 (View.ld x2 rIn))) (k0_pay21 (k0_pay4 (View.ld x1 rIn)))⟩,
    ⟨rCell2, k0_pay18 (k0_pay4 (View.ld x1 rIn)) (k0_pay5 (View.ld x2 rIn)) (k0_pay15 (k0_pay4 (View.ld x1 rIn)))
      (k0_pay16 (k0_pay5 (View.ld x2 rIn))) (k0_pay17 (k0_pay4 (View.ld x1 rIn)))⟩,
    ⟨rCell1, k0_pay14 (k0_pay4 (View.ld x1 rIn)) (k0_pay5 (View.ld x2 rIn)) (k0_pay10 (k0_pay5 (View.ld x2 rIn)))
      (k0_pay11 (k0_pay4 (View.ld x1 rIn))) (k0_pay12 (k0_pay5 (View.ld x2 rIn))) (k0_pay13 (k0_pay5 (View.ld x2 rIn)))⟩,
    ⟨rCell0, k0_pay9 (k0_pay4 (View.ld x1 rIn)) (k0_pay5 (View.ld x2 rIn)) (k0_pay7 (View.ld x1 rIn)) (k0_pay8 (View.ld x2 rIn))⟩,
    ⟨rOut, k0_pay6 (F := F)⟩]

/-- Every index of the output block lies in the whole block's rectangle. -/
theorem mem_rOut (y : S1x8x128.Idx) : y ∈ (rOut).set :=
  View.mem_set_unit_zero (S := S1x8x128) (by funext a; fin_cases a <;> rfl) inb_S1x8x128_S1x8x128_0_0_0 y

/-- The fourteen stores cover the output block, whatever the thirteen later ones are: the first store — the last
    piece — is the whole block. -/
theorem cover0_3 (p0 p1 p2 p3 p4 p5 p6 p7 p8 p9 p10 p11 p12 : View.Piece (Elt F) S1x8x128 .f32) (p : Vec F S1x8x128 .f32) (y : S1x8x128.Idx) :
    ∃ pc ∈ [p0, p1, p2, p3, p4, p5, p6, p7, p8, p9, p10, p11, p12, (⟨rOut, p⟩ : View.Piece (Elt F) S1x8x128 .f32)], y ∈ pc.1.set :=
  ⟨⟨rOut, p⟩, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_rOut y⟩

/-! ## The body's triple -/

set_option maxHeartbeats 4000000 in
/-- The body on whole staging buffers — the three inputs' holding `x0`, `x1`, `x2`, the output's holding anything —
    runs to the continuation with the inputs' as they were and the output's at `out0_3 x0 x1 x2`: the printed function
    is its skeleton, whose loads, stores and part calls are run one after the other; the values it loads from the
    output block are never used. -/
theorem sound_kernel (c : Dev nD) (E : Set ℕ) (i : grid0.Coords)
    (arg1 : Memref sig .tc .vmem S1x3x512x512 .f32) (harg1 : arg1.IsWhole)
    (arg2 : Memref sig .tc .vmem S1x3x512x512 .f32) (harg2 : arg2.IsWhole)
    (arg3 : Memref sig .tc .vmem S1x3x512x512 .f32) (harg3 : arg3.IsWhole)
    (arg4 : Memref sig .tc .vmem S1x8x128 .f32) (harg4 : arg4.IsWhole)
    (x0 x1 x2 : Vec F S1x3x512x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (out0_3 x0 x1 x2)) -∗ K ⟨⟩))
      ⊢ wp frame (wpE (defs₀ (F := F)) Variants.none c none) E (cc0__stencil_kernel i arg1 harg1 arg2 harg2 arg3 harg3 arg4 harg4) K := by
  simp only [cc0__stencil_kernel_eq_skeleton]; unfold cc0__stencil_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _ _ _ _ _ _ _ _ _ _ _ _)

/-! ## The region's proof data -/

/-- The proof data of the region on core `c`: the arrays as the region finds them; after the body at point `t` each
    input's buffer at its block and the output's at `out0_3` of the three input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents (the definition projected, the contents never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, the core's debts, and the four staging buffers — the
    inputs' at what the schedule left there, the output's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 4000000 in
/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, from any memory with zero counters: every weakly fair execution of @main on the TensorCores
    terminates, and in every final state each array of the region holds what the library computes from the proof data and
    every other unscoped buffer what the later operations leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: every weakly fair execution of @main terminates without a fault and leaves both argument arrays as
    launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KerBlocks.lean ====
/-
  Where the kernel's blocks sit in their arrays. The grid has 16 points, one per batch entry; at point `t` each of the three input
  windows is the 1 × 3 × 512 × 512 slab number `t` of its array and the output window is row `t` (1 × 8 × 128) of the 16 × 8 × 128 table,
  so an element of a block is the array's element with the batch coordinate `t` and the same remaining coordinates, and the sixteen
  output blocks cover the table.
-/
import proofs.«102783_j41472204210650_1_alg».proof.Proof.Gen.KernelIdeal.Launch
import proofs.«102783_j41472204210650_1_alg».proof.Proof.Gen.KernelIdeal.Points
import Idealize.ShloMosaic.Lib.Pipeline.Value
import Idealize.ShloMosaic.Lib.ValueIdx

set_option maxRecDepth 16384
noncomputable section
namespace Cert.KernelIdeal.Blk
open Cert.KernelIdeal Cert.KernelIdeal.Gen Idealize.ShloMosaic Idealize.ShloMosaic.TcCoe Idealize.SL.Sem Idealize.ShloMosaic.ValueIdx
open Idealize.ShloMosaic.Pipeline (Dat Cfg Window)

/-- Every window's block index at grid point `t` is `t` on the batch axis and zero elsewhere. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0
    ∧ win0_3.index t (0 : Fin 3) = t.val ∧ win0_3.index t (1 : Fin 3) = 0 ∧ win0_3.index t (2 : Fin 3) = 0 :=
  (by decide +kernel : ∀ t : Fin grid0.N, _)

theorem tlt (t : Fin cfg0.N) : t.val < 16 := by have := t.isLt; have hN : cfg0.N = 16 := N_0; omega

/-- An element of the output window's block at point `t` sits in row `t` of the table. -/
theorem emb3 (t : Fin cfg0.N) (j : S1x8x128.Idx) :
    ((cfg0.win 3).blk t).view.emb j = (ix3 (⟨t.val, tlt t⟩ : Fin 16) (⟨(j 1).val, (j 1).isLt⟩ : Fin 8) (⟨(j 2).val, (j 2).isLt⟩ : Fin 128) : S16x8x128.Idx) := by
  obtain ⟨-, -, -, -, -, -, -, -, -, -, -, -, e0, e1, e2⟩ := idx_facts t
  funext a; apply Fin.ext
  match a with
  | ⟨0, _⟩ => show win0_3.index t (0 : Fin 3) * 1 + 1 * (j 0).val = t.val; have hj : (j 0).val < 1 := (j 0).isLt; omega
  | ⟨1, _⟩ => show win0_3.index t (1 : Fin 3) * 8 + 1 * (j 1).val = (j 1).val; omega
  | ⟨2, _⟩ => show win0_3.index t (2 : Fin 3) * 128 + 1 * (j 2).val = (j 2).val; omega

/-- An element of an input window's block at point `t` sits in batch entry `t` of its array. -/
theorem embIn0 (t : Fin cfg0.N) (j : S1x3x512x512.Idx) :
    ((cfg0.win 0).blk t).view.emb j = (ix4 (⟨t.val, tlt t⟩ : Fin 16) (⟨(j 1).val, (j 1).isLt⟩ : Fin 3) (⟨(j 2).val, (j 2).isLt⟩ : Fin 512) (⟨(j 3).val, (j 3).isLt⟩ : Fin 512) : S16x3x512x512.Idx) := by
  obtain ⟨e0, e1, e2, e3, -⟩ := idx_facts t
  funext a; apply Fin.ext
  match a with
  | ⟨0, _⟩ => show win0_0.index t (0 : Fin 4) * 1 + 1 * (j 0).val = t.val; have hj : (j 0).val < 1 := (j 0).isLt; omega
  | ⟨1, _⟩ => show win0_0.index t (1 : Fin 4) * 3 + 1 * (j 1).val = (j 1).val; omega
  | ⟨2, _⟩ => show win0_0.index t (2 : Fin 4) * 512 + 1 * (j 2).val = (j 2).val; omega
  | ⟨3, _⟩ => show win0_0.index t (3 : Fin 4) * 512 + 1 * (j 3).val = (j 3).val; omega

theorem embIn1 (t : Fin cfg0.N) (j : S1x3x512x512.Idx) :
    ((cfg0.win 1).blk t).view.emb j = (ix4 (⟨t.val, tlt t⟩ : Fin 16) (⟨(j 1).val, (j 1).isLt⟩ : Fin 3) (⟨(j 2).val, (j 2).isLt⟩ : Fin 512) (⟨(j 3).val, (j 3).isLt⟩ : Fin 512) : S16x3x512x512.Idx) := by
  obtain ⟨-, -, -, -, e0, e1, e2, e3, -⟩ := idx_facts t
  funext a; apply Fin.ext
  match a with
  | ⟨0, _⟩ => show win0_1.index t (0 : Fin 4) * 1 + 1 * (j 0).val = t.val; have hj : (j 0).val < 1 := (j 0).isLt; omega
  | ⟨1, _⟩ => show win0_1.index t (1 : Fin 4) * 3 + 1 * (j 1).val = (j 1).val; omega
  | ⟨2, _⟩ => show win0_1.index t (2 : Fin 4) * 512 + 1 * (j 2).val = (j 2).val; omega
  | ⟨3, _⟩ => show win0_1.index t (3 : Fin 4) * 512 + 1 * (j 3).val = (j 3).val; omega

theorem embIn2 (t : Fin cfg0.N) (j : S1x3x512x512.Idx) :
    ((cfg0.win 2).blk t).view.emb j = (ix4 (⟨t.val, tlt t⟩ : Fin 16) (⟨(j 1).val, (j 1).isLt⟩ : Fin 3) (⟨(j 2).val, (j 2).isLt⟩ : Fin 512) (⟨(j 3).val, (j 3).isLt⟩ : Fin 512) : S16x3x512x512.Idx) := by
  obtain ⟨-, -, -, -, -, -, -, -, e0, e1, e2, e3, -⟩ := idx_facts t
  funext a; apply Fin.ext
  match a with
  | ⟨0, _⟩ => show win0_2.index t (0 : Fin 4) * 1 + 1 * (j 0).val = t.val; have hj : (j 0).val < 1 := (j 0).isLt; omega
  | ⟨1, _⟩ => show win0_2.index t (1 : Fin 4) * 3 + 1 * (j 1).val = (j 1).val; omega
  | ⟨2, _⟩ => show win0_2.index t (2 : Fin 4) * 512 + 1 * (j 2).val = (j 2).val; omega
  | ⟨3, _⟩ => show win0_2.index t (3 : Fin 4) * 512 + 1 * (j 3).val = (j 3).val; omega

/-- An index of the table lies in point `t`'s block iff each coordinate lies in the block's range on its axis. -/
theorem mem_blk3 (t : Fin cfg0.N) (i : S16x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v6).slice (win0_3.rect t)).set ↔ _
  rw [View.set_slice_whole, Rect.mem_set_unit]
  exact Iff.rfl

/-- Every row of the table is some point's block: row `b` is point `b`'s. -/
theorem cover3 (i : S16x8x128.Idx) : ∃ t : Fin cfg0.N, (cfg0.win 3).flush t = true ∧ i ∈ ((cfg0.win 3).blk t).view.set := by
  have h0 : (i 0).val < 16 := (i 0).isLt
  have h1 : (i 1).val < 8 := (i 1).isLt
  have h2 : (i 2).val < 128 := (i 2).isLt
  have hN : cfg0.N = 16 := N_0
  refine ⟨⟨(i 0).val, by omega⟩, flush0_3 _, ?_⟩
  rw [mem_blk3]
  obtain ⟨-, -, -, -, -, -, -, -, -, -, -, -, e0, e1, e2⟩ := idx_facts ⟨(i 0).val, by omega⟩
  intro a
  match a with
  | ⟨0, _⟩ => show win0_3.index _ (0 : Fin 3) * 1 ≤ (i 0).val ∧ (i 0).val < win0_3.index _ (0 : Fin 3) * 1 + 1; simp only at e0; omega
  | ⟨1, _⟩ => show win0_3.index _ (1 : Fin 3) * 8 ≤ (i 1).val ∧ (i 1).val < win0_3.index _ (1 : Fin 3) * 8 + 8; omega
  | ⟨2, _⟩ => show win0_3.index _ (2 : Fin 3) * 128 ≤ (i 2).val ∧ (i 2).val < win0_3.index _ (2 : Fin 3) * 128 + 128; omega

end Cert.KernelIdeal.Blk
end
-- ==== Proof.LibSumIdx.lean ====
/-
  Sums over index sets of rank 3 and rank 4 as iterated sums over the coordinates.

  An index of a shape ⟨3, ![n0, n1, n2]⟩ is the triple of its coordinates (`idxEquiv3`), so a sum over all indices, in any commutative
  additive monoid, is the triple sum over `Fin n0`, `Fin n1`, `Fin n2` of the summand at `ix3 a b c` (`sum_idx3`); likewise for rank 4
  (`idxEquiv4`, `sum_idx4`). They continue the library's `idxEquiv2` / `sum_idx2`. Typical use: a host reduction over every axis reads
  as `init + ∑ i : S.Idx, x i`; these lemmas turn it into the iterated sum that a kernel's axis-by-axis reductions produce.
-/
import Idealize.ShloMosaic.Lib.ValueIdx

noncomputable section

open scoped BigOperators

namespace Cert.Lib.SumIdx

open Idealize.ShloMosaic Idealize.ShloMosaic.ValueIdx

/-- A sum over a rank-3 index set is the triple sum over its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The same for rank 4. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.Lib.SumIdx

end
-- ==== Proof.Spec.lean ====
/-
  The quantity both programs compute, stated once over the extended reals.

  Two images `Y`, `T` of shape 16 × 3 × 512 × 512 and a pair of windows of `h × w` pixels, the first anchored at
  `(ay, ax)` and the second at `(by, bx)`.  At a pixel `(r, c)` of the window and a batch entry `b` the term is
      exp(γ · Σ_ch (Y[b,ch,ay+r,ax+c] − Y[b,ch,by+r,bx+c])²) · Σ_ch |T[b,ch,ay+r,ax+c] − T[b,ch,by+r,bx+c]|
  (`px`), and `tot` sums it over the batch and the window.  `sq` is the sum of all squared differences of two images.
  The loss adds, for twelve window pairs, twice the mean of `tot`, and 1.5 times the mean of `sq` (`loss`).
  Sums are finite sums in the commutative monoid of extended reals, so their order and grouping are immaterial.
-/
import Idealize.ShloMosaic.PureOps.Ideal
import Idealize.ShloMosaic.Lib.ValueIdx
import proofs.«102783_j41472204210650_1_alg».proof.Proof.LibSumIdx

noncomputable section

open scoped BigOperators

namespace Cert.Stencil

open Idealize.ShloMosaic Idealize.ShloMosaic.ValueIdx

export Cert.Lib.SumIdx (idxEquiv3 sum_idx3 idxEquiv4 sum_idx4)

/-- An image batch: 16 entries of 3 channels of 512 × 512 pixels. -/
abbrev Img : Type := (⟨4, ![16, 3, 512, 512]⟩ : Shape).Idx → EReal

/-- The image read at natural-number pixel coordinates (zero outside the image; never used there). -/
def rd (A : Img) (b : Fin 16) (ch : Fin 3) (r c : ℕ) : EReal :=
  if h : r < 512 ∧ c < 512 then A (ix4 b ch ⟨r, h.1⟩ ⟨c, h.2⟩) else 0

theorem rd_eq (A : Img) (b : Fin 16) (ch : Fin 3) (r c : ℕ) (hr : r < 512) (hc : c < 512) :
    rd A b ch r c = A (ix4 b ch ⟨r, hr⟩ ⟨c, hc⟩) := dif_pos ⟨hr, hc⟩

/-- The difference of the two windows at a pixel. -/
def dif (A : Img) (ay ax by_ bx : ℕ) (b : Fin 16) (ch : Fin 3) (r c : ℕ) : EReal :=
  rd A b ch (ay + r) (ax + c) - rd A b ch (by_ + r) (bx + c)

/-- The scale γ of the exponent: the float word of −0.005, as both programs spell it. -/
def gam : EReal := Ideal.ofBits .f32 0xBBA3D70A#32

/-- One pixel's term. -/
def px (Y T : Img) (ay ax by_ bx : ℕ) (b : Fin 16) (r c : ℕ) : EReal :=
  Ideal.exp ((∑ ch : Fin 3, dif Y ay ax by_ bx b ch r c * dif Y ay ax by_ bx b ch r c) * gam)
    * ∑ ch : Fin 3, max (dif T ay ax by_ bx b ch r c) (-(dif T ay ax by_ bx b ch r c))

/-- The term summed over the batch and an `h × w` window. -/
def tot (Y T : Img) (ay ax by_ bx h w : ℕ) : EReal :=
  ∑ b : Fin 16, ∑ r : Fin h, ∑ c : Fin w, px Y T ay ax by_ bx b r.val c.val

/-- The sum of all squared differences of two images. -/
def sq (X T : Img) : EReal :=
  ∑ b : Fin 16, ∑ ch : Fin 3, ∑ r : Fin 512, ∑ c : Fin 512, (X (ix4 b ch r c) - T (ix4 b ch r c)) * (X (ix4 b ch r c) - T (ix4 b ch r c))

/-- Twice the mean: the sum (started from the zero word) divided by the pixel count `N` (a float word), doubled. -/
def mean2 (S : EReal) (N : BitVec 32) : EReal :=
  Ideal.ofBits .f32 0x40000000#32 * Ideal.div (Ideal.ofBits .f32 0x00000000#32 + S) (Ideal.ofBits .f32 N)

/-- The loss from the twelve window sums `s k` and the squared-difference sum `f`. -/
def lossOf (s : Fin 12 → EReal) (f : EReal) : EReal :=
  ((((((((((((Ideal.ofBits .f32 0x00000000#32 + mean2 (s 0) 0x4A7F8000#32) + mean2 (s 1) 0x4A7F8000#32)
    + mean2 (s 2) 0x4A7F0040#32) + mean2 (s 3) 0x4A7F0040#32) + mean2 (s 4) 0x4A7F0000#32) + mean2 (s 5) 0x4A7F0000#32)
    + mean2 (s 6) 0x4A7E8080#32) + mean2 (s 7) 0x4A7E8080#32) + mean2 (s 8) 0x4A7E8080#32) + mean2 (s 9) 0x4A7E8080#32)
    + mean2 (s 10) 0x4A7E0100#32) + mean2 (s 11) 0x4A7E0100#32)
    + Ideal.ofBits .f32 0x3FC00000#32 * Ideal.div (Ideal.ofBits .f32 0x00000000#32 + f) (Ideal.ofBits .f32 0x4B400000#32)

/-- The twelve window sums of the loss, in the programs' order. -/
def tots (Y T : Img) : Fin 12 → EReal
  | 0 => tot Y T 1 0 0 0 511 512
  | 1 => tot Y T 0 1 0 0 512 511
  | 2 => tot Y T 1 1 0 0 511 511
  | 3 => tot Y T 1 0 0 1 511 511
  | 4 => tot Y T 2 0 0 0 510 512
  | 5 => tot Y T 0 2 0 0 512 510
  | 6 => tot Y T 2 1 0 0 510 511
  | 7 => tot Y T 2 0 0 1 510 511
  | 8 => tot Y T 1 2 0 0 511 510
  | 9 => tot Y T 1 0 0 2 511 510
  | 10 => tot Y T 2 2 0 0 510 510
  | 11 => tot Y T 2 0 0 2 510 510

/-- The loss of an input pair `X`, `T` whose colour-transformed image is `Y`. -/
def loss (X Y T : Img) : EReal := lossOf (tots Y T) (sq X T)

end Cert.Stencil

end
-- ==== Proof.KerTail.lean ====
/-
  The host lines after the kernel's region, read as a value. From the 16 × 8 × 128 table `O` the region leaves they form the sum over
  the batch axis (from the zero word), take the cells (0, k) for k = 0 … 12 of that sum as scalars, divide each by its pixel-count word,
  double the first twelve and add them up from the zero word, and add 1.5 times the thirteenth: the loss of the table's column sums.
  A cell of the batch sum is the zero word plus the sum over the batch of the table's entries in that column of row 0.
-/
import proofs.«102783_j41472204210650_1_alg».proof.Proof.Gen.KernelIdeal.Launch
import proofs.«102783_j41472204210650_1_alg».proof.Proof.Spec
import Idealize.ShloMosaic.Lib.StableHlo.Run
import Idealize.ShloMosaic.PureOps.Ideal.Laws
import Idealize.ShloMosaic.Lib.Pipeline.Value
import Idealize.ShloMosaic.Lib.IdealHost

set_option maxRecDepth 16384
noncomputable section
namespace Cert.KernelIdeal.Tail
open Cert.KernelIdeal Cert.KernelIdeal.Gen Idealize.ShloMosaic Idealize.ShloMosaic.TcCoe Idealize.SL.Sem Idealize.ShloMosaic.StableHlo Idealize.ShloMosaic.ValueIdx
open scoped BigOperators

theorem red0 : S16x8x128.Reduces [0] S8x128 := by decide

set_option backward.isDefEq.respectTransparency.types false in
theorem lift_cell (h : S16x8x128.Reduces [0] S8x128) (k : Fin 128) (b : Fin 16) :
    h.lift (ix2 (0 : Fin 8) k) b = ix3 b (0 : Fin 8) k := by
  funext c
  apply Fin.ext
  rw [h.lift_val]
  unfold Shape.Reduces.liftVal
  match c with
  | ⟨0, _⟩ => rfl
  | ⟨1, _⟩ => rfl
  | ⟨2, _⟩ => rfl

set_option backward.isDefEq.respectTransparency.types false in
/-- One cell of the batch sum: the slice [0:1, k:k+1] of the sum over the batch axis, as a scalar. -/
theorem acc_cell (O : FVec Ideal S16x8x128 .f32) (k : ℕ) (hk : k < 128) (hred : S16x8x128.ReducesTo [0] S8x128) (hpos : 0 < S_.numel)
    (hs : S8x128.Slices ![0, k] S1x1) (hc : S1x1.ShapeCasts S_) (i : S_.Idx) :
    shapeCast S_ (extractStridedSlice S1x1 ![0, k] (Host.reduceAdd (F := Ideal) O (constant S_ .f32 0x00000000#32) hred hpos) hs) hc i
      = Ideal.ofBits .f32 0x00000000#32 + ∑ b : Fin 16, O (ix3 b (0 : Fin 8) ⟨k, hk⟩) := by
  rw [shapeCast_apply _ hc i (ix2 (0 : Fin 1) (0 : Fin 1)) (by rw [eq_ix0 i]; rfl)]
  rw [extractStridedSlice_apply ![0, k] _ hs (ix2 (0 : Fin 1) (0 : Fin 1)) (ix2 (0 : Fin 8) (⟨k, hk⟩ : Fin 128))
    (fun a => by match a with | ⟨0, _⟩ => rfl | ⟨1, _⟩ => rfl)]
  rw [hostReduceAdd_apply, Ideal.hostReduceAdd_single hred red0]
  refine congrArg₂ (· + ·) rfl ?_
  exact Finset.sum_congr rfl fun b _ => congrArg O (lift_cell red0 ⟨k, hk⟩ b)

/-- The column `k` of row 0 of the output table summed over the batch. -/
def colSum (O : FVec Ideal S16x8x128 .f32) (k : ℕ) (hk : k < 128) : EReal := ∑ b : Fin 16, O (ix3 b (0 : Fin 8) ⟨k, hk⟩)

theorem acc_cellT (T : Shape) (hT : T = S_) (O : FVec Ideal S16x8x128 .f32) (k : ℕ) (hk : k < 128) (hred : S16x8x128.ReducesTo [0] S8x128) (hpos : 0 < S_.numel)
    (hs : S8x128.Slices ![0, k] S1x1) (hc : S1x1.ShapeCasts T) (i : T.Idx) :
    shapeCast T (extractStridedSlice S1x1 ![0, k] (Host.reduceAdd (F := Ideal) O (constant S_ .f32 0x00000000#32) hred hpos) hs) hc i
      = Ideal.ofBits .f32 0x00000000#32 + colSum O k hk := by
  subst hT; exact acc_cell O k hk hred hpos hs hc i

set_option maxHeartbeats 4000000 in
/-- The host lines after the region: from the output table `O` (in `main_v6`) they compute the loss of its column sums. -/
theorem tail_value (W : Valuation τ sig (Elt Ideal)) :
    StableHlo.after (hostOps1 (F := Ideal)) W (Proc.devRef .tc main_v72)
      = fun _ => Cert.Stencil.lossOf (fun k => colSum (W (Proc.devRef .tc main_v6)) k.val (by omega)) (colSum (W (Proc.devRef .tc main_v6)) 12 (by decide)) := by
  after_results_simp
  funext i
  simp only [addf_apply, mulf_apply, hostDivf_apply, constant_apply,
    acc_cellT main_v9.ty.shape rfl _ 0 (by decide), acc_cellT main_v14.ty.shape rfl _ 1 (by decide), acc_cellT main_v19.ty.shape rfl _ 2 (by decide), acc_cellT main_v24.ty.shape rfl _ 3 (by decide), acc_cellT main_v29.ty.shape rfl _ 4 (by decide), acc_cellT main_v34.ty.shape rfl _ 5 (by decide), acc_cellT main_v39.ty.shape rfl _ 6 (by decide), acc_cellT main_v44.ty.shape rfl _ 7 (by decide), acc_cellT main_v49.ty.shape rfl _ 8 (by decide), acc_cellT main_v54.ty.shape rfl _ 9 (by decide), acc_cellT main_v59.ty.shape rfl _ 10 (by decide), acc_cellT main_v64.ty.shape rfl _ 11 (by decide), acc_cellT main_v69.ty.shape rfl _ 12 (by decide)]
  rfl

end Cert.KernelIdeal.Tail
end
-- ==== Proof.KerCells.lean ====
/-
  The output block after the kernel body, read cell by cell. The body's fourteen stores are, in program order, a fill of the whole
  1 × 8 × 128 block and thirteen single cells (0, 0, k), k = 0 … 12, each written once; so the block's final contents at cell (0, 0, k)
  are the k-th single store's value (the later stores touch other cells), whatever the fill was.
-/
import proofs.«102783_j41472204210650_1_alg».proof.Proof.FrameKI
import Idealize.ShloMosaic.Lib.ValueIdx

set_option maxRecDepth 16384
noncomputable section
namespace Cert.KernelIdeal.Cells
open Cert.KernelIdeal Cert.KernelIdeal.Gen Cert.KernelIdeal.Hand Idealize.ShloMosaic Idealize.ShloMosaic.TcCoe Idealize.SL.Sem Idealize.ShloMosaic.ValueIdx

variable {F : FTy → Type} [FloatOps F]

/-- A cell of row 0 other than `k` is outside the single-cell rectangle at `k`. -/
theorem not_mem_cell (k j : ℕ) (hj : j < 128) (hne : j ≠ k) (inb) :
    (ix3 (0 : Fin 1) (0 : Fin 8) (⟨j, hj⟩ : Fin 128) : S1x8x128.Idx) ∉ (Rect.unit (s := S1x8x128) ![0, 0, k] S1x1x1.size inb).set := by
  rw [Rect.mem_set_unit]
  intro h
  have h2 := h (2 : Fin 3)
  have : k ≤ j ∧ j < k + 1 := h2
  omega

/-- The single-cell rectangle at `k` holds exactly the cell (0, 0, k). -/
theorem cell_emb (k : ℕ) (hk : k < 128) (inb) :
    (Rect.unit (s := S1x8x128) ![0, 0, k] S1x1x1.size inb).emb (ix3 (0 : Fin 1) (0 : Fin 1) (0 : Fin 1)) = (ix3 (0 : Fin 1) (0 : Fin 8) (⟨k, hk⟩ : Fin 128) : S1x8x128.Idx) := by
  funext a; apply Fin.ext
  rw [Rect.emb_apply]
  match a with
  | ⟨0, _⟩ => rfl
  | ⟨1, _⟩ => rfl
  | ⟨2, _⟩ => show k + 1 * 0 = k; omega

/-- A store into the single cell at `k` does not change what another cell `j` of row 0 reads. -/
theorem skip (k j : ℕ) (hj : j < 128) (hne : j ≠ k) (inb) (p : Vec F S1x1x1 .f32) (L : List (View.Piece (Elt F) S1x8x128 .f32)) :
    View.canon (Val := Elt F) ((⟨Rect.unit (s := S1x8x128) ![0, 0, k] S1x1x1.size inb, p⟩ : View.Piece (Elt F) S1x8x128 .f32) :: L) (ix3 (0 : Fin 1) (0 : Fin 8) (⟨j, hj⟩ : Fin 128) : S1x8x128.Idx)
      = View.canon L (ix3 (0 : Fin 1) (0 : Fin 8) (⟨j, hj⟩ : Fin 128) : S1x8x128.Idx) :=
  View.canon_cons_of_not_mem _ _ (not_mem_cell k j hj hne inb)

/-- The last store into the single cell at `k` is what that cell reads. -/
theorem hit (k : ℕ) (hk : k < 128) (inb) (p : Vec F S1x1x1 .f32) (L : List (View.Piece (Elt F) S1x8x128 .f32)) :
    View.canon (Val := Elt F) ((⟨Rect.unit (s := S1x8x128) ![0, 0, k] S1x1x1.size inb, p⟩ : View.Piece (Elt F) S1x8x128 .f32) :: L) (ix3 (0 : Fin 1) (0 : Fin 8) (⟨k, hk⟩ : Fin 128) : S1x8x128.Idx)
      = p (ix3 (0 : Fin 1) (0 : Fin 1) (0 : Fin 1)) := by
  rw [← cell_emb k hk inb]
  exact View.canon_cons_emb _ _ _ _

theorem cell0 (p0 p1 p2 p3 p4 p5 p6 p7 p8 p9 p10 p11 p12 : Vec F S1x1x1 .f32) (z : Vec F S1x8x128 .f32) :
    View.canon (Val := Elt F) [⟨rCell12, p12⟩, ⟨rCell11, p11⟩, ⟨rCell10, p10⟩, ⟨rCell9, p9⟩, ⟨rCell8, p8⟩, ⟨rCell7, p7⟩, ⟨rCell6, p6⟩, ⟨rCell5, p5⟩, ⟨rCell4, p4⟩, ⟨rCell3, p3⟩, ⟨rCell2, p2⟩, ⟨rCell1, p1⟩, ⟨rCell0, p0⟩, ⟨rOut, z⟩]
      (ix3 (0 : Fin 1) (0 : Fin 8) (⟨0, by decide⟩ : Fin 128) : S1x8x128.Idx) = p0 (ix3 (0 : Fin 1) (0 : Fin 1) (0 : Fin 1)) := by
  rw [skip 12 0 (by decide) (by decide), skip 11 0 (by decide) (by decide), skip 10 0 (by decide) (by decide), skip 9 0 (by decide) (by decide), skip 8 0 (by decide) (by decide), skip 7 0 (by decide) (by decide), skip 6 0 (by decide) (by decide), skip 5 0 (by decide) (by decide), skip 4 0 (by decide) (by decide), skip 3 0 (by decide) (by decide), skip 2 0 (by decide) (by decide), skip 1 0 (by decide) (by decide), hit 0 (by decide)]

theorem cell1 (p0 p1 p2 p3 p4 p5 p6 p7 p8 p9 p10 p11 p12 : Vec F S1x1x1 .f32) (z : Vec F S1x8x128 .f32) :
    View.canon (Val := Elt F) [⟨rCell12, p12⟩, ⟨rCell11, p11⟩, ⟨rCell10, p10⟩, ⟨rCell9, p9⟩, ⟨rCell8, p8⟩, ⟨rCell7, p7⟩, ⟨rCell6, p6⟩, ⟨rCell5, p5⟩, ⟨rCell4, p4⟩, ⟨rCell3, p3⟩, ⟨rCell2, p2⟩, ⟨rCell1, p1⟩, ⟨rCell0, p0⟩, ⟨rOut, z⟩]
      (ix3 (0 : Fin 1) (0 : Fin 8) (⟨1, by decide⟩ : Fin 128) : S1x8x128.Idx) = p1 (ix3 (0 : Fin 1) (0 : Fin 1) (0 : Fin 1)) := by
  rw [skip 12 1 (by decide) (by decide), skip 11 1 (by decide) (by decide), skip 10 1 (by decide) (by decide), skip 9 1 (by decide) (by decide), skip 8 1 (by decide) (by decide), skip 7 1 (by decide) (by decide), skip 6 1 (by decide) (by decide), skip 5 1 (by decide) (by decide), skip 4 1 (by decide) (by decide), skip 3 1 (by decide) (by decide), skip 2 1 (by decide) (by decide), hit 1 (by decide)]

theorem cell2 (p0 p1 p2 p3 p4 p5 p6 p7 p8 p9 p10 p11 p12 : Vec F S1x1x1 .f32) (z : Vec F S1x8x128 .f32) :
    View.canon (Val := Elt F) [⟨rCell12, p12⟩, ⟨rCell11, p11⟩, ⟨rCell10, p10⟩, ⟨rCell9, p9⟩, ⟨rCell8, p8⟩, ⟨rCell7, p7⟩, ⟨rCell6, p6⟩, ⟨rCell5, p5⟩, ⟨rCell4, p4⟩, ⟨rCell3, p3⟩, ⟨rCell2, p2⟩, ⟨rCell1, p1⟩, ⟨rCell0, p0⟩, ⟨rOut, z⟩]
      (ix3 (0 : Fin 1) (0 : Fin 8) (⟨2, by decide⟩ : Fin 128) : S1x8x128.Idx) = p2 (ix3 (0 : Fin 1) (0 : Fin 1) (0 : Fin 1)) := by
  rw [skip 12 2 (by decide) (by decide), skip 11 2 (by decide) (by decide), skip 10 2 (by decide) (by decide), skip 9 2 (by decide) (by decide), skip 8 2 (by decide) (by decide), skip 7 2 (by decide) (by decide), skip 6 2 (by decide) (by decide), skip 5 2 (by decide) (by decide), skip 4 2 (by decide) (by decide), skip 3 2 (by decide) (by decide), hit 2 (by decide)]

theorem cell3 (p0 p1 p2 p3 p4 p5 p6 p7 p8 p9 p10 p11 p12 : Vec F S1x1x1 .f32) (z : Vec F S1x8x128 .f32) :
    View.canon (Val := Elt F) [⟨rCell12, p12⟩, ⟨rCell11, p11⟩, ⟨rCell10, p10⟩, ⟨rCell9, p9⟩, ⟨rCell8, p8⟩, ⟨rCell7, p7⟩, ⟨rCell6, p6⟩, ⟨rCell5, p5⟩, ⟨rCell4, p4⟩, ⟨rCell3, p3⟩, ⟨rCell2, p2⟩, ⟨rCell1, p1⟩, ⟨rCell0, p0⟩, ⟨rOut, z⟩]
      (ix3 (0 : Fin 1) (0 : Fin 8) (⟨3, by decide⟩ : Fin 128) : S1x8x128.Idx) = p3 (ix3 (0 : Fin 1) (0 : Fin 1) (0 : Fin 1)) := by
  rw [skip 12 3 (by decide) (by decide), skip 11 3 (by decide) (by decide), skip 10 3 (by decide) (by decide), skip 9 3 (by decide) (by decide), skip 8 3 (by decide) (by decide), skip 7 3 (by decide) (by decide), skip 6 3 (by decide) (by decide), skip 5 3 (by decide) (by decide), skip 4 3 (by decide) (by decide), hit 3 (by decide)]

theorem cell4 (p0 p1 p2 p3 p4 p5 p6 p7 p8 p9 p10 p11 p12 : Vec F S1x1x1 .f32) (z : Vec F S1x8x128 .f32) :
    View.canon (Val := Elt F) [⟨rCell12, p12⟩, ⟨rCell11, p11⟩, ⟨rCell10, p10⟩, ⟨rCell9, p9⟩, ⟨rCell8, p8⟩, ⟨rCell7, p7⟩, ⟨rCell6, p6⟩, ⟨rCell5, p5⟩, ⟨rCell4, p4⟩, ⟨rCell3, p3⟩, ⟨rCell2, p2⟩, ⟨rCell1, p1⟩, ⟨rCell0, p0⟩, ⟨rOut, z⟩]
      (ix3 (0 : Fin 1) (0 : Fin 8) (⟨4, by decide⟩ : Fin 128) : S1x8x128.Idx) = p4 (ix3 (0 : Fin 1) (0 : Fin 1) (0 : Fin 1)) := by
  rw [skip 12 4 (by decide) (by decide), skip 11 4 (by decide) (by decide), skip 10 4 (by decide) (by decide), skip 9 4 (by decide) (by decide), skip 8 4 (by decide) (by decide), skip 7 4 (by decide) (by decide), skip 6 4 (by decide) (by decide), skip 5 4 (by decide) (by decide), hit 4 (by decide)]

theorem cell5 (p0 p1 p2 p3 p4 p5 p6 p7 p8 p9 p10 p11 p12 : Vec F S1x1x1 .f32) (z : Vec F S1x8x128 .f32) :
    View.canon (Val := Elt F) [⟨rCell12, p12⟩, ⟨rCell11, p11⟩, ⟨rCell10, p10⟩, ⟨rCell9, p9⟩, ⟨rCell8, p8⟩, ⟨rCell7, p7⟩, ⟨rCell6, p6⟩, ⟨rCell5, p5⟩, ⟨rCell4, p4⟩, ⟨rCell3, p3⟩, ⟨rCell2, p2⟩, ⟨rCell1, p1⟩, ⟨rCell0, p0⟩, ⟨rOut, z⟩]
      (ix3 (0 : Fin 1) (0 : Fin 8) (⟨5, by decide⟩ : Fin 128) : S1x8x128.Idx) = p5 (ix3 (0 : Fin 1) (0 : Fin 1) (0 : Fin 1)) := by
  rw [skip 12 5 (by decide) (by decide), skip 11 5 (by decide) (by decide), skip 10 5 (by decide) (by decide), skip 9 5 (by decide) (by decide), skip 8 5 (by decide) (by decide), skip 7 5 (by decide) (by decide), skip 6 5 (by decide) (by decide), hit 5 (by decide)]

theorem cell6 (p0 p1 p2 p3 p4 p5 p6 p7 p8 p9 p10 p11 p12 : Vec F S1x1x1 .f32) (z : Vec F S1x8x128 .f32) :
    View.canon (Val := Elt F) [⟨rCell12, p12⟩, ⟨rCell11, p11⟩, ⟨rCell10, p10⟩, ⟨rCell9, p9⟩, ⟨rCell8, p8⟩, ⟨rCell7, p7⟩, ⟨rCell6, p6⟩, ⟨rCell5, p5⟩, ⟨rCell4, p4⟩, ⟨rCell3, p3⟩, ⟨rCell2, p2⟩, ⟨rCell1, p1⟩, ⟨rCell0, p0⟩, ⟨rOut, z⟩]
      (ix3 (0 : Fin 1) (0 : Fin 8) (⟨6, by decide⟩ : Fin 128) : S1x8x128.Idx) = p6 (ix3 (0 : Fin 1) (0 : Fin 1) (0 : Fin 1)) := by
  rw [skip 12 6 (by decide) (by decide), skip 11 6 (by decide) (by decide), skip 10 6 (by decide) (by decide), skip 9 6 (by decide) (by decide), skip 8 6 (by decide) (by decide), skip 7 6 (by decide) (by decide), hit 6 (by decide)]

theorem cell7 (p0 p1 p2 p3 p4 p5 p6 p7 p8 p9 p10 p11 p12 : Vec F S1x1x1 .f32) (z : Vec F S1x8x128 .f32) :
    View.canon (Val := Elt F) [⟨rCell12, p12⟩, ⟨rCell11, p11⟩, ⟨rCell10, p10⟩, ⟨rCell9, p9⟩, ⟨rCell8, p8⟩, ⟨rCell7, p7⟩, ⟨rCell6, p6⟩, ⟨rCell5, p5⟩, ⟨rCell4, p4⟩, ⟨rCell3, p3⟩, ⟨rCell2, p2⟩, ⟨rCell1, p1⟩, ⟨rCell0, p0⟩, ⟨rOut, z⟩]
      (ix3 (0 : Fin 1) (0 : Fin 8) (⟨7, by decide⟩ : Fin 128) : S1x8x128.Idx) = p7 (ix3 (0 : Fin 1) (0 : Fin 1) (0 : Fin 1)) := by
  rw [skip 12 7 (by decide) (by decide), skip 11 7 (by decide) (by decide), skip 10 7 (by decide) (by decide), skip 9 7 (by decide) (by decide), skip 8 7 (by decide) (by decide), hit 7 (by decide)]

theorem cell8 (p0 p1 p2 p3 p4 p5 p6 p7 p8 p9 p10 p11 p12 : Vec F S1x1x1 .f32) (z : Vec F S1x8x128 .f32) :
    View.canon (Val := Elt F) [⟨rCell12, p12⟩, ⟨rCell11, p11⟩, ⟨rCell10, p10⟩, ⟨rCell9, p9⟩, ⟨rCell8, p8⟩, ⟨rCell7, p7⟩, ⟨rCell6, p6⟩, ⟨rCell5, p5⟩, ⟨rCell4, p4⟩, ⟨rCell3, p3⟩, ⟨rCell2, p2⟩, ⟨rCell1, p1⟩, ⟨rCell0, p0⟩, ⟨rOut, z⟩]
      (ix3 (0 : Fin 1) (0 : Fin 8) (⟨8, by decide⟩ : Fin 128) : S1x8x128.Idx) = p8 (ix3 (0 : Fin 1) (0 : Fin 1) (0 : Fin 1)) := by
  rw [skip 12 8 (by decide) (by decide), skip 11 8 (by decide) (by decide), skip 10 8 (by decide) (by decide), skip 9 8 (by decide) (by decide), hit 8 (by decide)]

theorem cell9 (p0 p1 p2 p3 p4 p5 p6 p7 p8 p9 p10 p11 p12 : Vec F S1x1x1 .f32) (z : Vec F S1x8x128 .f32) :
    View.canon (Val := Elt F) [⟨rCell12, p12⟩, ⟨rCell11, p11⟩, ⟨rCell10, p10⟩, ⟨rCell9, p9⟩, ⟨rCell8, p8⟩, ⟨rCell7, p7⟩, ⟨rCell6, p6⟩, ⟨rCell5, p5⟩, ⟨rCell4, p4⟩, ⟨rCell3, p3⟩, ⟨rCell2, p2⟩, ⟨rCell1, p1⟩, ⟨rCell0, p0⟩, ⟨rOut, z⟩]
      (ix3 (0 : Fin 1) (0 : Fin 8) (⟨9, by decide⟩ : Fin 128) : S1x8x128.Idx) = p9 (ix3 (0 : Fin 1) (0 : Fin 1) (0 : Fin 1)) := by
  rw [skip 12 9 (by decide) (by decide), skip 11 9 (by decide) (by decide), skip 10 9 (by decide) (by decide), hit 9 (by decide)]

theorem cell10 (p0 p1 p2 p3 p4 p5 p6 p7 p8 p9 p10 p11 p12 : Vec F S1x1x1 .f32) (z : Vec F S1x8x128 .f32) :
    View.canon (Val := Elt F) [⟨rCell12, p12⟩, ⟨rCell11, p11⟩, ⟨rCell10, p10⟩, ⟨rCell9, p9⟩, ⟨rCell8, p8⟩, ⟨rCell7, p7⟩, ⟨rCell6, p6⟩, ⟨rCell5, p5⟩, ⟨rCell4, p4⟩, ⟨rCell3, p3⟩, ⟨rCell2, p2⟩, ⟨rCell1, p1⟩, ⟨rCell0, p0⟩, ⟨rOut, z⟩]
      (ix3 (0 : Fin 1) (0 : Fin 8) (⟨10, by decide⟩ : Fin 128) : S1x8x128.Idx) = p10 (ix3 (0 : Fin 1) (0 : Fin 1) (0 : Fin 1)) := by
  rw [skip 12 10 (by decide) (by decide), skip 11 10 (by decide) (by decide), hit 10 (by decide)]

theorem cell11 (p0 p1 p2 p3 p4 p5 p6 p7 p8 p9 p10 p11 p12 : Vec F S1x1x1 .f32) (z : Vec F S1x8x128 .f32) :
    View.canon (Val := Elt F) [⟨rCell12, p12⟩, ⟨rCell11, p11⟩, ⟨rCell10, p10⟩, ⟨rCell9, p9⟩, ⟨rCell8, p8⟩, ⟨rCell7, p7⟩, ⟨rCell6, p6⟩, ⟨rCell5, p5⟩, ⟨rCell4, p4⟩, ⟨rCell3, p3⟩, ⟨rCell2, p2⟩, ⟨rCell1, p1⟩, ⟨rCell0, p0⟩, ⟨rOut, z⟩]
      (ix3 (0 : Fin 1) (0 : Fin 8) (⟨11, by decide⟩ : Fin 128) : S1x8x128.Idx) = p11 (ix3 (0 : Fin 1) (0 : Fin 1) (0 : Fin 1)) := by
  rw [skip 12 11 (by decide) (by decide), hit 11 (by decide)]

theorem cell12 (p0 p1 p2 p3 p4 p5 p6 p7 p8 p9 p10 p11 p12 : Vec F S1x1x1 .f32) (z : Vec F S1x8x128 .f32) :
    View.canon (Val := Elt F) [⟨rCell12, p12⟩, ⟨rCell11, p11⟩, ⟨rCell10, p10⟩, ⟨rCell9, p9⟩, ⟨rCell8, p8⟩, ⟨rCell7, p7⟩, ⟨rCell6, p6⟩, ⟨rCell5, p5⟩, ⟨rCell4, p4⟩, ⟨rCell3, p3⟩, ⟨rCell2, p2⟩, ⟨rCell1, p1⟩, ⟨rCell0, p0⟩, ⟨rOut, z⟩]
      (ix3 (0 : Fin 1) (0 : Fin 8) (⟨12, by decide⟩ : Fin 128) : S1x8x128.Idx) = p12 (ix3 (0 : Fin 1) (0 : Fin 1) (0 : Fin 1)) := by
  rw [hit 12 (by decide)]

end Cert.KernelIdeal.Cells
end
-- ==== Proof.KerTotLemma.lean ====
/-
  The window sum of one batch entry, read off the vector operations that compute it.

  A block `y3`, `t3` of shape 3 × 512 × 512 holds one batch entry `b` of the images `Y`, `T`.  For a window pair
  (`h × w` pixels anchored at `(ay, ax)` and at `(by, bx)`) the computation slices each channel at both anchors,
  subtracts, accumulates the squares (of `y3`) and the absolute values (of `t3`) over the three channels from a zero
  splat, multiplies the exponential of the scaled squares by the absolute sum, and reduces first over the columns and
  then over the rows.  Read at its one index the result is  Σ_r Σ_c px Y T ay ax by bx b r c  (`ker_tot`).

  The pieces: a lane reduction is a finite sum (`red_rows`, `red_col`), the casts between `[h]`, `[h,1]`, `[1]`,
  `[1,1]`, `[1,1,1]` keep the entries (`cast_col`, `tail_sum`), a slice cast to a matrix reads the image at the
  shifted pixel (`slice_at`, `dif_at`), and the pointwise operations are the extended reals' (`px_closed`).
-/
import Idealize.ShloMosaic.PureOps.Ideal.Laws
import Idealize.ShloMosaic.Lib.ValueLayout
import proofs.«102783_j41472204210650_1_alg».proof.Proof.Spec

noncomputable section

open scoped BigOperators

namespace Cert.Stencil

open Idealize.ShloMosaic Idealize.ShloMosaic.ValueIdx

/-! ## The reductions and the casts around them -/

/-- A sum over the columns: the reduction of an `h × w` vector along axis 1, read at row `r`. -/
theorem red_rows {h w : ℕ} (V : FVec Ideal ⟨2, ![h, w]⟩ .f32)
    (hred : (⟨2, ![h, w]⟩ : Shape).Reduces [1] ⟨1, ![h]⟩) (hφ : FKind.Formats .f32)
    (hacc : (0x00000000#32 : BitVec 32) = FKind.add.neutral .f32 hφ) (r : Fin h) :
    multiReduction .add [1] ⟨1, ![h]⟩ V 0x00000000#32 hred hφ hacc (ix1 r) = ∑ c : Fin w, V (ix2 r c) := by
  refine (Ideal.multiReduction_add_single V _ hred hφ hacc (ix1 r)).trans ?_
  show ∑ k : Fin w, V (hred.lift (ix1 r) k) = _
  refine Finset.sum_congr rfl fun c _ => congrArg V ?_
  funext a
  match a with
  | ⟨0, _⟩ => exact Fin.ext rfl
  | ⟨1, _⟩ => exact Fin.ext rfl

/-- A sum over the rows: the reduction of an `h × 1` column along axis 0. -/
theorem red_col {h : ℕ} (W : FVec Ideal ⟨2, ![h, 1]⟩ .f32)
    (hred : (⟨2, ![h, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ W 0x00000000#32 hred hφ hacc (ix1 u) = ∑ r : Fin h, W (ix2 r u) := by
  refine (Ideal.multiReduction_add_single W _ hred hφ hacc (ix1 u)).trans ?_
  show ∑ k : Fin h, W (hred.lift (ix1 u) k) = _
  refine Finset.sum_congr rfl fun r _ => congrArg W ?_
  funext a
  match a with
  | ⟨0, _⟩ => exact Fin.ext rfl
  | ⟨1, _⟩ => exact Fin.ext rfl

/-- A vector of `h` entries cast to an `h × 1` column reads, at `(r, u)`, the entry `r`. -/
theorem cast_col {α : Type} {h : ℕ} (x : (⟨1, ![h]⟩ : Shape).Idx → α)
    (hc : (⟨1, ![h]⟩ : Shape).ShapeCasts ⟨2, ![h, 1]⟩) (r : Fin h) (u : Fin 1) :
    shapeCast ⟨2, ![h, 1]⟩ x hc (ix2 r u) = x (ix1 r) :=
  shapeCast_apply x hc _ _ (by
    have hu : u.val = 0 := by omega
    rw [Shape.rowMajor_val_two, Shape.rowMajor_val_one]
    show r.val = r.val * 1 + u.val
    rw [hu, Nat.mul_one, Nat.add_zero])

/-- The two reductions and the casts around them: the one entry of the result is the double sum of the matrix. -/
theorem tail_sum {h w : ℕ} (V : FVec Ideal ⟨2, ![h, w]⟩ .f32)
    (hred1 : (⟨2, ![h, w]⟩ : Shape).Reduces [1] ⟨1, ![h]⟩)
    (hφ1 : FKind.Formats .f32) (hacc1 : (0x00000000#32 : BitVec 32) = FKind.add.neutral .f32 hφ1)
    (hc1 : (⟨1, ![h]⟩ : Shape).ShapeCasts ⟨2, ![h, 1]⟩)
    (hred0 : (⟨2, ![h, 1]⟩ : Shape).Reduces [0] ⟨1, ![1]⟩)
    (hφ0 : FKind.Formats .f32) (hacc0 : (0x00000000#32 : BitVec 32) = FKind.add.neutral .f32 hφ0)
    (hc2 : (⟨1, ![1]⟩ : Shape).ShapeCasts ⟨2, ![1, 1]⟩)
    (hc3 : (⟨2, ![1, 1]⟩ : Shape).ShapeCasts ⟨3, ![1, 1, 1]⟩) :
    shapeCast ⟨3, ![1, 1, 1]⟩ (shapeCast ⟨2, ![1, 1]⟩
        (multiReduction .add [0] ⟨1, ![1]⟩
          (shapeCast ⟨2, ![h, 1]⟩ (multiReduction .add [1] ⟨1, ![h]⟩ V 0x00000000#32 hred1 hφ1 hacc1) hc1)
          0x00000000#32 hred0 hφ0 hacc0) hc2) hc3 (ix3 (0 : Fin 1) (0 : Fin 1) (0 : Fin 1))
      = ∑ r : Fin h, ∑ c : Fin w, V (ix2 r c) := by
  rw [shapeCast_ab_1ab_apply, shapeCast_a_1a_apply, red_col]
  refine Finset.sum_congr rfl fun r _ => ?_
  rw [cast_col, red_rows]

/-! ## A slice of a channel, cast to a matrix, read at a pixel -/

/-- The `h × w` window of channel `n` anchored at `(oy, ox)` reads, at `(r, c)`, the image at `(oy + r, ox + c)`. -/
theorem slice_at {h w : ℕ} (n oy ox : ℕ) (v : FVec Ideal ⟨3, ![3, 512, 512]⟩ .f32) (A : Img) (b : Fin 16)
    (hv : ∀ (ch : Fin 3) (r c : Fin 512), v (ix3 ch r c) = A (ix4 b ch r c))
    (hs : (⟨3, ![3, 512, 512]⟩ : Shape).Slices ![n, oy, ox] ⟨3, ![1, h, w]⟩)
    (hc : (⟨3, ![1, h, w]⟩ : Shape).ShapeCasts ⟨2, ![h, w]⟩) (hn : n < 3) (r : Fin h) (c : Fin w) :
    shapeCast ⟨2, ![h, w]⟩ (extractStridedSlice ⟨3, ![1, h, w]⟩ ![n, oy, ox] v hs) hc (ix2 r c)
      = rd A b ⟨n, hn⟩ (oy + r.val) (ox + c.val) := by
  have h1 : oy + h ≤ 512 := hs.2 1
  have h2 : ox + w ≤ 512 := hs.2 2
  have hr : oy + r.val < 512 := by have := r.isLt; omega
  have hcc : ox + c.val < 512 := by have := c.isLt; omega
  rw [shapeCast_1ab_ab_apply, rd_eq A b _ _ _ hr hcc, ← hv]
  exact extractStridedSlice_apply _ _ _ _ _ (fun a => by
    match a with
    | ⟨0, _⟩ => rfl
    | ⟨1, _⟩ => rfl
    | ⟨2, _⟩ => rfl)

/-- The difference of the two windows of channel `n`, read at a pixel. -/
theorem dif_at {h w : ℕ} (n ay ax by_ bx : ℕ) (v : FVec Ideal ⟨3, ![3, 512, 512]⟩ .f32) (A : Img) (b : Fin 16)
    (hv : ∀ (ch : Fin 3) (r c : Fin 512), v (ix3 ch r c) = A (ix4 b ch r c))
    (hsa : (⟨3, ![3, 512, 512]⟩ : Shape).Slices ![n, ay, ax] ⟨3, ![1, h, w]⟩)
    (hsb : (⟨3, ![3, 512, 512]⟩ : Shape).Slices ![n, by_, bx] ⟨3, ![1, h, w]⟩)
    (hca hcb : (⟨3, ![1, h, w]⟩ : Shape).ShapeCasts ⟨2, ![h, w]⟩) (hn : n < 3) (r : Fin h) (c : Fin w) :
    subf (shapeCast ⟨2, ![h, w]⟩ (extractStridedSlice ⟨3, ![1, h, w]⟩ ![n, ay, ax] v hsa) hca)
         (shapeCast ⟨2, ![h, w]⟩ (extractStridedSlice ⟨3, ![1, h, w]⟩ ![n, by_, bx] v hsb) hcb) (ix2 r c)
      = dif A ay ax by_ bx b ⟨n, hn⟩ r.val c.val := by
  rw [subf_apply, slice_at n ay ax v A b hv hsa hca hn, slice_at n by_ bx v A b hv hsb hcb hn]
  rfl

/-! ## The pointwise part -/

/-- The pixel term from the three channels' differences: squares and absolute values accumulated from the zero splat,
    the exponential of the scaled squares times the absolute sum. -/
theorem px_closed {s : Shape} (i : s.Idx) (d0 d1 d2 e0 e1 e2 : FVec Ideal s .f32)
    (Y T : Img) (ay ax by_ bx : ℕ) (b : Fin 16) (r c : ℕ)
    (hd0 : d0 i = dif Y ay ax by_ bx b 0 r c) (hd1 : d1 i = dif Y ay ax by_ bx b 1 r c)
    (hd2 : d2 i = dif Y ay ax by_ bx b 2 r c)
    (he0 : e0 i = dif T ay ax by_ bx b 0 r c) (he1 : e1 i = dif T ay ax by_ bx b 1 r c)
    (he2 : e2 i = dif T ay ax by_ bx b 2 r c) :
    mulf (exp (mulf (addf (addf (addf (broadcast s (Scalar.ofBits .f32 0x00000000#32)) (mulf d0 d0)) (mulf d1 d1)) (mulf d2 d2))
                    (broadcast s (Scalar.ofBits .f32 0xBBA3D70A#32))))
         (addf (addf (addf (broadcast s (Scalar.ofBits .f32 0x00000000#32)) (absf e0)) (absf e1)) (absf e2)) i
      = px Y T ay ax by_ bx b r c := by
  show Ideal.exp ((((Ideal.ofBits .f32 0x00000000#32 + d0 i * d0 i) + d1 i * d1 i) + d2 i * d2 i) * Ideal.ofBits .f32 0xBBA3D70A#32)
      * (((Ideal.ofBits .f32 0x00000000#32 + max (e0 i) (-(e0 i))) + max (e1 i) (-(e1 i))) + max (e2 i) (-(e2 i))) = _
  rw [hd0, hd1, hd2, he0, he1, he2, Ideal.ofBits_zero_f32, zero_add, zero_add]
  unfold px gam
  rw [Fin.sum_univ_three, Fin.sum_univ_three]

/-! ## The window sum -/

/-- The difference of the two `h × w` windows of channel `n`, anchored at `(ay, ax)` and at `(by, bx)`, as the
    vector operations spell it: each window a slice cast to a matrix. -/
abbrev winDif (h w n ay ax by_ bx : ℕ) (v : FVec Ideal ⟨3, ![3, 512, 512]⟩ .f32)
    (hsa : (⟨3, ![3, 512, 512]⟩ : Shape).Slices ![n, ay, ax] ⟨3, ![1, h, w]⟩)
    (hsb : (⟨3, ![3, 512, 512]⟩ : Shape).Slices ![n, by_, bx] ⟨3, ![1, h, w]⟩)
    (hc : (⟨3, ![1, h, w]⟩ : Shape).ShapeCasts ⟨2, ![h, w]⟩) : FVec Ideal ⟨2, ![h, w]⟩ .f32 :=
  subf (shapeCast ⟨2, ![h, w]⟩ (extractStridedSlice ⟨3, ![1, h, w]⟩ ![n, ay, ax] v hsa) hc)
       (shapeCast ⟨2, ![h, w]⟩ (extractStridedSlice ⟨3, ![1, h, w]⟩ ![n, by_, bx] v hsb) hc)

/-- THE WINDOW SUM OF ONE BATCH ENTRY.  `y3`, `t3` hold entry `b` of `Y`, `T`; the term is the computation described
    at the head of this file, for the window pair `(ay, ax)`, `(by, bx)` of `h × w` pixels; every side condition of its
    operations is a hypothesis.  Its one entry is the sum of the pixel terms over the window. -/
theorem ker_tot (h w ay ax by_ bx : ℕ) (y3 t3 : FVec Ideal ⟨3, ![3, 512, 512]⟩ .f32) (Y T : Img) (b : Fin 16)
    (hy : ∀ (ch : Fin 3) (r c : Fin 512), y3 (ix3 ch r c) = Y (ix4 b ch r c))
    (ht : ∀ (ch : Fin 3) (r c : Fin 512), t3 (ix3 ch r c) = T (ix4 b ch r c))
    (sa0 : (⟨3, ![3, 512, 512]⟩ : Shape).Slices ![0, ay, ax] ⟨3, ![1, h, w]⟩)
    (sb0 : (⟨3, ![3, 512, 512]⟩ : Shape).Slices ![0, by_, bx] ⟨3, ![1, h, w]⟩)
    (sa1 : (⟨3, ![3, 512, 512]⟩ : Shape).Slices ![1, ay, ax] ⟨3, ![1, h, w]⟩)
    (sb1 : (⟨3, ![3, 512, 512]⟩ : Shape).Slices ![1, by_, bx] ⟨3, ![1, h, w]⟩)
    (sa2 : (⟨3, ![3, 512, 512]⟩ : Shape).Slices ![2, ay, ax] ⟨3, ![1, h, w]⟩)
    (sb2 : (⟨3, ![3, 512, 512]⟩ : Shape).Slices ![2, by_, bx] ⟨3, ![1, h, w]⟩)
    (hc : (⟨3, ![1, h, w]⟩ : Shape).ShapeCasts ⟨2, ![h, w]⟩)
    (hred1 : (⟨2, ![h, w]⟩ : Shape).Reduces [1] ⟨1, ![h]⟩)
    (hc1 : (⟨1, ![h]⟩ : Shape).ShapeCasts ⟨2, ![h, 1]⟩)
    (hred0 : (⟨2, ![h, 1]⟩ : Shape).Reduces [0] ⟨1, ![1]⟩)
    (hc2 : (⟨1, ![1]⟩ : Shape).ShapeCasts ⟨2, ![1, 1]⟩)
    (hc3 : (⟨2, ![1, 1]⟩ : Shape).ShapeCasts ⟨3, ![1, 1, 1]⟩)
    (hφ : FKind.Formats .f32) (hacc : (0x00000000#32 : BitVec 32) = FKind.add.neutral .f32 hφ) :
    shapeCast ⟨3, ![1, 1, 1]⟩ (shapeCast ⟨2, ![1, 1]⟩
        (multiReduction .add [0] ⟨1, ![1]⟩
          (shapeCast ⟨2, ![h, 1]⟩ (multiReduction .add [1] ⟨1, ![h]⟩
            (mulf (exp (mulf (addf (addf (addf (broadcast ⟨2, ![h, w]⟩ (Scalar.ofBits .f32 0x00000000#32))
                        (mulf (winDif h w 0 ay ax by_ bx y3 sa0 sb0 hc) (winDif h w 0 ay ax by_ bx y3 sa0 sb0 hc)))
                        (mulf (winDif h w 1 ay ax by_ bx y3 sa1 sb1 hc) (winDif h w 1 ay ax by_ bx y3 sa1 sb1 hc)))
                        (mulf (winDif h w 2 ay ax by_ bx y3 sa2 sb2 hc) (winDif h w 2 ay ax by_ bx y3 sa2 sb2 hc)))
                      (broadcast ⟨2, ![h, w]⟩ (Scalar.ofBits .f32 0xBBA3D70A#32))))
                  (addf (addf (addf (broadcast ⟨2, ![h, w]⟩ (Scalar.ofBits .f32 0x00000000#32))
                        (absf (winDif h w 0 ay ax by_ bx t3 sa0 sb0 hc)))
                        (absf (winDif h w 1 ay ax by_ bx t3 sa1 sb1 hc)))
                        (absf (winDif h w 2 ay ax by_ bx t3 sa2 sb2 hc))))
            0x00000000#32 hred1 hφ hacc) hc1)
          0x00000000#32 hred0 hφ hacc) hc2) hc3 (ix3 (0 : Fin 1) (0 : Fin 1) (0 : Fin 1))
      = ∑ r : Fin h, ∑ c : Fin w, px Y T ay ax by_ bx b r.val c.val := by
  refine (tail_sum _ hred1 hφ hacc hc1 hred0 hφ hacc hc2 hc3).trans ?_
  refine Finset.sum_congr rfl fun r _ => Finset.sum_congr rfl fun c _ => ?_
  exact px_closed (ix2 r c) _ _ _ _ _ _ Y T ay ax by_ bx b r.val c.val
    (dif_at 0 ay ax by_ bx y3 Y b hy sa0 sb0 hc hc (by decide) r c)
    (dif_at 1 ay ax by_ bx y3 Y b hy sa1 sb1 hc hc (by decide) r c)
    (dif_at 2 ay ax by_ bx y3 Y b hy sa2 sb2 hc hc (by decide) r c)
    (dif_at 0 ay ax by_ bx t3 T b ht sa0 sb0 hc hc (by decide) r c)
    (dif_at 1 ay ax by_ bx t3 T b ht sa1 sb1 hc hc (by decide) r c)
    (dif_at 2 ay ax by_ bx t3 T b ht sa2 sb2 hc hc (by decide) r c)

end Cert.Stencil

end
-- ==== Proof.KerPayloads.lean ====
/-
  The thirteen values the kernel body stores, read as sums.

  The body loads one batch entry of the three images as blocks `xb`, `yb`, `tb` of shape 1 × 3 × 512 × 512, drops the
  unit axis, and stores thirteen numbers: for each of the twelve window pairs the sum over the window of the pixel term
  (the generic computation of the window-sum module, at that pair's extents and anchors), and the sum over channel, row
  and column of the squared difference of `xb` and `tb`.  Everything else it stores is the zero word.
-/
import proofs.«102783_j41472204210650_1_alg».proof.Proof.Gen.KernelIdeal.Skeleton
import proofs.«102783_j41472204210650_1_alg».proof.Proof.KerTotLemma
import proofs.«102783_j41472204210650_1_alg».proof.Proof.Spec

noncomputable section

open scoped BigOperators

namespace Cert.KernelIdeal.PayVal

open Idealize.ShloMosaic Idealize.ShloMosaic.ValueIdx Cert.KernelIdeal Cert.KernelIdeal.Gen Cert.Stencil

/-- A block with its unit axis dropped holds, at `(ch, r, c)`, what the block holds at `(0, ch, r, c)`. -/
theorem drop_unit (xb : Vec Ideal S1x3x512x512 .f32) (X : Img) (b : Fin 16)
    (hx : ∀ (ch : Fin 3) (r c : Fin 512), xb (ix4 0 ch r c) = X (ix4 b ch r c))
    (hc : S1x3x512x512.ShapeCasts S3x512x512) (ch : Fin 3) (r c : Fin 512) :
    shapeCast S3x512x512 xb hc (ix3 ch r c) = X (ix4 b ch r c) :=
  (shapeCast_1abc_abc_apply xb hc ch r c).trans (hx ch r c)

/-- Window pair 0: rows shifted by one. -/
theorem pay_0 (yb tb : Vec Ideal S1x3x512x512 .f32) (Y T : Img) (b : Fin 16)
    (hy : ∀ (ch : Fin 3) (r c : Fin 512), yb (ix4 0 ch r c) = Y (ix4 b ch r c))
    (ht : ∀ (ch : Fin 3) (r c : Fin 512), tb (ix4 0 ch r c) = T (ix4 b ch r c)) :
    k0_pay9 (k0_pay4 yb) (k0_pay5 tb) (k0_pay7 yb) (k0_pay8 tb) (ix3 0 0 0)
      = ∑ r : Fin 511, ∑ c : Fin 512, px Y T 1 0 0 0 b r.val c.val := by
  unfold k0_pay9 k0_pay7 k0_pay8 k0_pay4 k0_pay5
  exact ker_tot 511 512 1 0 0 0 _ _ Y T b (drop_unit yb Y b hy _) (drop_unit tb T b ht _)
    _ _ _ _ _ _ _ _ _ _ _ _ _ _

/-- Window pair 1: columns shifted by one. -/
theorem pay_1 (yb tb : Vec Ideal S1x3x512x512 .f32) (Y T : Img) (b : Fin 16)
    (hy : ∀ (ch : Fin 3) (r c : Fin 512), yb (ix4 0 ch r c) = Y (ix4 b ch r c))
    (ht : ∀ (ch : Fin 3) (r c : Fin 512), tb (ix4 0 ch r c) = T (ix4 b ch r c)) :
    k0_pay14 (k0_pay4 yb) (k0_pay5 tb) (k0_pay10 (k0_pay5 tb)) (k0_pay11 (k0_pay4 yb)) (k0_pay12 (k0_pay5 tb))
        (k0_pay13 (k0_pay5 tb)) (ix3 0 0 0)
      = ∑ r : Fin 512, ∑ c : Fin 511, px Y T 0 1 0 0 b r.val c.val := by
  unfold k0_pay14 k0_pay10 k0_pay11 k0_pay12 k0_pay13 k0_pay4 k0_pay5
  exact ker_tot 512 511 0 1 0 0 _ _ Y T b (drop_unit yb Y b hy _) (drop_unit tb T b ht _)
    _ _ _ _ _ _ _ _ _ _ _ _ _ _

/-- Window pair 2: rows and columns shifted by one. -/
theorem pay_2 (yb tb : Vec Ideal S1x3x512x512 .f32) (Y T : Img) (b : Fin 16)
    (hy : ∀ (ch : Fin 3) (r c : Fin 512), yb (ix4 0 ch r c) = Y (ix4 b ch r c))
    (ht : ∀ (ch : Fin 3) (r c : Fin 512), tb (ix4 0 ch r c) = T (ix4 b ch r c)) :
    k0_pay18 (k0_pay4 yb) (k0_pay5 tb) (k0_pay15 (k0_pay4 yb)) (k0_pay16 (k0_pay5 tb)) (k0_pay17 (k0_pay4 yb)) (ix3 0 0 0)
      = ∑ r : Fin 511, ∑ c : Fin 511, px Y T 1 1 0 0 b r.val c.val := by
  unfold k0_pay18 k0_pay15 k0_pay16 k0_pay17 k0_pay4 k0_pay5
  exact ker_tot 511 511 1 1 0 0 _ _ Y T b (drop_unit yb Y b hy _) (drop_unit tb T b ht _)
    _ _ _ _ _ _ _ _ _ _ _ _ _ _

/-- Window pair 3: rows shifted by one against columns shifted by one. -/
theorem pay_3 (yb tb : Vec Ideal S1x3x512x512 .f32) (Y T : Img) (b : Fin 16)
    (hy : ∀ (ch : Fin 3) (r c : Fin 512), yb (ix4 0 ch r c) = Y (ix4 b ch r c))
    (ht : ∀ (ch : Fin 3) (r c : Fin 512), tb (ix4 0 ch r c) = T (ix4 b ch r c)) :
    k0_pay22 (k0_pay4 yb) (k0_pay5 tb) (k0_pay19 (k0_pay4 yb)) (k0_pay20 (k0_pay5 tb)) (k0_pay21 (k0_pay4 yb)) (ix3 0 0 0)
      = ∑ r : Fin 511, ∑ c : Fin 511, px Y T 1 0 0 1 b r.val c.val := by
  unfold k0_pay22 k0_pay19 k0_pay20 k0_pay21 k0_pay4 k0_pay5
  exact ker_tot 511 511 1 0 0 1 _ _ Y T b (drop_unit yb Y b hy _) (drop_unit tb T b ht _)
    _ _ _ _ _ _ _ _ _ _ _ _ _ _

/-- Window pair 4: rows shifted by two. -/
theorem pay_4 (yb tb : Vec Ideal S1x3x512x512 .f32) (Y T : Img) (b : Fin 16)
    (hy : ∀ (ch : Fin 3) (r c : Fin 512), yb (ix4 0 ch r c) = Y (ix4 b ch r c))
    (ht : ∀ (ch : Fin 3) (r c : Fin 512), tb (ix4 0 ch r c) = T (ix4 b ch r c)) :
    k0_pay26 (k0_pay4 yb) (k0_pay5 tb) k0_pay23 (k0_pay24 (k0_pay4 yb)) (k0_pay25 (k0_pay5 tb)) (ix3 0 0 0)
      = ∑ r : Fin 510, ∑ c : Fin 512, px Y T 2 0 0 0 b r.val c.val := by
  unfold k0_pay26 k0_pay23 k0_pay24 k0_pay25 k0_pay4 k0_pay5
  exact ker_tot 510 512 2 0 0 0 _ _ Y T b (drop_unit yb Y b hy _) (drop_unit tb T b ht _)
    _ _ _ _ _ _ _ _ _ _ _ _ _ _

/-- Window pair 5: columns shifted by two. -/
theorem pay_5 (yb tb : Vec Ideal S1x3x512x512 .f32) (Y T : Img) (b : Fin 16)
    (hy : ∀ (ch : Fin 3) (r c : Fin 512), yb (ix4 0 ch r c) = Y (ix4 b ch r c))
    (ht : ∀ (ch : Fin 3) (r c : Fin 512), tb (ix4 0 ch r c) = T (ix4 b ch r c)) :
    k0_pay30 (k0_pay4 yb) (k0_pay5 tb) k0_pay27 (k0_pay28 (k0_pay4 yb)) (k0_pay29 (k0_pay5 tb)) (ix3 0 0 0)
      = ∑ r : Fin 512, ∑ c : Fin 510, px Y T 0 2 0 0 b r.val c.val := by
  unfold k0_pay30 k0_pay27 k0_pay28 k0_pay29 k0_pay4 k0_pay5
  exact ker_tot 512 510 0 2 0 0 _ _ Y T b (drop_unit yb Y b hy _) (drop_unit tb T b ht _)
    _ _ _ _ _ _ _ _ _ _ _ _ _ _

/-- Window pair 6: rows shifted by two and columns by one. -/
theorem pay_6 (yb tb : Vec Ideal S1x3x512x512 .f32) (Y T : Img) (b : Fin 16)
    (hy : ∀ (ch : Fin 3) (r c : Fin 512), yb (ix4 0 ch r c) = Y (ix4 b ch r c))
    (ht : ∀ (ch : Fin 3) (r c : Fin 512), tb (ix4 0 ch r c) = T (ix4 b ch r c)) :
    k0_pay35 (k0_pay4 yb) (k0_pay5 tb) k0_pay31 k0_pay32 (k0_pay33 (k0_pay4 yb)) (k0_pay34 (k0_pay4 yb)) (ix3 0 0 0)
      = ∑ r : Fin 510, ∑ c : Fin 511, px Y T 2 1 0 0 b r.val c.val := by
  unfold k0_pay35 k0_pay31 k0_pay32 k0_pay33 k0_pay34 k0_pay4 k0_pay5
  exact ker_tot 510 511 2 1 0 0 _ _ Y T b (drop_unit yb Y b hy _) (drop_unit tb T b ht _)
    _ _ _ _ _ _ _ _ _ _ _ _ _ _

/-- Window pair 7: rows shifted by two against columns shifted by one. -/
theorem pay_7 (yb tb : Vec Ideal S1x3x512x512 .f32) (Y T : Img) (b : Fin 16)
    (hy : ∀ (ch : Fin 3) (r c : Fin 512), yb (ix4 0 ch r c) = Y (ix4 b ch r c))
    (ht : ∀ (ch : Fin 3) (r c : Fin 512), tb (ix4 0 ch r c) = T (ix4 b ch r c)) :
    k0_pay38 (k0_pay4 yb) (k0_pay5 tb) k0_pay36 k0_pay37 (ix3 0 0 0)
      = ∑ r : Fin 510, ∑ c : Fin 511, px Y T 2 0 0 1 b r.val c.val := by
  unfold k0_pay38 k0_pay36 k0_pay37 k0_pay4 k0_pay5
  exact ker_tot 510 511 2 0 0 1 _ _ Y T b (drop_unit yb Y b hy _) (drop_unit tb T b ht _)
    _ _ _ _ _ _ _ _ _ _ _ _ _ _

/-- Window pair 8: rows shifted by one and columns by two. -/
theorem pay_8 (yb tb : Vec Ideal S1x3x512x512 .f32) (Y T : Img) (b : Fin 16)
    (hy : ∀ (ch : Fin 3) (r c : Fin 512), yb (ix4 0 ch r c) = Y (ix4 b ch r c))
    (ht : ∀ (ch : Fin 3) (r c : Fin 512), tb (ix4 0 ch r c) = T (ix4 b ch r c)) :
    k0_pay40 (k0_pay39 (k0_pay4 yb) (k0_pay5 tb)) (ix3 0 0 0)
      = ∑ r : Fin 511, ∑ c : Fin 510, px Y T 1 2 0 0 b r.val c.val := by
  unfold k0_pay40 k0_pay39 k0_pay4 k0_pay5
  exact ker_tot 511 510 1 2 0 0 _ _ Y T b (drop_unit yb Y b hy _) (drop_unit tb T b ht _)
    _ _ _ _ _ _ _ _ _ _ _ _ _ _

/-- Window pair 9: rows shifted by one against columns shifted by two. -/
theorem pay_9 (yb tb : Vec Ideal S1x3x512x512 .f32) (Y T : Img) (b : Fin 16)
    (hy : ∀ (ch : Fin 3) (r c : Fin 512), yb (ix4 0 ch r c) = Y (ix4 b ch r c))
    (ht : ∀ (ch : Fin 3) (r c : Fin 512), tb (ix4 0 ch r c) = T (ix4 b ch r c)) :
    k0_pay42 (k0_pay41 (k0_pay4 yb) (k0_pay5 tb)) (ix3 0 0 0)
      = ∑ r : Fin 511, ∑ c : Fin 510, px Y T 1 0 0 2 b r.val c.val := by
  unfold k0_pay42 k0_pay41 k0_pay4 k0_pay5
  exact ker_tot 511 510 1 0 0 2 _ _ Y T b (drop_unit yb Y b hy _) (drop_unit tb T b ht _)
    _ _ _ _ _ _ _ _ _ _ _ _ _ _

/-- Window pair 10: rows and columns shifted by two. -/
theorem pay_10 (yb tb : Vec Ideal S1x3x512x512 .f32) (Y T : Img) (b : Fin 16)
    (hy : ∀ (ch : Fin 3) (r c : Fin 512), yb (ix4 0 ch r c) = Y (ix4 b ch r c))
    (ht : ∀ (ch : Fin 3) (r c : Fin 512), tb (ix4 0 ch r c) = T (ix4 b ch r c)) :
    k0_pay44 (k0_pay43 (k0_pay4 yb) (k0_pay5 tb)) (ix3 0 0 0)
      = ∑ r : Fin 510, ∑ c : Fin 510, px Y T 2 2 0 0 b r.val c.val := by
  unfold k0_pay44 k0_pay43 k0_pay4 k0_pay5
  exact ker_tot 510 510 2 2 0 0 _ _ Y T b (drop_unit yb Y b hy _) (drop_unit tb T b ht _)
    _ _ _ _ _ _ _ _ _ _ _ _ _ _

/-- Window pair 11: rows shifted by two against columns shifted by two. -/
theorem pay_11 (yb tb : Vec Ideal S1x3x512x512 .f32) (Y T : Img) (b : Fin 16)
    (hy : ∀ (ch : Fin 3) (r c : Fin 512), yb (ix4 0 ch r c) = Y (ix4 b ch r c))
    (ht : ∀ (ch : Fin 3) (r c : Fin 512), tb (ix4 0 ch r c) = T (ix4 b ch r c)) :
    k0_pay1 (k0_pay45 (k0_pay4 yb)) (k0_pay46 (k0_pay5 tb)) k0_pay47 (ix3 0 0 0)
      = ∑ r : Fin 510, ∑ c : Fin 510, px Y T 2 0 0 2 b r.val c.val := by
  unfold k0_pay1 k0_pay45 k0_pay46 k0_pay47 k0_pay4 k0_pay5
  exact ker_tot 510 510 2 0 0 2 _ _ Y T b (drop_unit yb Y b hy _) (drop_unit tb T b ht _)
    _ _ _ _ _ _ _ _ _ _ _ _ _ _

/-! ## The squared difference: three reductions, one per axis -/

/-- A sum over the last axis: the reduction of an `a × m × n` vector along axis 2, read at `(i, j)`. -/
theorem red3_axis2 {a m n : ℕ} (V : FVec Ideal ⟨3, ![a, m, n]⟩ .f32)
    (hred : (⟨3, ![a, m, n]⟩ : Shape).Reduces [2] ⟨2, ![a, m]⟩) (hφ : FKind.Formats .f32)
    (hacc : (0x00000000#32 : BitVec 32) = FKind.add.neutral .f32 hφ) (i : Fin a) (j : Fin m) :
    multiReduction .add [2] ⟨2, ![a, m]⟩ V 0x00000000#32 hred hφ hacc (ix2 i j) = ∑ c : Fin n, V (ix3 i j c) := by
  refine (Ideal.multiReduction_add_single V _ hred hφ hacc (ix2 i j)).trans ?_
  show ∑ k : Fin n, V (hred.lift (ix2 i j) k) = _
  refine Finset.sum_congr rfl fun c _ => congrArg V ?_
  funext x
  match x with
  | ⟨0, _⟩ => exact Fin.ext rfl
  | ⟨1, _⟩ => exact Fin.ext rfl
  | ⟨2, _⟩ => exact Fin.ext rfl

/-- A sum over the middle axis: the reduction of an `a × m × n` vector along axis 1, read at `(i, k)`. -/
theorem red3_axis1 {a m n : ℕ} (V : FVec Ideal ⟨3, ![a, m, n]⟩ .f32)
    (hred : (⟨3, ![a, m, n]⟩ : Shape).Reduces [1] ⟨2, ![a, n]⟩) (hφ : FKind.Formats .f32)
    (hacc : (0x00000000#32 : BitVec 32) = FKind.add.neutral .f32 hφ) (i : Fin a) (k : Fin n) :
    multiReduction .add [1] ⟨2, ![a, n]⟩ V 0x00000000#32 hred hφ hacc (ix2 i k) = ∑ r : Fin m, V (ix3 i r k) := by
  refine (Ideal.multiReduction_add_single V _ hred hφ hacc (ix2 i k)).trans ?_
  show ∑ r : Fin m, V (hred.lift (ix2 i k) r) = _
  refine Finset.sum_congr rfl fun r _ => congrArg V ?_
  funext x
  match x with
  | ⟨0, _⟩ => exact Fin.ext rfl
  | ⟨1, _⟩ => exact Fin.ext rfl
  | ⟨2, _⟩ => exact Fin.ext rfl

/-- A sum over the first axis: the reduction of an `a × m × n` vector along axis 0, read at `(j, k)`. -/
theorem red3_axis0 {a m n : ℕ} (V : FVec Ideal ⟨3, ![a, m, n]⟩ .f32)
    (hred : (⟨3, ![a, m, n]⟩ : Shape).Reduces [0] ⟨2, ![m, n]⟩) (hφ : FKind.Formats .f32)
    (hacc : (0x00000000#32 : BitVec 32) = FKind.add.neutral .f32 hφ) (j : Fin m) (k : Fin n) :
    multiReduction .add [0] ⟨2, ![m, n]⟩ V 0x00000000#32 hred hφ hacc (ix2 j k) = ∑ ch : Fin a, V (ix3 ch j k) := by
  refine (Ideal.multiReduction_add_single V _ hred hφ hacc (ix2 j k)).trans ?_
  show ∑ ch : Fin a, V (hred.lift (ix2 j k) ch) = _
  refine Finset.sum_congr rfl fun ch _ => congrArg V ?_
  funext x
  match x with
  | ⟨0, _⟩ => exact Fin.ext rfl
  | ⟨1, _⟩ => exact Fin.ext rfl
  | ⟨2, _⟩ => exact Fin.ext rfl

/-- An `a × m` matrix cast to `a × m × 1` reads, at `(i, j, u)`, the entry `(i, j)`. -/
theorem cast_last_unit {α : Type} {a m : ℕ} (x : (⟨2, ![a, m]⟩ : Shape).Idx → α)
    (hc : (⟨2, ![a, m]⟩ : Shape).ShapeCasts ⟨3, ![a, m, 1]⟩) (i : Fin a) (j : Fin m) (u : Fin 1) :
    shapeCast ⟨3, ![a, m, 1]⟩ x hc (ix3 i j u) = x (ix2 i j) :=
  shapeCast_apply x hc _ _ (by
    have hu : u.val = 0 := by omega
    rw [Shape.rowMajor_val_three, Shape.rowMajor_val_two]
    show i.val * m + j.val = (i.val * m + j.val) * 1 + u.val
    rw [hu, Nat.mul_one, Nat.add_zero])

/-- The squared difference of the `x` and `t` blocks, summed over channel, row and column. -/
theorem pay_12 (xb tb : Vec Ideal S1x3x512x512 .f32) (X T : Img) (b : Fin 16)
    (hx : ∀ (ch : Fin 3) (r c : Fin 512), xb (ix4 0 ch r c) = X (ix4 b ch r c))
    (ht : ∀ (ch : Fin 3) (r c : Fin 512), tb (ix4 0 ch r c) = T (ix4 b ch r c)) :
    k0_pay2 (k0_pay3 xb) (k0_pay5 tb) (ix3 0 0 0)
      = ∑ ch : Fin 3, ∑ r : Fin 512, ∑ c : Fin 512,
          (X (ix4 b ch r c) - T (ix4 b ch r c)) * (X (ix4 b ch r c) - T (ix4 b ch r c)) := by
  unfold k0_pay2 k0_pay3 k0_pay5
  refine (shapeCast_ab_1ab_apply _ _ _ _ _).trans ?_
  refine (red3_axis0 _ _ _ _ _ _).trans ?_
  refine Finset.sum_congr rfl fun ch _ => ?_
  refine (cast_last_unit _ _ _ _ _).trans ?_
  refine (red3_axis1 _ _ _ _ _ _).trans ?_
  refine Finset.sum_congr rfl fun r _ => ?_
  refine (cast_last_unit _ _ _ _ _).trans ?_
  refine (red3_axis2 _ _ _ _ _ _).trans ?_
  refine Finset.sum_congr rfl fun c _ => ?_
  rw [mulf_apply, subf_apply, drop_unit xb X b hx, drop_unit tb T b ht]

/-- Everything else in the output block is the zero word. -/
theorem pay_zero (j : S1x8x128.Idx) : k0_pay6 (F := Ideal) j = Ideal.ofBits .f32 0x00000000#32 := rfl

end Cert.KernelIdeal.PayVal

end
-- ==== Proof.KerValue.lean ====
/-
  The kernel program's result as a value. After the run the 16 × 8 × 128 table holds, in row 0 of batch entry `b`, the twelve window sums
  of that entry at columns 0 … 11 and its squared-difference sum at column 12: each grid point writes back the block the body left, the
  body's block is read cell by cell, and each cell's stored value is the double sum over the window of the pixel term (resp. the triple sum
  of squared differences). The host lines after the region then form the loss of the table's column sums, which are the sums over the
  batch: the loss of the specification, at the first argument, its colour transform (the eight host lines before the region, kept folded)
  and the second argument.
-/
import proofs.«102783_j41472204210650_1_alg».proof.Proof.FrameKI
import proofs.«102783_j41472204210650_1_alg».proof.Proof.KerBlocks
import proofs.«102783_j41472204210650_1_alg».proof.Proof.KerTail
import proofs.«102783_j41472204210650_1_alg».proof.Proof.KerCells
import proofs.«102783_j41472204210650_1_alg».proof.Proof.KerPayloads
import proofs.«102783_j41472204210650_1_alg».proof.Proof.Spec
import Idealize.ShloMosaic.Lib.StableHlo.Run

set_option maxRecDepth 16384
noncomputable section
namespace Cert.KernelIdeal.Val
open Cert.KernelIdeal Cert.KernelIdeal.Gen Cert.KernelIdeal.Hand Cert.KernelIdeal.Blk Cert.KernelIdeal.Tail Cert.KernelIdeal.Cells Cert.KernelIdeal.PayVal
open Cert.Stencil Idealize.ShloMosaic Idealize.ShloMosaic.TcCoe Idealize.SL.Sem Idealize.ShloMosaic.StableHlo Idealize.ShloMosaic.ValueIdx
open Idealize.ShloMosaic.Pipeline (Dat Cfg Window)
open scoped BigOperators

variable (m : (ℓ : Loc nD τ sig) → Buf (Elt Ideal) ℓ) (ρ : Dev nD → PrngReg)

/-- The colour transform of an image, as the eight host lines before the region compute it: the image regrouped into rows of three
    consecutive elements, each row multiplied by the 3 × 3 matrix and shifted by the offset vector, and regrouped back. Never opened. -/
def ychainK (X : Img) : Img :=
  shapeCast S16x3x512x512
    (addf (Host.dotGeneral (F := Ideal) (φ₁ := .f32) dot_S4194304x3_S3x3_S4194304x3_1_0_0_1_n_n none
        (shapeCast S4194304x3 (X : FVec Ideal S16x3x512x512 .f32) shapeCasts_S16x3x512x512_S4194304x3)
        (fun i => FloatOps.ofBits .f32 (lit0 (S3x3.rowMajor i))))
      (broadcastInDim S4194304x3 ![0, 1] bcast_S1x3_S4194304x3_0_1 (broadcastInDim S1x3 ![1] bcast_S3_S1x3_1 (fun i => FloatOps.ofBits .f32 (lit1 (S3.rowMajor i))))))
    shapeCasts_S4194304x3_S16x3x512x512

/-- The transformed image the region finds is the colour transform of the first argument as launched. -/
theorem V_main_v5 (c : Dev nD) : V m c main_v5 = ychainK (m ((c : Thread nD τ).loc main_arg0)) := by
  show StableHlo.after (List.flatten [hostOps0]) (fun b => m (c, b)) (Proc.devRef .tc main_v5) = _
  simp only [List.flatten_cons, List.flatten_nil, List.append_nil]
  after_results
  rfl

/-- Batch entry `b` of an image, as a 1 × 3 × 512 × 512 block. -/
def blkOf (A : Img) (b : Fin 16) : Vec Ideal S1x3x512x512 .f32 :=
  fun j => A (ix4 b (⟨(j 1).val, (j 1).isLt⟩ : Fin 3) (⟨(j 2).val, (j 2).isLt⟩ : Fin 512) (⟨(j 3).val, (j 3).isLt⟩ : Fin 512))

theorem read_blk0 (A : S16x3x512x512.Idx → EReal) (t : Fin cfg0.N) :
    ((cfg0.win 0).blk t).view.read (Elt Ideal) A = blkOf A ⟨t.val, tlt t⟩ := by
  funext y
  show A (((cfg0.win 0).blk t).view.emb y) = _
  rw [embIn0]
  rfl

theorem read_blk1 (A : S16x3x512x512.Idx → EReal) (t : Fin cfg0.N) :
    ((cfg0.win 1).blk t).view.read (Elt Ideal) A = blkOf A ⟨t.val, tlt t⟩ := by
  funext y
  show A (((cfg0.win 1).blk t).view.emb y) = _
  rw [embIn1]
  rfl

theorem read_blk2 (A : S16x3x512x512.Idx → EReal) (t : Fin cfg0.N) :
    ((cfg0.win 2).blk t).view.read (Elt Ideal) A = blkOf A ⟨t.val, tlt t⟩ := by
  funext y
  show A (((cfg0.win 2).blk t).view.emb y) = _
  rw [embIn2]
  rfl

/-- The input blocks at point `t` are batch entry `t` of the arrays the region finds. -/
theorem iblk0 (c : Dev nD) (t : Fin cfg0.N) : iblk m c 0 t = blkOf (V m c main_arg0) ⟨t.val, tlt t⟩ := by
  unfold iblk; exact read_blk0 _ t
theorem iblk1 (c : Dev nD) (t : Fin cfg0.N) : iblk m c 1 t = blkOf (V m c main_v5) ⟨t.val, tlt t⟩ := by
  unfold iblk; exact read_blk1 _ t
theorem iblk2 (c : Dev nD) (t : Fin cfg0.N) : iblk m c 2 t = blkOf (V m c main_arg1) ⟨t.val, tlt t⟩ := by
  unfold iblk; exact read_blk2 _ t

/-- The table the region leaves, as one function of the three arrays: row `b` is what the body leaves from batch entry `b`. -/
def tab (X Y T : Img) : S16x8x128.Idx → EReal := fun i =>
  out0_3 (F := Ideal) (blkOf X ⟨(i 0).val, (i 0).isLt⟩) (blkOf Y ⟨(i 0).val, (i 0).isLt⟩) (blkOf T ⟨(i 0).val, (i 0).isLt⟩)
    (ix3 (0 : Fin 1) (⟨(i 1).val, (i 1).isLt⟩ : Fin 8) (⟨(i 2).val, (i 2).isLt⟩ : Fin 128))

/-- What point `t` writes back is row `t` of the table. -/
theorem flushed_eq (c : Dev nD) (t : Fin cfg0.N) :
    (dats m 0 c).flushed 3 t = ((cfg0.win 3).blk t).view.read (Elt Ideal) (tab (V m c main_arg0) (V m c main_v5) (V m c main_arg1)) := by
  show (cfg0.win 3).cut (grid0.coords t) ((dats m 0 c).after 3 t) = _
  rw [after0_3, iblk0, iblk1, iblk2]
  funext j
  show out0_3 (F := Ideal) _ _ _ j = tab _ _ _ (((cfg0.win 3).blk t).view.emb j)
  rw [emb3]
  show _ = out0_3 (F := Ideal) _ _ _ _
  refine congrArg _ ?_
  funext a
  match a with
  | ⟨0, _⟩ => exact Fin.ext (by have h1 : (j 0).val < 1 := (j 0).isLt; show (j 0).val = 0; omega)
  | ⟨1, _⟩ => rfl
  | ⟨2, _⟩ => rfl

/-- The table after the run. -/
theorem final (c : Dev nD) : (dats m 0 c).arrAt 3 cfg0.N = tab (V m c main_arg0) (V m c main_v5) (V m c main_arg1) :=
  (dats m 0 c).arrAt_eq_of_cover 3 _ (fun t _ => flushed_eq m c t) cover3

theorem hz4 : (![0, 0, 0, 0] : Fin 4 → Nat) = fun _ => 0 := funext fun a => by fin_cases a <;> rfl

theorem tab_cell0 (X Y T : Img) (b : Fin 16) :
    tab X Y T (ix3 b (0 : Fin 8) (⟨0, by decide⟩ : Fin 128)) = ∑ r : Fin 511, ∑ c : Fin 512, px Y T 1 0 0 0 b r.val c.val := by
  show out0_3 (F := Ideal) (blkOf X b) (blkOf Y b) (blkOf T b) (ix3 (0 : Fin 1) (0 : Fin 8) (⟨0, by decide⟩ : Fin 128)) = _
  unfold out0_3
  refine (cell0 (F := Ideal) _ _ _ _ _ _ _ _ _ _ _ _ _ _).trans ?_
  simp only [View.ld_unit_zero (S := S1x3x512x512) hz4]
  exact pay_0 (blkOf Y b) (blkOf T b) Y T b (fun _ _ _ => rfl) (fun _ _ _ => rfl)

theorem tab_cell1 (X Y T : Img) (b : Fin 16) :
    tab X Y T (ix3 b (0 : Fin 8) (⟨1, by decide⟩ : Fin 128)) = ∑ r : Fin 512, ∑ c : Fin 511, px Y T 0 1 0 0 b r.val c.val := by
  show out0_3 (F := Ideal) (blkOf X b) (blkOf Y b) (blkOf T b) (ix3 (0 : Fin 1) (0 : Fin 8) (⟨1, by decide⟩ : Fin 128)) = _
  unfold out0_3
  refine (cell1 (F := Ideal) _ _ _ _ _ _ _ _ _ _ _ _ _ _).trans ?_
  simp only [View.ld_unit_zero (S := S1x3x512x512) hz4]
  exact pay_1 (blkOf Y b) (blkOf T b) Y T b (fun _ _ _ => rfl) (fun _ _ _ => rfl)

theorem tab_cell2 (X Y T : Img) (b : Fin 16) :
    tab X Y T (ix3 b (0 : Fin 8) (⟨2, by decide⟩ : Fin 128)) = ∑ r : Fin 511, ∑ c : Fin 511, px Y T 1 1 0 0 b r.val c.val := by
  show out0_3 (F := Ideal) (blkOf X b) (blkOf Y b) (blkOf T b) (ix3 (0 : Fin 1) (0 : Fin 8) (⟨2, by decide⟩ : Fin 128)) = _
  unfold out0_3
  refine (cell2 (F := Ideal) _ _ _ _ _ _ _ _ _ _ _ _ _ _).trans ?_
  simp only [View.ld_unit_zero (S := S1x3x512x512) hz4]
  exact pay_2 (blkOf Y b) (blkOf T b) Y T b (fun _ _ _ => rfl) (fun _ _ _ => rfl)

theorem tab_cell3 (X Y T : Img) (b : Fin 16) :
    tab X Y T (ix3 b (0 : Fin 8) (⟨3, by decide⟩ : Fin 128)) = ∑ r : Fin 511, ∑ c : Fin 511, px Y T 1 0 0 1 b r.val c.val := by
  show out0_3 (F := Ideal) (blkOf X b) (blkOf Y b) (blkOf T b) (ix3 (0 : Fin 1) (0 : Fin 8) (⟨3, by decide⟩ : Fin 128)) = _
  unfold out0_3
  refine (cell3 (F := Ideal) _ _ _ _ _ _ _ _ _ _ _ _ _ _).trans ?_
  simp only [View.ld_unit_zero (S := S1x3x512x512) hz4]
  exact pay_3 (blkOf Y b) (blkOf T b) Y T b (fun _ _ _ => rfl) (fun _ _ _ => rfl)

theorem tab_cell4 (X Y T : Img) (b : Fin 16) :
    tab X Y T (ix3 b (0 : Fin 8) (⟨4, by decide⟩ : Fin 128)) = ∑ r : Fin 510, ∑ c : Fin 512, px Y T 2 0 0 0 b r.val c.val := by
  show out0_3 (F := Ideal) (blkOf X b) (blkOf Y b) (blkOf T b) (ix3 (0 : Fin 1) (0 : Fin 8) (⟨4, by decide⟩ : Fin 128)) = _
  unfold out0_3
  refine (cell4 (F := Ideal) _ _ _ _ _ _ _ _ _ _ _ _ _ _).trans ?_
  simp only [View.ld_unit_zero (S := S1x3x512x512) hz4]
  exact pay_4 (blkOf Y b) (blkOf T b) Y T b (fun _ _ _ => rfl) (fun _ _ _ => rfl)

theorem tab_cell5 (X Y T : Img) (b : Fin 16) :
    tab X Y T (ix3 b (0 : Fin 8) (⟨5, by decide⟩ : Fin 128)) = ∑ r : Fin 512, ∑ c : Fin 510, px Y T 0 2 0 0 b r.val c.val := by
  show out0_3 (F := Ideal) (blkOf X b) (blkOf Y b) (blkOf T b) (ix3 (0 : Fin 1) (0 : Fin 8) (⟨5, by decide⟩ : Fin 128)) = _
  unfold out0_3
  refine (cell5 (F := Ideal) _ _ _ _ _ _ _ _ _ _ _ _ _ _).trans ?_
  simp only [View.ld_unit_zero (S := S1x3x512x512) hz4]
  exact pay_5 (blkOf Y b) (blkOf T b) Y T b (fun _ _ _ => rfl) (fun _ _ _ => rfl)

theorem tab_cell6 (X Y T : Img) (b : Fin 16) :
    tab X Y T (ix3 b (0 : Fin 8) (⟨6, by decide⟩ : Fin 128)) = ∑ r : Fin 510, ∑ c : Fin 511, px Y T 2 1 0 0 b r.val c.val := by
  show out0_3 (F := Ideal) (blkOf X b) (blkOf Y b) (blkOf T b) (ix3 (0 : Fin 1) (0 : Fin 8) (⟨6, by decide⟩ : Fin 128)) = _
  unfold out0_3
  refine (cell6 (F := Ideal) _ _ _ _ _ _ _ _ _ _ _ _ _ _).trans ?_
  simp only [View.ld_unit_zero (S := S1x3x512x512) hz4]
  exact pay_6 (blkOf Y b) (blkOf T b) Y T b (fun _ _ _ => rfl) (fun _ _ _ => rfl)

theorem tab_cell7 (X Y T : Img) (b : Fin 16) :
    tab X Y T (ix3 b (0 : Fin 8) (⟨7, by decide⟩ : Fin 128)) = ∑ r : Fin 510, ∑ c : Fin 511, px Y T 2 0 0 1 b r.val c.val := by
  show out0_3 (F := Ideal) (blkOf X b) (blkOf Y b) (blkOf T b) (ix3 (0 : Fin 1) (0 : Fin 8) (⟨7, by decide⟩ : Fin 128)) = _
  unfold out0_3
  refine (cell7 (F := Ideal) _ _ _ _ _ _ _ _ _ _ _ _ _ _).trans ?_
  simp only [View.ld_unit_zero (S := S1x3x512x512) hz4]
  exact pay_7 (blkOf Y b) (blkOf T b) Y T b (fun _ _ _ => rfl) (fun _ _ _ => rfl)

theorem tab_cell8 (X Y T : Img) (b : Fin 16) :
    tab X Y T (ix3 b (0 : Fin 8) (⟨8, by decide⟩ : Fin 128)) = ∑ r : Fin 511, ∑ c : Fin 510, px Y T 1 2 0 0 b r.val c.val := by
  show out0_3 (F := Ideal) (blkOf X b) (blkOf Y b) (blkOf T b) (ix3 (0 : Fin 1) (0 : Fin 8) (⟨8, by decide⟩ : Fin 128)) = _
  unfold out0_3
  refine (cell8 (F := Ideal) _ _ _ _ _ _ _ _ _ _ _ _ _ _).trans ?_
  simp only [View.ld_unit_zero (S := S1x3x512x512) hz4]
  exact pay_8 (blkOf Y b) (blkOf T b) Y T b (fun _ _ _ => rfl) (fun _ _ _ => rfl)

theorem tab_cell9 (X Y T : Img) (b : Fin 16) :
    tab X Y T (ix3 b (0 : Fin 8) (⟨9, by decide⟩ : Fin 128)) = ∑ r : Fin 511, ∑ c : Fin 510, px Y T 1 0 0 2 b r.val c.val := by
  show out0_3 (F := Ideal) (blkOf X b) (blkOf Y b) (blkOf T b) (ix3 (0 : Fin 1) (0 : Fin 8) (⟨9, by decide⟩ : Fin 128)) = _
  unfold out0_3
  refine (cell9 (F := Ideal) _ _ _ _ _ _ _ _ _ _ _ _ _ _).trans ?_
  simp only [View.ld_unit_zero (S := S1x3x512x512) hz4]
  exact pay_9 (blkOf Y b) (blkOf T b) Y T b (fun _ _ _ => rfl) (fun _ _ _ => rfl)

theorem tab_cell10 (X Y T : Img) (b : Fin 16) :
    tab X Y T (ix3 b (0 : Fin 8) (⟨10, by decide⟩ : Fin 128)) = ∑ r : Fin 510, ∑ c : Fin 510, px Y T 2 2 0 0 b r.val c.val := by
  show out0_3 (F := Ideal) (blkOf X b) (blkOf Y b) (blkOf T b) (ix3 (0 : Fin 1) (0 : Fin 8) (⟨10, by decide⟩ : Fin 128)) = _
  unfold out0_3
  refine (cell10 (F := Ideal) _ _ _ _ _ _ _ _ _ _ _ _ _ _).trans ?_
  simp only [View.ld_unit_zero (S := S1x3x512x512) hz4]
  exact pay_10 (blkOf Y b) (blkOf T b) Y T b (fun _ _ _ => rfl) (fun _ _ _ => rfl)

theorem tab_cell11 (X Y T : Img) (b : Fin 16) :
    tab X Y T (ix3 b (0 : Fin 8) (⟨11, by decide⟩ : Fin 128)) = ∑ r : Fin 510, ∑ c : Fin 510, px Y T 2 0 0 2 b r.val c.val := by
  show out0_3 (F := Ideal) (blkOf X b) (blkOf Y b) (blkOf T b) (ix3 (0 : Fin 1) (0 : Fin 8) (⟨11, by decide⟩ : Fin 128)) = _
  unfold out0_3
  refine (cell11 (F := Ideal) _ _ _ _ _ _ _ _ _ _ _ _ _ _).trans ?_
  simp only [View.ld_unit_zero (S := S1x3x512x512) hz4]
  exact pay_11 (blkOf Y b) (blkOf T b) Y T b (fun _ _ _ => rfl) (fun _ _ _ => rfl)

theorem tab_cell12 (X Y T : Img) (b : Fin 16) :
    tab X Y T (ix3 b (0 : Fin 8) (⟨12, by decide⟩ : Fin 128))
      = ∑ ch : Fin 3, ∑ r : Fin 512, ∑ c : Fin 512, (X (ix4 b ch r c) - T (ix4 b ch r c)) * (X (ix4 b ch r c) - T (ix4 b ch r c)) := by
  show out0_3 (F := Ideal) (blkOf X b) (blkOf Y b) (blkOf T b) (ix3 (0 : Fin 1) (0 : Fin 8) (⟨12, by decide⟩ : Fin 128)) = _
  unfold out0_3
  refine (cell12 (F := Ideal) _ _ _ _ _ _ _ _ _ _ _ _ _ _).trans ?_
  simp only [View.ld_unit_zero (S := S1x3x512x512) hz4]
  exact pay_12 (blkOf X b) (blkOf T b) X T b (fun _ _ _ => rfl) (fun _ _ _ => rfl)

theorem colSum0 (X Y T : Img) : colSum (tab X Y T) 0 (by decide) = tot Y T 1 0 0 0 511 512 :=
  Finset.sum_congr rfl fun b _ => tab_cell0 X Y T b
theorem colSum1 (X Y T : Img) : colSum (tab X Y T) 1 (by decide) = tot Y T 0 1 0 0 512 511 :=
  Finset.sum_congr rfl fun b _ => tab_cell1 X Y T b
theorem colSum2 (X Y T : Img) : colSum (tab X Y T) 2 (by decide) = tot Y T 1 1 0 0 511 511 :=
  Finset.sum_congr rfl fun b _ => tab_cell2 X Y T b
theorem colSum3 (X Y T : Img) : colSum (tab X Y T) 3 (by decide) = tot Y T 1 0 0 1 511 511 :=
  Finset.sum_congr rfl fun b _ => tab_cell3 X Y T b
theorem colSum4 (X Y T : Img) : colSum (tab X Y T) 4 (by decide) = tot Y T 2 0 0 0 510 512 :=
  Finset.sum_congr rfl fun b _ => tab_cell4 X Y T b
theorem colSum5 (X Y T : Img) : colSum (tab X Y T) 5 (by decide) = tot Y T 0 2 0 0 512 510 :=
  Finset.sum_congr rfl fun b _ => tab_cell5 X Y T b
theorem colSum6 (X Y T : Img) : colSum (tab X Y T) 6 (by decide) = tot Y T 2 1 0 0 510 511 :=
  Finset.sum_congr rfl fun b _ => tab_cell6 X Y T b
theorem colSum7 (X Y T : Img) : colSum (tab X Y T) 7 (by decide) = tot Y T 2 0 0 1 510 511 :=
  Finset.sum_congr rfl fun b _ => tab_cell7 X Y T b
theorem colSum8 (X Y T : Img) : colSum (tab X Y T) 8 (by decide) = tot Y T 1 2 0 0 511 510 :=
  Finset.sum_congr rfl fun b _ => tab_cell8 X Y T b
theorem colSum9 (X Y T : Img) : colSum (tab X Y T) 9 (by decide) = tot Y T 1 0 0 2 511 510 :=
  Finset.sum_congr rfl fun b _ => tab_cell9 X Y T b
theorem colSum10 (X Y T : Img) : colSum (tab X Y T) 10 (by decide) = tot Y T 2 2 0 0 510 510 :=
  Finset.sum_congr rfl fun b _ => tab_cell10 X Y T b
theorem colSum11 (X Y T : Img) : colSum (tab X Y T) 11 (by decide) = tot Y T 2 0 0 2 510 510 :=
  Finset.sum_congr rfl fun b _ => tab_cell11 X Y T b
theorem colSum12 (X Y T : Img) : colSum (tab X Y T) 12 (by decide) = sq X T :=
  Finset.sum_congr rfl fun b _ => tab_cell12 X Y T b

/-- The loss of the table's column sums is the loss of the specification. -/
theorem tab_loss (X Y T : Img) :
    lossOf (fun k => colSum (tab X Y T) k.val (by omega)) (colSum (tab X Y T) 12 (by decide)) = loss X Y T := by
  unfold loss
  rw [colSum12]
  refine congrArg (fun s => lossOf s (sq X T)) ?_
  funext k
  fin_cases k
  · exact colSum0 X Y T
  · exact colSum1 X Y T
  · exact colSum2 X Y T
  · exact colSum3 X Y T
  · exact colSum4 X Y T
  · exact colSum5 X Y T
  · exact colSum6 X Y T
  · exact colSum7 X Y T
  · exact colSum8 X Y T
  · exact colSum9 X Y T
  · exact colSum10 X Y T
  · exact colSum11 X Y T

/-- The result buffer after the run, from the frame run's post. -/
theorem result_eq (c : Dev nD) :
    Pipeline.afterTail₀ cfgs (dats m) 0 (V0 m) [hostOps1] c main_v72
      = fun _ => loss (m ((c : Thread nD τ).loc main_arg0)) (ychainK (m ((c : Thread nD τ).loc main_arg0))) (m ((c : Thread nD τ).loc main_arg1)) := by
  unfold Pipeline.afterTail₀
  simp only [List.flatten_cons, List.flatten_nil, List.append_nil]
  rw [tail_value]
  have hO : Pipeline.withArrays (cfgs 0).spec c (V0 m c) (fun w => (dats m 0 c).arrAt w (cfgs 0).N) (Proc.devRef .tc main_v6)
      = tab (V m c main_arg0) (V m c main_v5) (V m c main_arg1) :=
    (Pipeline.withArrays_arr spec0 arr_inj0 c _ _ 3).trans (final m c)
  rw [hO, tab_loss, V_main_arg0, V_main_arg1, V_main_v5]

/-- Every weakly fair execution of the idealized kernel program terminates with the result buffer at the loss and the arguments unchanged. -/
theorem run : θ_run defs (onTc (τ := τ) (main (F := Ideal))) ⟨m, fun _ => 0, ρ⟩ fun r => ∀ c : Dev nD,
      r.2.mem ((c.tc : Thread nD τ).loc main_v72)
        = (fun _ => loss (m ((c : Thread nD τ).loc main_arg0)) (ychainK (m ((c : Thread nD τ).loc main_arg0))) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v72 (Pipeline.mem_restRefs_of main_v72 (by decide) (by decide))).trans (result_eq m c),
       args_of_post m (dats m) (A_eq m) _ r h c⟩)
    (run_main m ρ)

end Cert.KernelIdeal.Val
end
-- ==== Proof.RefOps.lean ====
/-
  The reference program's operations as lists: the stretch computing the colour-transformed image (`opsY`), one stretch per window pair
  (`ops1` … `ops12`: two slices of each image, the squared and absolute differences summed over the channels, the exponential weight, the
  sum over batch and window, the mean doubled and added to the running total) and the mean squared difference (`opsF`); `ops` is their
  concatenation, and `wops0` … the same operations grouped as the printed program groups them. Pieces `pc*` are the common refinement.
-/
import proofs.«102783_j41472204210650_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Operations 1 … 8 of 306. -/
abbrev pc0 : List (HloOp τ sig (Elt F)) :=
  [ StableHlo.nullary main_cst (fun i => FloatOps.ofBits .f32 (lit0 (S3x3.rowMajor i))),
    StableHlo.nullary main_cst_0 (fun i => FloatOps.ofBits .f32 (lit1 (S3.rowMajor i))),
    StableHlo.reshape main_arg0 main_v0 rfl shapeCasts_S16x3x512x512_S4194304x3,
    StableHlo.binary main_v0 main_cst main_v1 ((fun l r => Host.dotGeneral dot_S4194304x3_S3x3_S4194304x3_1_0_0_1_n_n none l r) : (⟨S4194304x3, .f32⟩ : BufTy).Contents (Elt F) → (⟨S3x3, .f32⟩ : BufTy).Contents (Elt F) → (⟨S4194304x3, .f32⟩ : BufTy).Contents (Elt F)),
    StableHlo.unary main_cst_0 main_v2 (broadcastInDim S1x3 ![1] bcast_S3_S1x3_1 : (⟨S3, .f32⟩ : BufTy).Contents (Elt F) → (⟨S1x3, .f32⟩ : BufTy).Contents (Elt F)),
    StableHlo.unary main_v2 main_v3 (broadcastInDim S4194304x3 ![0, 1] bcast_S1x3_S4194304x3_0_1 : (⟨S1x3, .f32⟩ : BufTy).Contents (Elt F) → (⟨S4194304x3, .f32⟩ : BufTy).Contents (Elt F)),
    StableHlo.binary main_v1 main_v3 main_v4 (addf : (⟨S4194304x3, .f32⟩ : BufTy).Contents (Elt F) → (⟨S4194304x3, .f32⟩ : BufTy).Contents (Elt F) → (⟨S4194304x3, .f32⟩ : BufTy).Contents (Elt F)),
    StableHlo.reshape main_v4 main_v5 rfl shapeCasts_S4194304x3_S16x3x512x512 ]

/-- Operations 9 … 33 of 306. -/
abbrev pc1 : List (HloOp τ sig (Elt F)) :=
  [ StableHlo.unary main_v5 main_v6 ((extractStridedSlice S16x3x511x512 ![0, 0, 1, 0] · slices_S16x3x512x512_S16x3x511x512_0_0_1_0) : (⟨S16x3x512x512, .f32⟩ : BufTy).Contents (Elt F) → (⟨S16x3x511x512, .f32⟩ : BufTy).Contents (Elt F)),
    StableHlo.unary main_v5 main_v7 ((extractStridedSlice S16x3x511x512 ![0, 0, 0, 0] · slices_S16x3x512x512_S16x3x511x512_0_0_0_0) : (⟨S16x3x512x512, .f32⟩ : BufTy).Contents (Elt F) → (⟨S16x3x511x512, .f32⟩ : BufTy).Contents (Elt F)),
    StableHlo.binary main_v6 main_v7 main_v8 (subf : (⟨S16x3x511x512, .f32⟩ : BufTy).Contents (Elt F) → (⟨S16x3x511x512, .f32⟩ : BufTy).Contents (Elt F) → (⟨S16x3x511x512, .f32⟩ : BufTy).Contents (Elt F)),
    StableHlo.binary main_v8 main_v8 main_v9 (mulf : (⟨S16x3x511x512, .f32⟩ : BufTy).Contents (Elt F) → (⟨S16x3x511x512, .f32⟩ : BufTy).Contents (Elt F) → (⟨S16x3x511x512, .f32⟩ : BufTy).Contents (Elt F)),
    StableHlo.nullary main_cst_1 (constant S_ .f32 0x00000000#32),
    StableHlo.binary main_v9 main_cst_1 main_v10 ((fun x v => Host.reduceAdd x v reducesTo_S16x3x511x512_S16x511x512_d1 h_S_) : (⟨S16x3x511x512, .f32⟩ : BufTy).Contents (Elt F) → (⟨S_, .f32⟩ : BufTy).Contents (Elt F) → (⟨S16x511x512, .f32⟩ : BufTy).Contents (Elt F)),
    StableHlo.nullary main_cst_2 (constant S_ .f32 0xBBA3D70A#32),
    StableHlo.unary main_cst_2 main_v11 (broadcastInDim S16x511x512 ![] bcast_S_S16x511x512 : (⟨S_, .f32⟩ : BufTy).Contents (Elt F) → (⟨S16x511x512, .f32⟩ : BufTy).Contents (Elt F)),
    StableHlo.binary main_v10 main_v11 main_v12 (mulf : (⟨S16x511x512, .f32⟩ : BufTy).Contents (Elt F) → (⟨S16x511x512, .f32⟩ : BufTy).Contents (Elt F) → (⟨S16x511x512, .f32⟩ : BufTy).Contents (Elt F)),
    StableHlo.unary main_v12 main_v13 (Host.exp : (⟨S16x511x512, .f32⟩ : BufTy).Contents (Elt F) → (⟨S16x511x512, .f32⟩ : BufTy).Contents (Elt F)),
    StableHlo.unary main_arg1 main_v14 ((extractStridedSlice S16x3x511x512 ![0, 0, 1, 0] · slices_S16x3x512x512_S16x3x511x512_0_0_1_0) : (⟨S16x3x512x512, .f32⟩ : BufTy).Contents (Elt F) → (⟨S16x3x511x512, .f32⟩ : BufTy).Contents (Elt F)),
    StableHlo.unary main_arg1 main_v15 ((extractStridedSlice S16x3x511x512 ![0, 0, 0, 0] · slices_S16x3x512x512_S16x3x511x512_0_0_0_0) : (⟨S16x3x512x512, .f32⟩ : BufTy).Contents (Elt F) → (⟨S16x3x511x512, .f32⟩ : BufTy).Contents (Elt F)),
    StableHlo.binary main_v14 main_v15 main_v16 (subf : (⟨S16x3x511x512, .f32⟩ : BufTy).Contents (Elt F) → (⟨S16x3x511x512, .f32⟩ : BufTy).Contents (Elt F) → (⟨S16x3x511x512, .f32⟩ : BufTy).Contents (Elt F)),
    StableHlo.unary main_v16 main_v17 (Host.absf : (⟨S16x3x511x512, .f32⟩ : BufTy).Contents (Elt F) → (⟨S16x3x511x512, .f32⟩ : BufTy).Contents (Elt F)),
    StableHlo.nullary main_cst_3 (constant S_ .f32 0x00000000#32),
    StableHlo.binary main_v17 main_cst_3 main_v18 ((fun x v => Host.reduceAdd x v reducesTo_S16x3x511x512_S16x511x512_d1 h_S_) : (⟨S16x3x511x512, .f32⟩ : BufTy).Contents (Elt F) → (⟨S_, .f32⟩ : BufTy).Contents (Elt F) → (⟨S16x511x512, .f32⟩ : BufTy).Contents (Elt F)),
    StableHlo.binary main_v13 main_v18 main_v19 (mulf : (⟨S16x511x512, .f32⟩ : BufTy).Contents (Elt F) → (⟨S16x511x512, .f32⟩ : BufTy).Contents (Elt F) → (⟨S16x511x512, .f32⟩ : BufTy).Contents (Elt F)),
    StableHlo.nullary main_cst_4 (constant S_ .f32 0x00000000#32),
    StableHlo.binary main_v19 main_cst_4 main_v20 ((fun x v => Host.reduceAdd x v reducesTo_S16x511x512_S_d0_1_2 h_S_) : (⟨S16x511x512, .f32⟩ : BufTy).Contents (Elt F) → (⟨S_, .f32⟩ : BufTy).Contents (Elt F) → (⟨S_, .f32⟩ : BufTy).Contents (Elt F)),
    StableHlo.nullary main_cst_5 (constant S_ .f32 0x4A7F8000#32),
    StableHlo.binary main_v20 main_cst_5 main_v21 (Host.divf : (⟨S_, .f32⟩ : BufTy).Contents (Elt F) → (⟨S_, .f32⟩ : BufTy).Contents (Elt F) → (⟨S_, .f32⟩ : BufTy).Contents (Elt F)),
    StableHlo.nullary main_cst_6 (constant S_ .f32 0x40000000#32),
    StableHlo.binary main_cst_6 main_v21 main_v22 (mulf : (⟨S_, .f32⟩ : BufTy).Contents (Elt F) → (⟨S_, .f32⟩ : BufTy).Contents (Elt F) → (⟨S_, .f32⟩ : BufTy).Contents (Elt F)),
    StableHlo.nullary main_cst_7 (constant S_ .f32 0x00000000#32),
    StableHlo.binary main_cst_7 main_v22 main_v23 (addf : (⟨S_, .f32⟩ : BufTy).Contents (Elt F) → (⟨S_, .f32⟩ : BufTy).Contents (Elt F) → (⟨S_, .f32⟩ : BufTy).Contents (Elt F)) ]

/-- Operations 34 … 57 of 306. -/
abbrev pc2 : List (HloOp τ sig (Elt F)) :=
  [ StableHlo.unary main_v5 main_v24 ((extractStridedSlice S16x3x512x511 ![0, 0, 0, 1] · slices_S16x3x512x512_S16x3x512x511_0_0_0_1) : (⟨S16x3x512x512, .f32⟩ : BufTy).Contents (Elt F) → (⟨S16x3x512x511, .f32⟩ : BufTy).Contents (Elt F)),
    StableHlo.unary main_v5 main_v25 ((extractStridedSlice S16x3x512x511 ![0, 0, 0, 0] · slices_S16x3x512x512_S16x3x512x511_0_0_0_0) : (⟨S16x3x512x512, .f32⟩ : BufTy).Contents (Elt F) → (⟨S16x3x512x511, .f32⟩ : BufTy).Contents (Elt F)),
    StableHlo.binary main_v24 main_v25 main_v26 (subf : (⟨S16x3x512x511, .f32⟩ : BufTy).Contents (Elt F) → (⟨S16x3x512x511, .f32⟩ : BufTy).Contents (Elt F) → (⟨S16x3x512x511, .f32⟩ : BufTy).Contents (Elt F)),
    StableHlo.binary main_v26 main_v26 main_v27 (mulf : (⟨S16x3x512x511, .f32⟩ : BufTy).Contents (Elt F) → (⟨S16x3x512x511, .f32⟩ : BufTy).Contents (Elt F) → (⟨S16x3x512x511, .f32⟩ : BufTy).Contents (Elt F)),
    StableHlo.nullary main_cst_8 (constant S_ .f32 0x00000000#32),
    StableHlo.binary main_v27 main_cst_8 main_v28 ((fun x v => Host.reduceAdd x v reducesTo_S16x3x512x511_S16x512x511_d1 h_S_) : (⟨S16x3x512x511, .f32⟩ : BufTy).Contents (Elt F) → (⟨S_, .f32⟩ : BufTy).Contents (Elt F) → (⟨S16x512x511, .f32⟩ : BufTy).Contents (Elt F)),
    StableHlo.nullary main_cst_9 (constant S_ .f32 0xBBA3D70A#32),
    StableHlo.unary main_cst_9 main_v29 (broadcastInDim S16x512x511 ![] bcast_S_S16x512x511 : (⟨S_, .f32⟩ : BufTy).Contents (Elt F) → (⟨S16x512x511, .f32⟩ : BufTy).Contents (Elt F)),
    StableHlo.binary main_v28 main_v29 main_v30 (mulf : (⟨S16x512x511, .f32⟩ : BufTy).Contents (Elt F) → (⟨S16x512x511, .f32⟩ : BufTy).Contents (Elt F) → (⟨S16x512x511, .f32⟩ : BufTy).Contents (Elt F)),
    StableHlo.unary main_v30 main_v31 (Host.exp : (⟨S16x512x511, .f32⟩ : BufTy).Contents (Elt F) → (⟨S16x512x511, .f32⟩ : BufTy).Contents (Elt F)),
    StableHlo.unary main_arg1 main_v32 ((extractStridedSlice S16x3x512x511 ![0, 0, 0, 1] · slices_S16x3x512x512_S16x3x512x511_0_0_0_1) : (⟨S16x3x512x512, .f32⟩ : BufTy).Contents (Elt F) → (⟨S16x3x512x511, .f32⟩ : BufTy).Contents (Elt F)),
    StableHlo.unary main_arg1 main_v33 ((extractStridedSlice S16x3x512x511 ![0, 0, 0, 0] · slices_S16x3x512x512_S16x3x512x511_0_0_0_0) : (⟨S16x3x512x512, .f32⟩ : BufTy).Contents (Elt F) → (⟨S16x3x512x511, .f32⟩ : BufTy).Contents (Elt F)),
    StableHlo.binary main_v32 main_v33 main_v34 (subf : (⟨S16x3x512x511, .f32⟩ : BufTy).Contents (Elt F) → (⟨S16x3x512x511, .f32⟩ : BufTy).Contents (Elt F) → (⟨S16x3x512x511, .f32⟩ : BufTy).Contents (Elt F)),
    StableHlo.unary main_v34 main_v35 (Host.absf : (⟨S16x3x512x511, .f32⟩ : BufTy).Contents (Elt F) → (⟨S16x3x512x511, .f32⟩ : BufTy).Contents (Elt F)),
    StableHlo.nullary main_cst_10 (constant S_ .f32 0x00000000#32),
    StableHlo.binary main_v35 main_cst_10 main_v36 ((fun x v => Host.reduceAdd x v reducesTo_S16x3x512x511_S16x512x511_d1 h_S_) : (⟨S16x3x512x511, .f32⟩ : BufTy).Contents (Elt F) → (⟨S_, .f32⟩ : BufTy).Contents (Elt F) → (⟨S16x512x511, .f32⟩ : BufTy).Contents (Elt F)),
    StableHlo.binary main_v31 main_v36 main_v37 (mulf : (⟨S16x512x511, .f32⟩ : BufTy).Contents (Elt F) → (⟨S16x512x511, .f32⟩ : BufTy).Contents (Elt F) → (⟨S16x512x511, .f32⟩ : BufTy).Contents (Elt F)),
    StableHlo.nullary main_cst_11 (constant S_ .f32 0x00000000#32),
    StableHlo.binary main_v37 main_cst_11 main_v38 ((fun x v => Host.reduceAdd x v reducesTo_S16x512x511_S_d0_1_2 h_S_) : (⟨S16x512x511, .f32⟩ : BufTy).Contents (Elt F) → (⟨S_, .f32⟩ : BufTy).Contents (Elt F) → (⟨S_, .f32⟩ : BufTy).Contents (Elt F)),
    StableHlo.nullary main_cst_12 (constant S_ .f32 0x4A7F8000#32),
    StableHlo.binary main_v38 main_cst_12 main_v39 (Host.divf : (⟨S_, .f32⟩ : BufTy).Contents (Elt F) → (⟨S_, .f32⟩ : BufTy).Contents (Elt F) → (⟨S_, .f32⟩ : BufTy).Contents (Elt F)),
    StableHlo.nullary main_cst_13 (constant S_ .f32 0x40000000#32),
    StableHlo.binary main_cst_13 main_v39 main_v40 (mulf : (⟨S_, .f32⟩ : BufTy).Contents (Elt F) → (⟨S_, .f32⟩ : BufTy).Contents (Elt F) → (⟨S_, .f32⟩ : BufTy).Contents (Elt F)),
    StableHlo.binary main_v23 main_v40 main_v41 (addf : (⟨S_, .f32⟩ : BufTy).Contents (Elt F) → (⟨S_, .f32⟩ : BufTy).Contents (Elt F) → (⟨S_, .f32⟩ : BufTy).Contents (Elt F)) ]

/-- Operations 58 … 60 of 306. -/
abbrev pc3 : List (HloOp τ sig (Elt F)) :=
  [ StableHlo.unary main_v5 main_v42 ((extractStridedSlice S16x3x511x511 ![0, 0, 1, 1] · slices_S16x3x512x512_S16x3x511x511_0_0_1_1) : (⟨S16x3x512x512, .f32⟩ : BufTy).Contents (Elt F) → (⟨S16x3x511x511, .f32⟩ : BufTy).Contents (Elt F)),
    StableHlo.unary main_v5 main_v43 ((extractStridedSlice S16x3x511x511 ![0, 0, 0, 0] · slices_S16x3x512x512_S16x3x511x511_0_0_0_0) : (⟨S16x3x512x512, .f32⟩ : BufTy).Contents (Elt F) → (⟨S16x3x511x511, .f32⟩ : BufTy).Contents (Elt F)),
    StableHlo.binary main_v42 main_v43 main_v44 (subf : (⟨S16x3x511x511, .f32⟩ : BufTy).Contents (Elt F) → (⟨S16x3x511x511, .f32⟩ : BufTy).Contents (Elt F) → (⟨S16x3x511x511, .f32⟩ : BufTy).Contents (Elt F)) ]

/-- Operations 61 … 81 of 306. -/
abbrev pc4 : List (HloOp τ sig (Elt F)) :=
  [ StableHlo.binary main_v44 main_v44 main_v45 (mulf : (⟨S16x3x511x511, .f32⟩ : BufTy).Contents (Elt F) → (⟨S16x3x511x511, .f32⟩ : BufTy).Contents (Elt F) → (⟨S16x3x511x511, .f32⟩ : BufTy).Contents (Elt F)),
    StableHlo.nullary main_cst_14 (constant S_ .f32 0x00000000#32),
    StableHlo.binary main_v45 main_cst_14 main_v46 ((fun x v => Host.reduceAdd x v reducesTo_S16x3x511x511_S16x511x511_d1 h_S_) : (⟨S16x3x511x511, .f32⟩ : BufTy).Contents (Elt F) → (⟨S_, .f32⟩ : BufTy).Contents (Elt F) → (⟨S16x511x511, .f32⟩ : BufTy).Contents (Elt F)),
    StableHlo.nullary main_cst_15 (constant S_ .f32 0xBBA3D70A#32),
    StableHlo.unary main_cst_15 main_v47 (broadcastInDim S16x511x511 ![] bcast_S_S16x511x511 : (⟨S_, .f32⟩ : BufTy).Contents (Elt F) → (⟨S16x511x511, .f32⟩ : BufTy).Contents (Elt F)),
    StableHlo.binary main_v46 main_v47 main_v48 (mulf : (⟨S16x511x511, .f32⟩ : BufTy).Contents (Elt F) → (⟨S16x511x511, .f32⟩ : BufTy).Contents (Elt F) → (⟨S16x511x511, .f32⟩ : BufTy).Contents (Elt F)),
    StableHlo.unary main_v48 main_v49 (Host.exp : (⟨S16x511x511, .f32⟩ : BufTy).Contents (Elt F) → (⟨S16x511x511, .f32⟩ : BufTy).Contents (Elt F)),
    StableHlo.unary main_arg1 main_v50 ((extractStridedSlice S16x3x511x511 ![0, 0, 1, 1] · slices_S16x3x512x512_S16x3x511x511_0_0_1_1) : (⟨S16x3x512x512, .f32⟩ : BufTy).Contents (Elt F) → (⟨S16x3x511x511, .f32⟩ : BufTy).Contents (Elt F)),
    StableHlo.unary main_arg1 main_v51 ((extractStridedSlice S16x3x511x511 ![0, 0, 0, 0] · slices_S16x3x512x512_S16x3x511x511_0_0_0_0) : (⟨S16x3x512x512, .f32⟩ : BufTy).Contents (Elt F) → (⟨S16x3x511x511, .f32⟩ : BufTy).Contents (Elt F)),
    StableHlo.binary main_v50 main_v51 main_v52 (subf : (⟨S16x3x511x511, .f32⟩ : BufTy).Contents (Elt F) → (⟨S16x3x511x511, .f32⟩ : BufTy).Contents (Elt F) → (⟨S16x3x511x511, .f32⟩ : BufTy).Contents (Elt F)),
    StableHlo.unary main_v52 main_v53 (Host.absf : (⟨S16x3x511x511, .f32⟩ : BufTy).Contents (Elt F) → (⟨S16x3x511x511, .f32⟩ : BufTy).Contents (Elt F)),
    StableHlo.nullary main_cst_16 (constant S_ .f32 0x00000000#32),
    StableHlo.binary main_v53 main_cst_16 main_v54 ((fun x v => Host.reduceAdd x v reducesTo_S16x3x511x511_S16x511x511_d1 h_S_) : (⟨S16x3x511x511, .f32⟩ : BufTy).Contents (Elt F) → (⟨S_, .f32⟩ : BufTy).Contents (Elt F) → (⟨S16x511x511, .f32⟩ : BufTy).Contents (Elt F)),
    StableHlo.binary main_v49 main_v54 main_v55 (mulf : (⟨S16x511x511, .f32⟩ : BufTy).Contents (Elt F) → (⟨S16x511x511, .f32⟩ : BufTy).Contents (Elt F) → (⟨S16x511x511, .f32⟩ : BufTy).Contents (Elt F)),
    StableHlo.nullary main_cst_17 (constant S_ .f32 0x00000000#32),
    StableHlo.binary main_v55 main_cst_17 main_v56 ((fun x v => Host.reduceAdd x v reducesTo_S16x511x511_S_d0_1_2 h_S_) : (⟨S16x511x511, .f32⟩ : BufTy).Contents (Elt F) → (⟨S_, .f32⟩ : BufTy).Contents (Elt F) → (⟨S_, .f32⟩ : BufTy).Contents (Elt F)),
    StableHlo.nullary main_cst_18 (constant S_ .f32 0x4A7F0040#32),
    StableHlo.binary main_v56 main_cst_18 main_v57 (Host.divf : (⟨S_, .f32⟩ : BufTy).Contents (Elt F) → (⟨S_, .f32⟩ : BufTy).Contents (Elt F) → (⟨S_, .f32⟩ : BufTy).Contents (Elt F)),
    StableHlo.nullary main_cst_19 (constant S_ .f32 0x40000000#32),
    StableHlo.binary main_cst_19 main_v57 main_v58 (mulf : (⟨S_, .f32⟩ : BufTy).Contents (Elt F) → (⟨S_, .f32⟩ : BufTy).Contents (Elt F) → (⟨S_, .f32⟩ : BufTy).Contents (Elt F)),
    StableHlo.binary main_v41 main_v58 main_v59 (addf : (⟨S_, .f32⟩ : BufTy).Contents (Elt F) → (⟨S_, .f32⟩ : BufTy).Contents (Elt F) → (⟨S_, .f32⟩ : BufTy).Contents (Elt F)) ]

/-- Operations 82 … 105 of 306. -/
abbrev pc5 : List (HloOp τ sig (Elt F)) :=
  [ StableHlo.unary main_v5 main_v60 ((extractStridedSlice S16x3x511x511 ![0, 0, 1, 0] · slices_S16x3x512x512_S16x3x511x511_0_0_1_0) : (⟨S16x3x512x512, .f32⟩ : BufTy).Contents (Elt F) → (⟨S16x3x511x511, .f32⟩ : BufTy).Contents (Elt F)),
    StableHlo.unary main_v5 main_v61 ((extractStridedSlice S16x3x511x511 ![0, 0, 0, 1] · slices_S16x3x512x512_S16x3x511x511_0_0_0_1) : (⟨S16x3x512x512, .f32⟩ : BufTy).Contents (Elt F) → (⟨S16x3x511x511, .f32⟩ : BufTy).Contents (Elt F)),
    StableHlo.binary main_v60 main_v61 main_v62 (subf : (⟨S16x3x511x511, .f32⟩ : BufTy).Contents (Elt F) → (⟨S16x3x511x511, .f32⟩ : BufTy).Contents (Elt F) → (⟨S16x3x511x511, .f32⟩ : BufTy).Contents (Elt F)),
    StableHlo.binary main_v62 main_v62 main_v63 (mulf : (⟨S16x3x511x511, .f32⟩ : BufTy).Contents (Elt F) → (⟨S16x3x511x511, .f32⟩ : BufTy).Contents (Elt F) → (⟨S16x3x511x511, .f32⟩ : BufTy).Contents (Elt F)),
    StableHlo.nullary main_cst_20 (constant S_ .f32 0x00000000#32),
    StableHlo.binary main_v63 main_cst_20 main_v64 ((fun x v => Host.reduceAdd x v reducesTo_S16x3x511x511_S16x511x511_d1 h_S_) : (⟨S16x3x511x511, .f32⟩ : BufTy).Contents (Elt F) → (⟨S_, .f32⟩ : BufTy).Contents (Elt F) → (⟨S16x511x511, .f32⟩ : BufTy).Contents (Elt F)),
    StableHlo.nullary main_cst_21 (constant S_ .f32 0xBBA3D70A#32),
    StableHlo.unary main_cst_21 main_v65 (broadcastInDim S16x511x511 ![] bcast_S_S16x511x511 : (⟨S_, .f32⟩ : BufTy).Contents (Elt F) → (⟨S16x511x511, .f32⟩ : BufTy).Contents (Elt F)),
    StableHlo.binary main_v64 main_v65 main_v66 (mulf : (⟨S16x511x511, .f32⟩ : BufTy).Contents (Elt F) → (⟨S16x511x511, .f32⟩ : BufTy).Contents (Elt F) → (⟨S16x511x511, .f32⟩ : BufTy).Contents (Elt F)),
    StableHlo.unary main_v66 main_v67 (Host.exp : (⟨S16x511x511, .f32⟩ : BufTy).Contents (Elt F) → (⟨S16x511x511, .f32⟩ : BufTy).Contents (Elt F)),
    StableHlo.unary main_arg1 main_v68 ((extractStridedSlice S16x3x511x511 ![0, 0, 1, 0] · slices_S16x3x512x512_S16x3x511x511_0_0_1_0) : (⟨S16x3x512x512, .f32⟩ : BufTy).Contents (Elt F) → (⟨S16x3x511x511, .f32⟩ : BufTy).Contents (Elt F)),
    StableHlo.unary main_arg1 main_v69 ((extractStridedSlice S16x3x511x511 ![0, 0, 0, 1] · slices_S16x3x512x512_S16x3x511x511_0_0_0_1) : (⟨S16x3x512x512, .f32⟩ : BufTy).Contents (Elt F) → (⟨S16x3x511x511, .f32⟩ : BufTy).Contents (Elt F)),
    StableHlo.binary main_v68 main_v69 main_v70 (subf : (⟨S16x3x511x511, .f32⟩ : BufTy).Contents (Elt F) → (⟨S16x3x511x511, .f32⟩ : BufTy).Contents (Elt F) → (⟨S16x3x511x511, .f32⟩ : BufTy).Contents (Elt F)),
    StableHlo.unary main_v70 main_v71 (Host.absf : (⟨S16x3x511x511, .f32⟩ : BufTy).Contents (Elt F) → (⟨S16x3x511x511, .f32⟩ : BufTy).Contents (Elt F)),
    StableHlo.nullary main_cst_22 (constant S_ .f32 0x00000000#32),
    StableHlo.binary main_v71 main_cst_22 main_v72 ((fun x v => Host.reduceAdd x v reducesTo_S16x3x511x511_S16x511x511_d1 h_S_) : (⟨S16x3x511x511, .f32⟩ : BufTy).Contents (Elt F) → (⟨S_, .f32⟩ : BufTy).Contents (Elt F) → (⟨S16x511x511, .f32⟩ : BufTy).Contents (Elt F)),
    StableHlo.binary main_v67 main_v72 main_v73 (mulf : (⟨S16x511x511, .f32⟩ : BufTy).Contents (Elt F) → (⟨S16x511x511, .f32⟩ : BufTy).Contents (Elt F) → (⟨S16x511x511, .f32⟩ : BufTy).Contents (Elt F)),
    StableHlo.nullary main_cst_23 (constant S_ .f32 0x00000000#32),
    StableHlo.binary main_v73 main_cst_23 main_v74 ((fun x v => Host.reduceAdd x v reducesTo_S16x511x511_S_d0_1_2 h_S_) : (⟨S16x511x511, .f32⟩ : BufTy).Contents (Elt F) → (⟨S_, .f32⟩ : BufTy).Contents (Elt F) → (⟨S_, .f32⟩ : BufTy).Contents (Elt F)),
    StableHlo.nullary main_cst_24 (constant S_ .f32 0x4A7F0040#32),
    StableHlo.binary main_v74 main_cst_24 main_v75 (Host.divf : (⟨S_, .f32⟩ : BufTy).Contents (Elt F) → (⟨S_, .f32⟩ : BufTy).Contents (Elt F) → (⟨S_, .f32⟩ : BufTy).Contents (Elt F)),
    StableHlo.nullary main_cst_25 (constant S_ .f32 0x40000000#32),
    StableHlo.binary main_cst_25 main_v75 main_v76 (mulf : (⟨S_, .f32⟩ : BufTy).Contents (Elt F) → (⟨S_, .f32⟩ : BufTy).Contents (Elt F) → (⟨S_, .f32⟩ : BufTy).Contents (Elt F)),
    StableHlo.binary main_v59 main_v76 main_v77 (addf : (⟨S_, .f32⟩ : BufTy).Contents (Elt F) → (⟨S_, .f32⟩ : BufTy).Contents (Elt F) → (⟨S_, .f32⟩ : BufTy).Contents (Elt F)) ]

/-- Operations 106 … 120 of 306. -/
abbrev pc6 : List (HloOp τ sig (Elt F)) :=
  [ StableHlo.unary main_v5 main_v78 ((extractStridedSlice S16x3x510x512 ![0, 0, 2, 0] · slices_S16x3x512x512_S16x3x510x512_0_0_2_0) : (⟨S16x3x512x512, .f32⟩ : BufTy).Contents (Elt F) → (⟨S16x3x510x512, .f32⟩ : BufTy).Contents (Elt F)),
    StableHlo.unary main_v5 main_v79 ((extractStridedSlice S16x3x510x512 ![0, 0, 0, 0] · slices_S16x3x512x512_S16x3x510x512_0_0_0_0) : (⟨S16x3x512x512, .f32⟩ : BufTy).Contents (Elt F) → (⟨S16x3x510x512, .f32⟩ : BufTy).Contents (Elt F)),
    StableHlo.binary main_v78 main_v79 main_v80 (subf : (⟨S16x3x510x512, .f32⟩ : BufTy).Contents (Elt F) → (⟨S16x3x510x512, .f32⟩ : BufTy).Contents (Elt F) → (⟨S16x3x510x512, .f32⟩ : BufTy).Contents (Elt F)),
    StableHlo.binary main_v80 main_v80 main_v81 (mulf : (⟨S16x3x510x512, .f32⟩ : BufTy).Contents (Elt F) → (⟨S16x3x510x512, .f32⟩ : BufTy).Contents (Elt F) → (⟨S16x3x510x512, .f32⟩ : BufTy).Contents (Elt F)),
    StableHlo.nullary main_cst_26 (constant S_ .f32 0x00000000#32),
    StableHlo.binary main_v81 main_cst_26 main_v82 ((fun x v => Host.reduceAdd x v reducesTo_S16x3x510x512_S16x510x512_d1 h_S_) : (⟨S16x3x510x512, .f32⟩ : BufTy).Contents (Elt F) → (⟨S_, .f32⟩ : BufTy).Contents (Elt F) → (⟨S16x510x512, .f32⟩ : BufTy).Contents (Elt F)),
    StableHlo.nullary main_cst_27 (constant S_ .f32 0xBBA3D70A#32),
    StableHlo.unary main_cst_27 main_v83 (broadcastInDim S16x510x512 ![] bcast_S_S16x510x512 : (⟨S_, .f32⟩ : BufTy).Contents (Elt F) → (⟨S16x510x512, .f32⟩ : BufTy).Contents (Elt F)),
    StableHlo.binary main_v82 main_v83 main_v84 (mulf : (⟨S16x510x512, .f32⟩ : BufTy).Contents (Elt F) → (⟨S16x510x512, .f32⟩ : BufTy).Contents (Elt F) → (⟨S16x510x512, .f32⟩ : BufTy).Contents (Elt F)),
    StableHlo.unary main_v84 main_v85 (Host.exp : (⟨S16x510x512, .f32⟩ : BufTy).Contents (Elt F) → (⟨S16x510x512, .f32⟩ : BufTy).Contents (Elt F)),
    StableHlo.unary main_arg1 main_v86 ((extractStridedSlice S16x3x510x512 ![0, 0, 2, 0] · slices_S16x3x512x512_S16x3x510x512_0_0_2_0) : (⟨S16x3x512x512, .f32⟩ : BufTy).Contents (Elt F) → (⟨S16x3x510x512, .f32⟩ : BufTy).Contents (Elt F)),
    StableHlo.unary main_arg1 main_v87 ((extractStridedSlice S16x3x510x512 ![0, 0, 0, 0] · slices_S16x3x512x512_S16x3x510x512_0_0_0_0) : (⟨S16x3x512x512, .f32⟩ : BufTy).Contents (Elt F) → (⟨S16x3x510x512, .f32⟩ : BufTy).Contents (Elt F)),
    StableHlo.binary main_v86 main_v87 main_v88 (subf : (⟨S16x3x510x512, .f32⟩ : BufTy).Contents (Elt F) → (⟨S16x3x510x512, .f32⟩ : BufTy).Contents (Elt F) → (⟨S16x3x510x512, .f32⟩ : BufTy).Contents (Elt F)),
    StableHlo.unary main_v88 main_v89 (Host.absf : (⟨S16x3x510x512, .f32⟩ : BufTy).Contents (Elt F) → (⟨S16x3x510x512, .f32⟩ : BufTy).Contents (Elt F)),
    StableHlo.nullary main_cst_28 (constant S_ .f32 0x00000000#32) ]

/-- Operations 121 … 129 of 306. -/
abbrev pc7 : List (HloOp τ sig (Elt F)) :=
  [ StableHlo.binary main_v89 main_cst_28 main_v90 ((fun x v => Host.reduceAdd x v reducesTo_S16x3x510x512_S16x510x512_d1 h_S_) : (⟨S16x3x510x512, .f32⟩ : BufTy).Contents (Elt F) → (⟨S_, .f32⟩ : BufTy).Contents (Elt F) → (⟨S16x510x512, .f32⟩ : BufTy).Contents (Elt F)),
    StableHlo.binary main_v85 main_v90 main_v91 (mulf : (⟨S16x510x512, .f32⟩ : BufTy).Contents (Elt F) → (⟨S16x510x512, .f32⟩ : BufTy).Contents (Elt F) → (⟨S16x510x512, .f32⟩ : BufTy).Contents (Elt F)),
    StableHlo.nullary main_cst_29 (constant S_ .f32 0x00000000#32),
    StableHlo.binary main_v91 main_cst_29 main_v92 ((fun x v => Host.reduceAdd x v reducesTo_S16x510x512_S_d0_1_2 h_S_) : (⟨S16x510x512, .f32⟩ : BufTy).Contents (Elt F) → (⟨S_, .f32⟩ : BufTy).Contents (Elt F) → (⟨S_, .f32⟩ : BufTy).Contents (Elt F)),
    StableHlo.nullary main_cst_30 (constant S_ .f32 0x4A7F0000#32),
    StableHlo.binary main_v92 main_cst_30 main_v93 (Host.divf : (⟨S_, .f32⟩ : BufTy).Contents (Elt F) → (⟨S_, .f32⟩ : BufTy).Contents (Elt F) → (⟨S_, .f32⟩ : BufTy).Contents (Elt F)),
    StableHlo.nullary main_cst_31 (constant S_ .f32 0x40000000#32),
    StableHlo.binary main_cst_31 main_v93 main_v94 (mulf : (⟨S_, .f32⟩ : BufTy).Contents (Elt F) → (⟨S_, .f32⟩ : BufTy).Contents (Elt F) → (⟨S_, .f32⟩ : BufTy).Contents (Elt F)),
    StableHlo.binary main_v77 main_v94 main_v95 (addf : (⟨S_, .f32⟩ : BufTy).Contents (Elt F) → (⟨S_, .f32⟩ : BufTy).Contents (Elt F) → (⟨S_, .f32⟩ : BufTy).Contents (Elt F)) ]

/-- Operations 130 … 153 of 306. -/
abbrev pc8 : List (HloOp τ sig (Elt F)) :=
  [ StableHlo.unary main_v5 main_v96 ((extractStridedSlice S16x3x512x510 ![0, 0, 0, 2] · slices_S16x3x512x512_S16x3x512x510_0_0_0_2) : (⟨S16x3x512x512, .f32⟩ : BufTy).Contents (Elt F) → (⟨S16x3x512x510, .f32⟩ : BufTy).Contents (Elt F)),
    StableHlo.unary main_v5 main_v97 ((extractStridedSlice S16x3x512x510 ![0, 0, 0, 0] · slices_S16x3x512x512_S16x3x512x510_0_0_0_0) : (⟨S16x3x512x512, .f32⟩ : BufTy).Contents (Elt F) → (⟨S16x3x512x510, .f32⟩ : BufTy).Contents (Elt F)),
    StableHlo.binary main_v96 main_v97 main_v98 (subf : (⟨S16x3x512x510, .f32⟩ : BufTy).Contents (Elt F) → (⟨S16x3x512x510, .f32⟩ : BufTy).Contents (Elt F) → (⟨S16x3x512x510, .f32⟩ : BufTy).Contents (Elt F)),
    StableHlo.binary main_v98 main_v98 main_v99 (mulf : (⟨S16x3x512x510, .f32⟩ : BufTy).Contents (Elt F) → (⟨S16x3x512x510, .f32⟩ : BufTy).Contents (Elt F) → (⟨S16x3x512x510, .f32⟩ : BufTy).Contents (Elt F)),
    StableHlo.nullary main_cst_32 (constant S_ .f32 0x00000000#32),
    StableHlo.binary main_v99 main_cst_32 main_v100 ((fun x v => Host.reduceAdd x v reducesTo_S16x3x512x510_S16x512x510_d1 h_S_) : (⟨S16x3x512x510, .f32⟩ : BufTy).Contents (Elt F) → (⟨S_, .f32⟩ : BufTy).Contents (Elt F) → (⟨S16x512x510, .f32⟩ : BufTy).Contents (Elt F)),
    StableHlo.nullary main_cst_33 (constant S_ .f32 0xBBA3D70A#32),
    StableHlo.unary main_cst_33 main_v101 (broadcastInDim S16x512x510 ![] bcast_S_S16x512x510 : (⟨S_, .f32⟩ : BufTy).Contents (Elt F) → (⟨S16x512x510, .f32⟩ : BufTy).Contents (Elt F)),
    StableHlo.binary main_v100 main_v101 main_v102 (mulf : (⟨S16x512x510, .f32⟩ : BufTy).Contents (Elt F) → (⟨S16x512x510, .f32⟩ : BufTy).Contents (Elt F) → (⟨S16x512x510, .f32⟩ : BufTy).Contents (Elt F)),
    StableHlo.unary main_v102 main_v103 (Host.exp : (⟨S16x512x510, .f32⟩ : BufTy).Contents (Elt F) → (⟨S16x512x510, .f32⟩ : BufTy).Contents (Elt F)),
    StableHlo.unary main_arg1 main_v104 ((extractStridedSlice S16x3x512x510 ![0, 0, 0, 2] · slices_S16x3x512x512_S16x3x512x510_0_0_0_2) : (⟨S16x3x512x512, .f32⟩ : BufTy).Contents (Elt F) → (⟨S16x3x512x510, .f32⟩ : BufTy).Contents (Elt F)),
    StableHlo.unary main_arg1 main_v105 ((extractStridedSlice S16x3x512x510 ![0, 0, 0, 0] · slices_S16x3x512x512_S16x3x512x510_0_0_0_0) : (⟨S16x3x512x512, .f32⟩ : BufTy).Contents (Elt F) → (⟨S16x3x512x510, .f32⟩ : BufTy).Contents (Elt F)),
    StableHlo.binary main_v104 main_v105 main_v106 (subf : (⟨S16x3x512x510, .f32⟩ : BufTy).Contents (Elt F) → (⟨S16x3x512x510, .f32⟩ : BufTy).Contents (Elt F) → (⟨S16x3x512x510, .f32⟩ : BufTy).Contents (Elt F)),
    StableHlo.unary main_v106 main_v107 (Host.absf : (⟨S16x3x512x510, .f32⟩ : BufTy).Contents (Elt F) → (⟨S16x3x512x510, .f32⟩ : BufTy).Contents (Elt F)),
    StableHlo.nullary main_cst_34 (constant S_ .f32 0x00000000#32),
    StableHlo.binary main_v107 main_cst_34 main_v108 ((fun x v => Host.reduceAdd x v reducesTo_S16x3x512x510_S16x512x510_d1 h_S_) : (⟨S16x3x512x510, .f32⟩ : BufTy).Contents (Elt F) → (⟨S_, .f32⟩ : BufTy).Contents (Elt F) → (⟨S16x512x510, .f32⟩ : BufTy).Contents (Elt F)),
    StableHlo.binary main_v103 main_v108 main_v109 (mulf : (⟨S16x512x510, .f32⟩ : BufTy).Contents (Elt F) → (⟨S16x512x510, .f32⟩ : BufTy).Contents (Elt F) → (⟨S16x512x510, .f32⟩ : BufTy).Contents (Elt F)),
    StableHlo.nullary main_cst_35 (constant S_ .f32 0x00000000#32),
    StableHlo.binary main_v109 main_cst_35 main_v110 ((fun x v => Host.reduceAdd x v reducesTo_S16x512x510_S_d0_1_2 h_S_) : (⟨S16x512x510, .f32⟩ : BufTy).Contents (Elt F) → (⟨S_, .f32⟩ : BufTy).Contents (Elt F) → (⟨S_, .f32⟩ : BufTy).Contents (Elt F)),
    StableHlo.nullary main_cst_36 (constant S_ .f32 0x4A7F0000#32),
    StableHlo.binary main_v110 main_cst_36 main_v111 (Host.divf : (⟨S_, .f32⟩ : BufTy).Contents (Elt F) → (⟨S_, .f32⟩ : BufTy).Contents (Elt F) → (⟨S_, .f32⟩ : BufTy).Contents (Elt F)),
    StableHlo.nullary main_cst_37 (constant S_ .f32 0x40000000#32),
    StableHlo.binary main_cst_37 main_v111 main_v112 (mulf : (⟨S_, .f32⟩ : BufTy).Contents (Elt F) → (⟨S_, .f32⟩ : BufTy).Contents (Elt F) → (⟨S_, .f32⟩ : BufTy).Contents (Elt F)),
    StableHlo.binary main_v95 main_v112 main_v113 (addf : (⟨S_, .f32⟩ : BufTy).Contents (Elt F) → (⟨S_, .f32⟩ : BufTy).Contents (Elt F) → (⟨S_, .f32⟩ : BufTy).Contents (Elt F)) ]

/-- Operations 154 … 177 of 306. -/
abbrev pc9 : List (HloOp τ sig (Elt F)) :=
  [ StableHlo.unary main_v5 main_v114 ((extractStridedSlice S16x3x510x511 ![0, 0, 2, 1] · slices_S16x3x512x512_S16x3x510x511_0_0_2_1) : (⟨S16x3x512x512, .f32⟩ : BufTy).Contents (Elt F) → (⟨S16x3x510x511, .f32⟩ : BufTy).Contents (Elt F)),
    StableHlo.unary main_v5 main_v115 ((extractStridedSlice S16x3x510x511 ![0, 0, 0, 0] · slices_S16x3x512x512_S16x3x510x511_0_0_0_0) : (⟨S16x3x512x512, .f32⟩ : BufTy).Contents (Elt F) → (⟨S16x3x510x511, .f32⟩ : BufTy).Contents (Elt F)),
    StableHlo.binary main_v114 main_v115 main_v116 (subf : (⟨S16x3x510x511, .f32⟩ : BufTy).Contents (Elt F) → (⟨S16x3x510x511, .f32⟩ : BufTy).Contents (Elt F) → (⟨S16x3x510x511, .f32⟩ : BufTy).Contents (Elt F)),
    StableHlo.binary main_v116 main_v116 main_v117 (mulf : (⟨S16x3x510x511, .f32⟩ : BufTy).Contents (Elt F) → (⟨S16x3x510x511, .f32⟩ : BufTy).Contents (Elt F) → (⟨S16x3x510x511, .f32⟩ : BufTy).Contents (Elt F)),
    StableHlo.nullary main_cst_38 (constant S_ .f32 0x00000000#32),
    StableHlo.binary main_v117 main_cst_38 main_v118 ((fun x v => Host.reduceAdd x v reducesTo_S16x3x510x511_S16x510x511_d1 h_S_) : (⟨S16x3x510x511, .f32⟩ : BufTy).Contents (Elt F) → (⟨S_, .f32⟩ : BufTy).Contents (Elt F) → (⟨S16x510x511, .f32⟩ : BufTy).Contents (Elt F)),
    StableHlo.nullary main_cst_39 (constant S_ .f32 0xBBA3D70A#32),
    StableHlo.unary main_cst_39 main_v119 (broadcastInDim S16x510x511 ![] bcast_S_S16x510x511 : (⟨S_, .f32⟩ : BufTy).Contents (Elt F) → (⟨S16x510x511, .f32⟩ : BufTy).Contents (Elt F)),
    StableHlo.binary main_v118 main_v119 main_v120 (mulf : (⟨S16x510x511, .f32⟩ : BufTy).Contents (Elt F) → (⟨S16x510x511, .f32⟩ : BufTy).Contents (Elt F) → (⟨S16x510x511, .f32⟩ : BufTy).Contents (Elt F)),
    StableHlo.unary main_v120 main_v121 (Host.exp : (⟨S16x510x511, .f32⟩ : BufTy).Contents (Elt F) → (⟨S16x510x511, .f32⟩ : BufTy).Contents (Elt F)),
    StableHlo.unary main_arg1 main_v122 ((extractStridedSlice S16x3x510x511 ![0, 0, 2, 1] · slices_S16x3x512x512_S16x3x510x511_0_0_2_1) : (⟨S16x3x512x512, .f32⟩ : BufTy).Contents (Elt F) → (⟨S16x3x510x511, .f32⟩ : BufTy).Contents (Elt F)),
    StableHlo.unary main_arg1 main_v123 ((extractStridedSlice S16x3x510x511 ![0, 0, 0, 0] · slices_S16x3x512x512_S16x3x510x511_0_0_0_0) : (⟨S16x3x512x512, .f32⟩ : BufTy).Contents (Elt F) → (⟨S16x3x510x511, .f32⟩ : BufTy).Contents (Elt F)),
    StableHlo.binary main_v122 main_v123 main_v124 (subf : (⟨S16x3x510x511, .f32⟩ : BufTy).Contents (Elt F) → (⟨S16x3x510x511, .f32⟩ : BufTy).Contents (Elt F) → (⟨S16x3x510x511, .f32⟩ : BufTy).Contents (Elt F)),
    StableHlo.unary main_v124 main_v125 (Host.absf : (⟨S16x3x510x511, .f32⟩ : BufTy).Contents (Elt F) → (⟨S16x3x510x511, .f32⟩ : BufTy).Contents (Elt F)),
    StableHlo.nullary main_cst_40 (constant S_ .f32 0x00000000#32),
    StableHlo.binary main_v125 main_cst_40 main_v126 ((fun x v => Host.reduceAdd x v reducesTo_S16x3x510x511_S16x510x511_d1 h_S_) : (⟨S16x3x510x511, .f32⟩ : BufTy).Contents (Elt F) → (⟨S_, .f32⟩ : BufTy).Contents (Elt F) → (⟨S16x510x511, .f32⟩ : BufTy).Contents (Elt F)),
    StableHlo.binary main_v121 main_v126 main_v127 (mulf : (⟨S16x510x511, .f32⟩ : BufTy).Contents (Elt F) → (⟨S16x510x511, .f32⟩ : BufTy).Contents (Elt F) → (⟨S16x510x511, .f32⟩ : BufTy).Contents (Elt F)),
    StableHlo.nullary main_cst_41 (constant S_ .f32 0x00000000#32),
    StableHlo.binary main_v127 main_cst_41 main_v128 ((fun x v => Host.reduceAdd x v reducesTo_S16x510x511_S_d0_1_2 h_S_) : (⟨S16x510x511, .f32⟩ : BufTy).Contents (Elt F) → (⟨S_, .f32⟩ : BufTy).Contents (Elt F) → (⟨S_, .f32⟩ : BufTy).Contents (Elt F)),
    StableHlo.nullary main_cst_42 (constant S_ .f32 0x4A7E8080#32),
    StableHlo.binary main_v128 main_cst_42 main_v129 (Host.divf : (⟨S_, .f32⟩ : BufTy).Contents (Elt F) → (⟨S_, .f32⟩ : BufTy).Contents (Elt F) → (⟨S_, .f32⟩ : BufTy).Contents (Elt F)),
    StableHlo.nullary main_cst_43 (constant S_ .f32 0x40000000#32),
    StableHlo.binary main_cst_43 main_v129 main_v130 (mulf : (⟨S_, .f32⟩ : BufTy).Contents (Elt F) → (⟨S_, .f32⟩ : BufTy).Contents (Elt F) → (⟨S_, .f32⟩ : BufTy).Contents (Elt F)),
    StableHlo.binary main_v113 main_v130 main_v131 (addf : (⟨S_, .f32⟩ : BufTy).Contents (Elt F) → (⟨S_, .f32⟩ : BufTy).Contents (Elt F) → (⟨S_, .f32⟩ : BufTy).Contents (Elt F)) ]

/-- Operations 178 … 180 of 306. -/
abbrev pc10 : List (HloOp τ sig (Elt F)) :=
  [ StableHlo.unary main_v5 main_v132 ((extractStridedSlice S16x3x510x511 ![0, 0, 2, 0] · slices_S16x3x512x512_S16x3x510x511_0_0_2_0) : (⟨S16x3x512x512, .f32⟩ : BufTy).Contents (Elt F) → (⟨S16x3x510x511, .f32⟩ : BufTy).Contents (Elt F)),
    StableHlo.unary main_v5 main_v133 ((extractStridedSlice S16x3x510x511 ![0, 0, 0, 1] · slices_S16x3x512x512_S16x3x510x511_0_0_0_1) : (⟨S16x3x512x512, .f32⟩ : BufTy).Contents (Elt F) → (⟨S16x3x510x511, .f32⟩ : BufTy).Contents (Elt F)),
    StableHlo.binary main_v132 main_v133 main_v134 (subf : (⟨S16x3x510x511, .f32⟩ : BufTy).Contents (Elt F) → (⟨S16x3x510x511, .f32⟩ : BufTy).Contents (Elt F) → (⟨S16x3x510x511, .f32⟩ : BufTy).Contents (Elt F)) ]

/-- Operations 181 … 201 of 306. -/
abbrev pc11 : List (HloOp τ sig (Elt F)) :=
  [ StableHlo.binary main_v134 main_v134 main_v135 (mulf : (⟨S16x3x510x511, .f32⟩ : BufTy).Contents (Elt F) → (⟨S16x3x510x511, .f32⟩ : BufTy).Contents (Elt F) → (⟨S16x3x510x511, .f32⟩ : BufTy).Contents (Elt F)),
    StableHlo.nullary main_cst_44 (constant S_ .f32 0x00000000#32),
    StableHlo.binary main_v135 main_cst_44 main_v136 ((fun x v => Host.reduceAdd x v reducesTo_S16x3x510x511_S16x510x511_d1 h_S_) : (⟨S16x3x510x511, .f32⟩ : BufTy).Contents (Elt F) → (⟨S_, .f32⟩ : BufTy).Contents (Elt F) → (⟨S16x510x511, .f32⟩ : BufTy).Contents (Elt F)),
    StableHlo.nullary main_cst_45 (constant S_ .f32 0xBBA3D70A#32),
    StableHlo.unary main_cst_45 main_v137 (broadcastInDim S16x510x511 ![] bcast_S_S16x510x511 : (⟨S_, .f32⟩ : BufTy).Contents (Elt F) → (⟨S16x510x511, .f32⟩ : BufTy).Contents (Elt F)),
    StableHlo.binary main_v136 main_v137 main_v138 (mulf : (⟨S16x510x511, .f32⟩ : BufTy).Contents (Elt F) → (⟨S16x510x511, .f32⟩ : BufTy).Contents (Elt F) → (⟨S16x510x511, .f32⟩ : BufTy).Contents (Elt F)),
    StableHlo.unary main_v138 main_v139 (Host.exp : (⟨S16x510x511, .f32⟩ : BufTy).Contents (Elt F) → (⟨S16x510x511, .f32⟩ : BufTy).Contents (Elt F)),
    StableHlo.unary main_arg1 main_v140 ((extractStridedSlice S16x3x510x511 ![0, 0, 2, 0] · slices_S16x3x512x512_S16x3x510x511_0_0_2_0) : (⟨S16x3x512x512, .f32⟩ : BufTy).Contents (Elt F) → (⟨S16x3x510x511, .f32⟩ : BufTy).Contents (Elt F)),
    StableHlo.unary main_arg1 main_v141 ((extractStridedSlice S16x3x510x511 ![0, 0, 0, 1] · slices_S16x3x512x512_S16x3x510x511_0_0_0_1) : (⟨S16x3x512x512, .f32⟩ : BufTy).Contents (Elt F) → (⟨S16x3x510x511, .f32⟩ : BufTy).Contents (Elt F)),
    StableHlo.binary main_v140 main_v141 main_v142 (subf : (⟨S16x3x510x511, .f32⟩ : BufTy).Contents (Elt F) → (⟨S16x3x510x511, .f32⟩ : BufTy).Contents (Elt F) → (⟨S16x3x510x511, .f32⟩ : BufTy).Contents (Elt F)),
    StableHlo.unary main_v142 main_v143 (Host.absf : (⟨S16x3x510x511, .f32⟩ : BufTy).Contents (Elt F) → (⟨S16x3x510x511, .f32⟩ : BufTy).Contents (Elt F)),
    StableHlo.nullary main_cst_46 (constant S_ .f32 0x00000000#32),
    StableHlo.binary main_v143 main_cst_46 main_v144 ((fun x v => Host.reduceAdd x v reducesTo_S16x3x510x511_S16x510x511_d1 h_S_) : (⟨S16x3x510x511, .f32⟩ : BufTy).Contents (Elt F) → (⟨S_, .f32⟩ : BufTy).Contents (Elt F) → (⟨S16x510x511, .f32⟩ : BufTy).Contents (Elt F)),
    StableHlo.binary main_v139 main_v144 main_v145 (mulf : (⟨S16x510x511, .f32⟩ : BufTy).Contents (Elt F) → (⟨S16x510x511, .f32⟩ : BufTy).Contents (Elt F) → (⟨S16x510x511, .f32⟩ : BufTy).Contents (Elt F)),
    StableHlo.nullary main_cst_47 (constant S_ .f32 0x00000000#32),
    StableHlo.binary main_v145 main_cst_47 main_v146 ((fun x v => Host.reduceAdd x v reducesTo_S16x510x511_S_d0_1_2 h_S_) : (⟨S16x510x511, .f32⟩ : BufTy).Contents (Elt F) → (⟨S_, .f32⟩ : BufTy).Contents (Elt F) → (⟨S_, .f32⟩ : BufTy).Contents (Elt F)),
    StableHlo.nullary main_cst_48 (constant S_ .f32 0x4A7E8080#32),
    StableHlo.binary main_v146 main_cst_48 main_v147 (Host.divf : (⟨S_, .f32⟩ : BufTy).Contents (Elt F) → (⟨S_, .f32⟩ : BufTy).Contents (Elt F) → (⟨S_, .f32⟩ : BufTy).Contents (Elt F)),
    StableHlo.nullary main_cst_49 (constant S_ .f32 0x40000000#32),
    StableHlo.binary main_cst_49 main_v147 main_v148 (mulf : (⟨S_, .f32⟩ : BufTy).Contents (Elt F) → (⟨S_, .f32⟩ : BufTy).Contents (Elt F) → (⟨S_, .f32⟩ : BufTy).Contents (Elt F)),
    StableHlo.binary main_v131 main_v148 main_v149 (addf : (⟨S_, .f32⟩ : BufTy).Contents (Elt F) → (⟨S_, .f32⟩ : BufTy).Contents (Elt F) → (⟨S_, .f32⟩ : BufTy).Contents (Elt F)) ]

/-- Operations 202 … 225 of 306. -/
abbrev pc12 : List (HloOp τ sig (Elt F)) :=
  [ StableHlo.unary main_v5 main_v150 ((extractStridedSlice S16x3x511x510 ![0, 0, 1, 2] · slices_S16x3x512x512_S16x3x511x510_0_0_1_2) : (⟨S16x3x512x512, .f32⟩ : BufTy).Contents (Elt F) → (⟨S16x3x511x510, .f32⟩ : BufTy).Contents (Elt F)),
    StableHlo.unary main_v5 main_v151 ((extractStridedSlice S16x3x511x510 ![0, 0, 0, 0] · slices_S16x3x512x512_S16x3x511x510_0_0_0_0) : (⟨S16x3x512x512, .f32⟩ : BufTy).Contents (Elt F) → (⟨S16x3x511x510, .f32⟩ : BufTy).Contents (Elt F)),
    StableHlo.binary main_v150 main_v151 main_v152 (subf : (⟨S16x3x511x510, .f32⟩ : BufTy).Contents (Elt F) → (⟨S16x3x511x510, .f32⟩ : BufTy).Contents (Elt F) → (⟨S16x3x511x510, .f32⟩ : BufTy).Contents (Elt F)),
    StableHlo.binary main_v152 main_v152 main_v153 (mulf : (⟨S16x3x511x510, .f32⟩ : BufTy).Contents (Elt F) → (⟨S16x3x511x510, .f32⟩ : BufTy).Contents (Elt F) → (⟨S16x3x511x510, .f32⟩ : BufTy).Contents (Elt F)),
    StableHlo.nullary main_cst_50 (constant S_ .f32 0x00000000#32),
    StableHlo.binary main_v153 main_cst_50 main_v154 ((fun x v => Host.reduceAdd x v reducesTo_S16x3x511x510_S16x511x510_d1 h_S_) : (⟨S16x3x511x510, .f32⟩ : BufTy).Contents (Elt F) → (⟨S_, .f32⟩ : BufTy).Contents (Elt F) → (⟨S16x511x510, .f32⟩ : BufTy).Contents (Elt F)),
    StableHlo.nullary main_cst_51 (constant S_ .f32 0xBBA3D70A#32),
    StableHlo.unary main_cst_51 main_v155 (broadcastInDim S16x511x510 ![] bcast_S_S16x511x510 : (⟨S_, .f32⟩ : BufTy).Contents (Elt F) → (⟨S16x511x510, .f32⟩ : BufTy).Contents (Elt F)),
    StableHlo.binary main_v154 main_v155 main_v156 (mulf : (⟨S16x511x510, .f32⟩ : BufTy).Contents (Elt F) → (⟨S16x511x510, .f32⟩ : BufTy).Contents (Elt F) → (⟨S16x511x510, .f32⟩ : BufTy).Contents (Elt F)),
    StableHlo.unary main_v156 main_v157 (Host.exp : (⟨S16x511x510, .f32⟩ : BufTy).Contents (Elt F) → (⟨S16x511x510, .f32⟩ : BufTy).Contents (Elt F)),
    StableHlo.unary main_arg1 main_v158 ((extractStridedSlice S16x3x511x510 ![0, 0, 1, 2] · slices_S16x3x512x512_S16x3x511x510_0_0_1_2) : (⟨S16x3x512x512, .f32⟩ : BufTy).Contents (Elt F) → (⟨S16x3x511x510, .f32⟩ : BufTy).Contents (Elt F)),
    StableHlo.unary main_arg1 main_v159 ((extractStridedSlice S16x3x511x510 ![0, 0, 0, 0] · slices_S16x3x512x512_S16x3x511x510_0_0_0_0) : (⟨S16x3x512x512, .f32⟩ : BufTy).Contents (Elt F) → (⟨S16x3x511x510, .f32⟩ : BufTy).Contents (Elt F)),
    StableHlo.binary main_v158 main_v159 main_v160 (subf : (⟨S16x3x511x510, .f32⟩ : BufTy).Contents (Elt F) → (⟨S16x3x511x510, .f32⟩ : BufTy).Contents (Elt F) → (⟨S16x3x511x510, .f32⟩ : BufTy).Contents (Elt F)),
    StableHlo.unary main_v160 main_v161 (Host.absf : (⟨S16x3x511x510, .f32⟩ : BufTy).Contents (Elt F) → (⟨S16x3x511x510, .f32⟩ : BufTy).Contents (Elt F)),
    StableHlo.nullary main_cst_52 (constant S_ .f32 0x00000000#32),
    StableHlo.binary main_v161 main_cst_52 main_v162 ((fun x v => Host.reduceAdd x v reducesTo_S16x3x511x510_S16x511x510_d1 h_S_) : (⟨S16x3x511x510, .f32⟩ : BufTy).Contents (Elt F) → (⟨S_, .f32⟩ : BufTy).Contents (Elt F) → (⟨S16x511x510, .f32⟩ : BufTy).Contents (Elt F)),
    StableHlo.binary main_v157 main_v162 main_v163 (mulf : (⟨S16x511x510, .f32⟩ : BufTy).Contents (Elt F) → (⟨S16x511x510, .f32⟩ : BufTy).Contents (Elt F) → (⟨S16x511x510, .f32⟩ : BufTy).Contents (Elt F)),
    StableHlo.nullary main_cst_53 (constant S_ .f32 0x00000000#32),
    StableHlo.binary main_v163 main_cst_53 main_v164 ((fun x v => Host.reduceAdd x v reducesTo_S16x511x510_S_d0_1_2 h_S_) : (⟨S16x511x510, .f32⟩ : BufTy).Contents (Elt F) → (⟨S_, .f32⟩ : BufTy).Contents (Elt F) → (⟨S_, .f32⟩ : BufTy).Contents (Elt F)),
    StableHlo.nullary main_cst_54 (constant S_ .f32 0x4A7E8080#32),
    StableHlo.binary main_v164 main_cst_54 main_v165 (Host.divf : (⟨S_, .f32⟩ : BufTy).Contents (Elt F) → (⟨S_, .f32⟩ : BufTy).Contents (Elt F) → (⟨S_, .f32⟩ : BufTy).Contents (Elt F)),
    StableHlo.nullary main_cst_55 (constant S_ .f32 0x40000000#32),
    StableHlo.binary main_cst_55 main_v165 main_v166 (mulf : (⟨S_, .f32⟩ : BufTy).Contents (Elt F) → (⟨S_, .f32⟩ : BufTy).Contents (Elt F) → (⟨S_, .f32⟩ : BufTy).Contents (Elt F)),
    StableHlo.binary main_v149 main_v166 main_v167 (addf : (⟨S_, .f32⟩ : BufTy).Contents (Elt F) → (⟨S_, .f32⟩ : BufTy).Contents (Elt F) → (⟨S_, .f32⟩ : BufTy).Contents (Elt F)) ]

/-- Operations 226 … 240 of 306. -/
abbrev pc13 : List (HloOp τ sig (Elt F)) :=
  [ StableHlo.unary main_v5 main_v168 ((extractStridedSlice S16x3x511x510 ![0, 0, 1, 0] · slices_S16x3x512x512_S16x3x511x510_0_0_1_0) : (⟨S16x3x512x512, .f32⟩ : BufTy).Contents (Elt F) → (⟨S16x3x511x510, .f32⟩ : BufTy).Contents (Elt F)),
    StableHlo.unary main_v5 main_v169 ((extractStridedSlice S16x3x511x510 ![0, 0, 0, 2] · slices_S16x3x512x512_S16x3x511x510_0_0_0_2) : (⟨S16x3x512x512, .f32⟩ : BufTy).Contents (Elt F) → (⟨S16x3x511x510, .f32⟩ : BufTy).Contents (Elt F)),
    StableHlo.binary main_v168 main_v169 main_v170 (subf : (⟨S16x3x511x510, .f32⟩ : BufTy).Contents (Elt F) → (⟨S16x3x511x510, .f32⟩ : BufTy).Contents (Elt F) → (⟨S16x3x511x510, .f32⟩ : BufTy).Contents (Elt F)),
    StableHlo.binary main_v170 main_v170 main_v171 (mulf : (⟨S16x3x511x510, .f32⟩ : BufTy).Contents (Elt F) → (⟨S16x3x511x510, .f32⟩ : BufTy).Contents (Elt F) → (⟨S16x3x511x510, .f32⟩ : BufTy).Contents (Elt F)),
    StableHlo.nullary main_cst_56 (constant S_ .f32 0x00000000#32),
    StableHlo.binary main_v171 main_cst_56 main_v172 ((fun x v => Host.reduceAdd x v reducesTo_S16x3x511x510_S16x511x510_d1 h_S_) : (⟨S16x3x511x510, .f32⟩ : BufTy).Contents (Elt F) → (⟨S_, .f32⟩ : BufTy).Contents (Elt F) → (⟨S16x511x510, .f32⟩ : BufTy).Contents (Elt F)),
    StableHlo.nullary main_cst_57 (constant S_ .f32 0xBBA3D70A#32),
    StableHlo.unary main_cst_57 main_v173 (broadcastInDim S16x511x510 ![] bcast_S_S16x511x510 : (⟨S_, .f32⟩ : BufTy).Contents (Elt F) → (⟨S16x511x510, .f32⟩ : BufTy).Contents (Elt F)),
    StableHlo.binary main_v172 main_v173 main_v174 (mulf : (⟨S16x511x510, .f32⟩ : BufTy).Contents (Elt F) → (⟨S16x511x510, .f32⟩ : BufTy).Contents (Elt F) → (⟨S16x511x510, .f32⟩ : BufTy).Contents (Elt F)),
    StableHlo.unary main_v174 main_v175 (Host.exp : (⟨S16x511x510, .f32⟩ : BufTy).Contents (Elt F) → (⟨S16x511x510, .f32⟩ : BufTy).Contents (Elt F)),
    StableHlo.unary main_arg1 main_v176 ((extractStridedSlice S16x3x511x510 ![0, 0, 1, 0] · slices_S16x3x512x512_S16x3x511x510_0_0_1_0) : (⟨S16x3x512x512, .f32⟩ : BufTy).Contents (Elt F) → (⟨S16x3x511x510, .f32⟩ : BufTy).Contents (Elt F)),
    StableHlo.unary main_arg1 main_v177 ((extractStridedSlice S16x3x511x510 ![0, 0, 0, 2] · slices_S16x3x512x512_S16x3x511x510_0_0_0_2) : (⟨S16x3x512x512, .f32⟩ : BufTy).Contents (Elt F) → (⟨S16x3x511x510, .f32⟩ : BufTy).Contents (Elt F)),
    StableHlo.binary main_v176 main_v177 main_v178 (subf : (⟨S16x3x511x510, .f32⟩ : BufTy).Contents (Elt F) → (⟨S16x3x511x510, .f32⟩ : BufTy).Contents (Elt F) → (⟨S16x3x511x510, .f32⟩ : BufTy).Contents (Elt F)),
    StableHlo.unary main_v178 main_v179 (Host.absf : (⟨S16x3x511x510, .f32⟩ : BufTy).Contents (Elt F) → (⟨S16x3x511x510, .f32⟩ : BufTy).Contents (Elt F)),
    StableHlo.nullary main_cst_58 (constant S_ .f32 0x00000000#32) ]

/-- Operations 241 … 249 of 306. -/
abbrev pc14 : List (HloOp τ sig (Elt F)) :=
  [ StableHlo.binary main_v179 main_cst_58 main_v180 ((fun x v => Host.reduceAdd x v reducesTo_S16x3x511x510_S16x511x510_d1 h_S_) : (⟨S16x3x511x510, .f32⟩ : BufTy).Contents (Elt F) → (⟨S_, .f32⟩ : BufTy).Contents (Elt F) → (⟨S16x511x510, .f32⟩ : BufTy).Contents (Elt F)),
    StableHlo.binary main_v175 main_v180 main_v181 (mulf : (⟨S16x511x510, .f32⟩ : BufTy).Contents (Elt F) → (⟨S16x511x510, .f32⟩ : BufTy).Contents (Elt F) → (⟨S16x511x510, .f32⟩ : BufTy).Contents (Elt F)),
    StableHlo.nullary main_cst_59 (constant S_ .f32 0x00000000#32),
    StableHlo.binary main_v181 main_cst_59 main_v182 ((fun x v => Host.reduceAdd x v reducesTo_S16x511x510_S_d0_1_2 h_S_) : (⟨S16x511x510, .f32⟩ : BufTy).Contents (Elt F) → (⟨S_, .f32⟩ : BufTy).Contents (Elt F) → (⟨S_, .f32⟩ : BufTy).Contents (Elt F)),
    StableHlo.nullary main_cst_60 (constant S_ .f32 0x4A7E8080#32),
    StableHlo.binary main_v182 main_cst_60 main_v183 (Host.divf : (⟨S_, .f32⟩ : BufTy).Contents (Elt F) → (⟨S_, .f32⟩ : BufTy).Contents (Elt F) → (⟨S_, .f32⟩ : BufTy).Contents (Elt F)),
    StableHlo.nullary main_cst_61 (constant S_ .f32 0x40000000#32),
    StableHlo.binary main_cst_61 main_v183 main_v184 (mulf : (⟨S_, .f32⟩ : BufTy).Contents (Elt F) → (⟨S_, .f32⟩ : BufTy).Contents (Elt F) → (⟨S_, .f32⟩ : BufTy).Contents (Elt F)),
    StableHlo.binary main_v167 main_v184 main_v185 (addf : (⟨S_, .f32⟩ : BufTy).Contents (Elt F) → (⟨S_, .f32⟩ : BufTy).Contents (Elt F) → (⟨S_, .f32⟩ : BufTy).Contents (Elt F)) ]

/-- Operations 250 … 273 of 306. -/
abbrev pc15 : List (HloOp τ sig (Elt F)) :=
  [ StableHlo.unary main_v5 main_v186 ((extractStridedSlice S16x3x510x510 ![0, 0, 2, 2] · slices_S16x3x512x512_S16x3x510x510_0_0_2_2) : (⟨S16x3x512x512, .f32⟩ : BufTy).Contents (Elt F) → (⟨S16x3x510x510, .f32⟩ : BufTy).Contents (Elt F)),
    StableHlo.unary main_v5 main_v187 ((extractStridedSlice S16x3x510x510 ![0, 0, 0, 0] · slices_S16x3x512x512_S16x3x510x510_0_0_0_0) : (⟨S16x3x512x512, .f32⟩ : BufTy).Contents (Elt F) → (⟨S16x3x510x510, .f32⟩ : BufTy).Contents (Elt F)),
    StableHlo.binary main_v186 main_v187 main_v188 (subf : (⟨S16x3x510x510, .f32⟩ : BufTy).Contents (Elt F) → (⟨S16x3x510x510, .f32⟩ : BufTy).Contents (Elt F) → (⟨S16x3x510x510, .f32⟩ : BufTy).Contents (Elt F)),
    StableHlo.binary main_v188 main_v188 main_v189 (mulf : (⟨S16x3x510x510, .f32⟩ : BufTy).Contents (Elt F) → (⟨S16x3x510x510, .f32⟩ : BufTy).Contents (Elt F) → (⟨S16x3x510x510, .f32⟩ : BufTy).Contents (Elt F)),
    StableHlo.nullary main_cst_62 (constant S_ .f32 0x00000000#32),
    StableHlo.binary main_v189 main_cst_62 main_v190 ((fun x v => Host.reduceAdd x v reducesTo_S16x3x510x510_S16x510x510_d1 h_S_) : (⟨S16x3x510x510, .f32⟩ : BufTy).Contents (Elt F) → (⟨S_, .f32⟩ : BufTy).Contents (Elt F) → (⟨S16x510x510, .f32⟩ : BufTy).Contents (Elt F)),
    StableHlo.nullary main_cst_63 (constant S_ .f32 0xBBA3D70A#32),
    StableHlo.unary main_cst_63 main_v191 (broadcastInDim S16x510x510 ![] bcast_S_S16x510x510 : (⟨S_, .f32⟩ : BufTy).Contents (Elt F) → (⟨S16x510x510, .f32⟩ : BufTy).Contents (Elt F)),
    StableHlo.binary main_v190 main_v191 main_v192 (mulf : (⟨S16x510x510, .f32⟩ : BufTy).Contents (Elt F) → (⟨S16x510x510, .f32⟩ : BufTy).Contents (Elt F) → (⟨S16x510x510, .f32⟩ : BufTy).Contents (Elt F)),
    StableHlo.unary main_v192 main_v193 (Host.exp : (⟨S16x510x510, .f32⟩ : BufTy).Contents (Elt F) → (⟨S16x510x510, .f32⟩ : BufTy).Contents (Elt F)),
    StableHlo.unary main_arg1 main_v194 ((extractStridedSlice S16x3x510x510 ![0, 0, 2, 2] · slices_S16x3x512x512_S16x3x510x510_0_0_2_2) : (⟨S16x3x512x512, .f32⟩ : BufTy).Contents (Elt F) → (⟨S16x3x510x510, .f32⟩ : BufTy).Contents (Elt F)),
    StableHlo.unary main_arg1 main_v195 ((extractStridedSlice S16x3x510x510 ![0, 0, 0, 0] · slices_S16x3x512x512_S16x3x510x510_0_0_0_0) : (⟨S16x3x512x512, .f32⟩ : BufTy).Contents (Elt F) → (⟨S16x3x510x510, .f32⟩ : BufTy).Contents (Elt F)),
    StableHlo.binary main_v194 main_v195 main_v196 (subf : (⟨S16x3x510x510, .f32⟩ : BufTy).Contents (Elt F) → (⟨S16x3x510x510, .f32⟩ : BufTy).Contents (Elt F) → (⟨S16x3x510x510, .f32⟩ : BufTy).Contents (Elt F)),
    StableHlo.unary main_v196 main_v197 (Host.absf : (⟨S16x3x510x510, .f32⟩ : BufTy).Contents (Elt F) → (⟨S16x3x510x510, .f32⟩ : BufTy).Contents (Elt F)),
    StableHlo.nullary main_cst_64 (constant S_ .f32 0x00000000#32),
    StableHlo.binary main_v197 main_cst_64 main_v198 ((fun x v => Host.reduceAdd x v reducesTo_S16x3x510x510_S16x510x510_d1 h_S_) : (⟨S16x3x510x510, .f32⟩ : BufTy).Contents (Elt F) → (⟨S_, .f32⟩ : BufTy).Contents (Elt F) → (⟨S16x510x510, .f32⟩ : BufTy).Contents (Elt F)),
    StableHlo.binary main_v193 main_v198 main_v199 (mulf : (⟨S16x510x510, .f32⟩ : BufTy).Contents (Elt F) → (⟨S16x510x510, .f32⟩ : BufTy).Contents (Elt F) → (⟨S16x510x510, .f32⟩ : BufTy).Contents (Elt F)),
    StableHlo.nullary main_cst_65 (constant S_ .f32 0x00000000#32),
    StableHlo.binary main_v199 main_cst_65 main_v200 ((fun x v => Host.reduceAdd x v reducesTo_S16x510x510_S_d0_1_2 h_S_) : (⟨S16x510x510, .f32⟩ : BufTy).Contents (Elt F) → (⟨S_, .f32⟩ : BufTy).Contents (Elt F) → (⟨S_, .f32⟩ : BufTy).Contents (Elt F)),
    StableHlo.nullary main_cst_66 (constant S_ .f32 0x4A7E0100#32),
    StableHlo.binary main_v200 main_cst_66 main_v201 (Host.divf : (⟨S_, .f32⟩ : BufTy).Contents (Elt F) → (⟨S_, .f32⟩ : BufTy).Contents (Elt F) → (⟨S_, .f32⟩ : BufTy).Contents (Elt F)),
    StableHlo.nullary main_cst_67 (constant S_ .f32 0x40000000#32),
    StableHlo.binary main_cst_67 main_v201 main_v202 (mulf : (⟨S_, .f32⟩ : BufTy).Contents (Elt F) → (⟨S_, .f32⟩ : BufTy).Contents (Elt F) → (⟨S_, .f32⟩ : BufTy).Contents (Elt F)),
    StableHlo.binary main_v185 main_v202 main_v203 (addf : (⟨S_, .f32⟩ : BufTy).Contents (Elt F) → (⟨S_, .f32⟩ : BufTy).Contents (Elt F) → (⟨S_, .f32⟩ : BufTy).Contents (Elt F)) ]

/-- Operations 274 … 297 of 306. -/
abbrev pc16 : List (HloOp τ sig (Elt F)) :=
  [ StableHlo.unary main_v5 main_v204 ((extractStridedSlice S16x3x510x510 ![0, 0, 2, 0] · slices_S16x3x512x512_S16x3x510x510_0_0_2_0) : (⟨S16x3x512x512, .f32⟩ : BufTy).Contents (Elt F) → (⟨S16x3x510x510, .f32⟩ : BufTy).Contents (Elt F)),
    StableHlo.unary main_v5 main_v205 ((extractStridedSlice S16x3x510x510 ![0, 0, 0, 2] · slices_S16x3x512x512_S16x3x510x510_0_0_0_2) : (⟨S16x3x512x512, .f32⟩ : BufTy).Contents (Elt F) → (⟨S16x3x510x510, .f32⟩ : BufTy).Contents (Elt F)),
    StableHlo.binary main_v204 main_v205 main_v206 (subf : (⟨S16x3x510x510, .f32⟩ : BufTy).Contents (Elt F) → (⟨S16x3x510x510, .f32⟩ : BufTy).Contents (Elt F) → (⟨S16x3x510x510, .f32⟩ : BufTy).Contents (Elt F)),
    StableHlo.binary main_v206 main_v206 main_v207 (mulf : (⟨S16x3x510x510, .f32⟩ : BufTy).Contents (Elt F) → (⟨S16x3x510x510, .f32⟩ : BufTy).Contents (Elt F) → (⟨S16x3x510x510, .f32⟩ : BufTy).Contents (Elt F)),
    StableHlo.nullary main_cst_68 (constant S_ .f32 0x00000000#32),
    StableHlo.binary main_v207 main_cst_68 main_v208 ((fun x v => Host.reduceAdd x v reducesTo_S16x3x510x510_S16x510x510_d1 h_S_) : (⟨S16x3x510x510, .f32⟩ : BufTy).Contents (Elt F) → (⟨S_, .f32⟩ : BufTy).Contents (Elt F) → (⟨S16x510x510, .f32⟩ : BufTy).Contents (Elt F)),
    StableHlo.nullary main_cst_69 (constant S_ .f32 0xBBA3D70A#32),
    StableHlo.unary main_cst_69 main_v209 (broadcastInDim S16x510x510 ![] bcast_S_S16x510x510 : (⟨S_, .f32⟩ : BufTy).Contents (Elt F) → (⟨S16x510x510, .f32⟩ : BufTy).Contents (Elt F)),
    StableHlo.binary main_v208 main_v209 main_v210 (mulf : (⟨S16x510x510, .f32⟩ : BufTy).Contents (Elt F) → (⟨S16x510x510, .f32⟩ : BufTy).Contents (Elt F) → (⟨S16x510x510, .f32⟩ : BufTy).Contents (Elt F)),
    StableHlo.unary main_v210 main_v211 (Host.exp : (⟨S16x510x510, .f32⟩ : BufTy).Contents (Elt F) → (⟨S16x510x510, .f32⟩ : BufTy).Contents (Elt F)),
    StableHlo.unary main_arg1 main_v212 ((extractStridedSlice S16x3x510x510 ![0, 0, 2, 0] · slices_S16x3x512x512_S16x3x510x510_0_0_2_0) : (⟨S16x3x512x512, .f32⟩ : BufTy).Contents (Elt F) → (⟨S16x3x510x510, .f32⟩ : BufTy).Contents (Elt F)),
    StableHlo.unary main_arg1 main_v213 ((extractStridedSlice S16x3x510x510 ![0, 0, 0, 2] · slices_S16x3x512x512_S16x3x510x510_0_0_0_2) : (⟨S16x3x512x512, .f32⟩ : BufTy).Contents (Elt F) → (⟨S16x3x510x510, .f32⟩ : BufTy).Contents (Elt F)),
    StableHlo.binary main_v212 main_v213 main_v214 (subf : (⟨S16x3x510x510, .f32⟩ : BufTy).Contents (Elt F) → (⟨S16x3x510x510, .f32⟩ : BufTy).Contents (Elt F) → (⟨S16x3x510x510, .f32⟩ : BufTy).Contents (Elt F)),
    StableHlo.unary main_v214 main_v215 (Host.absf : (⟨S16x3x510x510, .f32⟩ : BufTy).Contents (Elt F) → (⟨S16x3x510x510, .f32⟩ : BufTy).Contents (Elt F)),
    StableHlo.nullary main_cst_70 (constant S_ .f32 0x00000000#32),
    StableHlo.binary main_v215 main_cst_70 main_v216 ((fun x v => Host.reduceAdd x v reducesTo_S16x3x510x510_S16x510x510_d1 h_S_) : (⟨S16x3x510x510, .f32⟩ : BufTy).Contents (Elt F) → (⟨S_, .f32⟩ : BufTy).Contents (Elt F) → (⟨S16x510x510, .f32⟩ : BufTy).Contents (Elt F)),
    StableHlo.binary main_v211 main_v216 main_v217 (mulf : (⟨S16x510x510, .f32⟩ : BufTy).Contents (Elt F) → (⟨S16x510x510, .f32⟩ : BufTy).Contents (Elt F) → (⟨S16x510x510, .f32⟩ : BufTy).Contents (Elt F)),
    StableHlo.nullary main_cst_71 (constant S_ .f32 0x00000000#32),
    StableHlo.binary main_v217 main_cst_71 main_v218 ((fun x v => Host.reduceAdd x v reducesTo_S16x510x510_S_d0_1_2 h_S_) : (⟨S16x510x510, .f32⟩ : BufTy).Contents (Elt F) → (⟨S_, .f32⟩ : BufTy).Contents (Elt F) → (⟨S_, .f32⟩ : BufTy).Contents (Elt F)),
    StableHlo.nullary main_cst_72 (constant S_ .f32 0x4A7E0100#32),
    StableHlo.binary main_v218 main_cst_72 main_v219 (Host.divf : (⟨S_, .f32⟩ : BufTy).Contents (Elt F) → (⟨S_, .f32⟩ : BufTy).Contents (Elt F) → (⟨S_, .f32⟩ : BufTy).Contents (Elt F)),
    StableHlo.nullary main_cst_73 (constant S_ .f32 0x40000000#32),
    StableHlo.binary main_cst_73 main_v219 main_v220 (mulf : (⟨S_, .f32⟩ : BufTy).Contents (Elt F) → (⟨S_, .f32⟩ : BufTy).Contents (Elt F) → (⟨S_, .f32⟩ : BufTy).Contents (Elt F)),
    StableHlo.binary main_v203 main_v220 main_v221 (addf : (⟨S_, .f32⟩ : BufTy).Contents (Elt F) → (⟨S_, .f32⟩ : BufTy).Contents (Elt F) → (⟨S_, .f32⟩ : BufTy).Contents (Elt F)) ]

/-- Operations 298 … 300 of 306. -/
abbrev pc17 : List (HloOp τ sig (Elt F)) :=
  [ StableHlo.binary main_arg0 main_arg1 main_v222 (subf : (⟨S16x3x512x512, .f32⟩ : BufTy).Contents (Elt F) → (⟨S16x3x512x512, .f32⟩ : BufTy).Contents (Elt F) → (⟨S16x3x512x512, .f32⟩ : BufTy).Contents (Elt F)),
    StableHlo.binary main_v222 main_v222 main_v223 (mulf : (⟨S16x3x512x512, .f32⟩ : BufTy).Contents (Elt F) → (⟨S16x3x512x512, .f32⟩ : BufTy).Contents (Elt F) → (⟨S16x3x512x512, .f32⟩ : BufTy).Contents (Elt F)),
    StableHlo.nullary main_cst_74 (constant S_ .f32 0x00000000#32) ]

/-- Operations 301 … 306 of 306. -/
abbrev pc18 : List (HloOp τ sig (Elt F)) :=
  [ StableHlo.binary main_v223 main_cst_74 main_v224 ((fun x v => Host.reduceAdd x v reducesTo_S16x3x512x512_S_d0_1_2_3 h_S_) : (⟨S16x3x512x512, .f32⟩ : BufTy).Contents (Elt F) → (⟨S_, .f32⟩ : BufTy).Contents (Elt F) → (⟨S_, .f32⟩ : BufTy).Contents (Elt F)),
    StableHlo.nullary main_cst_75 (constant S_ .f32 0x4B400000#32),
    StableHlo.binary main_v224 main_cst_75 main_v225 (Host.divf : (⟨S_, .f32⟩ : BufTy).Contents (Elt F) → (⟨S_, .f32⟩ : BufTy).Contents (Elt F) → (⟨S_, .f32⟩ : BufTy).Contents (Elt F)),
    StableHlo.nullary main_cst_76 (constant S_ .f32 0x3FC00000#32),
    StableHlo.binary main_cst_76 main_v225 main_v226 (mulf : (⟨S_, .f32⟩ : BufTy).Contents (Elt F) → (⟨S_, .f32⟩ : BufTy).Contents (Elt F) → (⟨S_, .f32⟩ : BufTy).Contents (Elt F)),
    StableHlo.binary main_v221 main_v226 main_v227 (addf : (⟨S_, .f32⟩ : BufTy).Contents (Elt F) → (⟨S_, .f32⟩ : BufTy).Contents (Elt F) → (⟨S_, .f32⟩ : BufTy).Contents (Elt F)) ]

abbrev opsY : List (HloOp τ sig (Elt F)) := pc0
abbrev ops1 : List (HloOp τ sig (Elt F)) := pc1
abbrev ops2 : List (HloOp τ sig (Elt F)) := pc2
abbrev ops3 : List (HloOp τ sig (Elt F)) := pc3 ++ pc4
abbrev ops4 : List (HloOp τ sig (Elt F)) := pc5
abbrev ops5 : List (HloOp τ sig (Elt F)) := pc6 ++ pc7
abbrev ops6 : List (HloOp τ sig (Elt F)) := pc8
abbrev ops7 : List (HloOp τ sig (Elt F)) := pc9
abbrev ops8 : List (HloOp τ sig (Elt F)) := pc10 ++ pc11
abbrev ops9 : List (HloOp τ sig (Elt F)) := pc12
abbrev ops10 : List (HloOp τ sig (Elt F)) := pc13 ++ pc14
abbrev ops11 : List (HloOp τ sig (Elt F)) := pc15
abbrev ops12 : List (HloOp τ sig (Elt F)) := pc16
abbrev opsF : List (HloOp τ sig (Elt F)) := pc17 ++ pc18
abbrev wops0 : List (HloOp τ sig (Elt F)) := pc0 ++ (pc1 ++ (pc2 ++ pc3))
abbrev wops1 : List (HloOp τ sig (Elt F)) := pc4 ++ (pc5 ++ pc6)
abbrev wops2 : List (HloOp τ sig (Elt F)) := pc7 ++ (pc8 ++ (pc9 ++ pc10))
abbrev wops3 : List (HloOp τ sig (Elt F)) := pc11 ++ (pc12 ++ pc13)
abbrev wops4 : List (HloOp τ sig (Elt F)) := pc14 ++ (pc15 ++ (pc16 ++ pc17))
abbrev wops5 : List (HloOp τ sig (Elt F)) := pc18

/-- All 306 operations, stretch by stretch. -/
abbrev ops : List (HloOp τ sig (Elt F)) := opsY ++ (ops1 ++ (ops2 ++ (ops3 ++ (ops4 ++ (ops5 ++ (ops6 ++ (ops7 ++ (ops8 ++ (ops9 ++ (ops10 ++ (ops11 ++ (ops12 ++ opsF))))))))))))

/-- The same list grouped as the printed windows. -/
theorem ops_eq_windows : (ops : List (HloOp τ sig (Elt F))) = wops0 ++ (wops1 ++ (wops2 ++ (wops3 ++ (wops4 ++ wops5)))) := by
  simp only [ops, opsY, ops1, ops2, ops3, ops4, ops5, ops6, ops7, ops8, ops9, ops10, ops11, ops12, opsF, wops0, wops1, wops2, wops3, wops4, wops5, List.append_assoc]

end Cert.ReferenceIdeal.Hand

end
-- ==== Proof.RefRun.lean ====
/-
  The reference program's run.  The printed @main, six windows of at most sixty statements, is the straight line
  `StableHlo.seq ops` of its 306 operations: each window is the line of its own operations by unfolding, and lines run one
  after the other are their concatenation run as one.  The signature scopes no buffer and no semaphore, every operation
  touches TensorCore references only, and every operation determines its results; so every weakly fair execution
  terminates with each buffer at the fold `StableHlo.after ops` of the operations' results over the launch contents.
-/
import proofs.«102783_j41472204210650_1_alg».proof.Proof.RefOps

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! ## The printed program is the line of its operations -/

set_option maxRecDepth 8192 in
set_option maxHeartbeats 4000000 in
/-- Window 0 of the printed @main is the line of its own operations. -/
theorem main_part0_eq (c : Dev nD) : main_part0 (F := F) c = StableHlo.seq wops0 := rfl

set_option maxRecDepth 8192 in
set_option maxHeartbeats 4000000 in
/-- Window 1 of the printed @main is the line of its own operations. -/
theorem main_part1_eq (c : Dev nD) : main_part1 (F := F) c = StableHlo.seq wops1 := rfl

set_option maxRecDepth 8192 in
set_option maxHeartbeats 4000000 in
/-- Window 2 of the printed @main is the line of its own operations. -/
theorem main_part2_eq (c : Dev nD) : main_part2 (F := F) c = StableHlo.seq wops2 := rfl

set_option maxRecDepth 8192 in
set_option maxHeartbeats 4000000 in
/-- Window 3 of the printed @main is the line of its own operations. -/
theorem main_part3_eq (c : Dev nD) : main_part3 (F := F) c = StableHlo.seq wops3 := rfl

set_option maxRecDepth 8192 in
set_option maxHeartbeats 4000000 in
/-- Window 4 of the printed @main is the line of its own operations. -/
theorem main_part4_eq (c : Dev nD) : main_part4 (F := F) c = StableHlo.seq wops4 := rfl

set_option maxRecDepth 8192 in
set_option maxHeartbeats 4000000 in
/-- Window 5 of the printed @main is the line of its own operations. -/
theorem main_part5_eq (c : Dev nD) : main_part5 (F := F) c = StableHlo.seq wops5 := rfl

/-- Six lines run one after the other are their concatenation run as one. -/
theorem seq_append6 {nD : Nat} {τ : Topo} {sig : RefSig} {Val : EltTy → Type} {Λ : Labels} (l0 l1 l2 l3 l4 l5 : List (HloOp τ sig Val)) :
    (StableHlo.seq (l0 ++ (l1 ++ (l2 ++ (l3 ++ (l4 ++ l5))))) : Prog (TpuEff nD τ sig Val Λ .tc) PUnit)
      = (do StableHlo.seq l0; StableHlo.seq l1; StableHlo.seq l2; StableHlo.seq l3; StableHlo.seq l4; StableHlo.seq l5) := by
  simp only [StableHlo.seq_append]

/-- The printed @main is the line of all 306 operations: the windows in order, and a concatenation runs as its parts in order. -/
theorem main_eq (c : Dev nD) : main (F := F) c = StableHlo.seq ops := by
  rw [ops_eq_windows, seq_append6, ← main_part0_eq c, ← main_part1_eq c, ← main_part2_eq c, ← main_part3_eq c, ← main_part4_eq c,
    ← main_part5_eq c]
  rfl

/-! ## Nothing is scoped -/

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, piece by piece -/

/-- A property of every element of two lists holds of every element of their concatenation. -/
theorem forall_app {α : Type*} {p : α → Prop} {l₁ l₂ : List α} (h₁ : l₁.Forall p) (h₂ : l₂.Forall p) : (l₁ ++ l₂).Forall p :=
  List.forall_append.mpr ⟨h₁, h₂⟩

theorem pc0_sub : (pc0 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc1_sub : (pc1 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc2_sub : (pc2 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc3_sub : (pc3 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc4_sub : (pc4 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc5_sub : (pc5 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc6_sub : (pc6 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc7_sub : (pc7 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc8_sub : (pc8 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc9_sub : (pc9 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc10_sub : (pc10 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc11_sub : (pc11 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc12_sub : (pc12 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc13_sub : (pc13 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc14_sub : (pc14 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc15_sub : (pc15 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc16_sub : (pc16 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc17_sub : (pc17 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
theorem pc18_sub : (pc18 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]

theorem ops_sub : (ops : List (HloOp τ sig (Elt F))).Forall fun op => op.bufs ⊆ StableHlo.tcRefs τ sig :=
  forall_app pc0_sub <| forall_app pc1_sub <| forall_app pc2_sub <| forall_app (forall_app pc3_sub pc4_sub) <|
  forall_app pc5_sub <| forall_app (forall_app pc6_sub pc7_sub) <| forall_app pc8_sub <| forall_app pc9_sub <|
  forall_app (forall_app pc10_sub pc11_sub) <| forall_app pc12_sub <| forall_app (forall_app pc13_sub pc14_sub) <|
  forall_app pc15_sub <| forall_app pc16_sub <| forall_app pc17_sub pc18_sub

/-! ## Every operation determines its results, piece by piece -/

theorem pc0_fresh : (pc0 : List (HloOp τ sig (Elt F))).Forall fun op => op.fresh = ∅ := by
  simp only [List.Forall]; repeat' constructor
theorem pc1_fresh : (pc1 : List (HloOp τ sig (Elt F))).Forall fun op => op.fresh = ∅ := by
  simp only [List.Forall]; repeat' constructor
theorem pc2_fresh : (pc2 : List (HloOp τ sig (Elt F))).Forall fun op => op.fresh = ∅ := by
  simp only [List.Forall]; repeat' constructor
theorem pc3_fresh : (pc3 : List (HloOp τ sig (Elt F))).Forall fun op => op.fresh = ∅ := by
  simp only [List.Forall]; repeat' constructor
theorem pc4_fresh : (pc4 : List (HloOp τ sig (Elt F))).Forall fun op => op.fresh = ∅ := by
  simp only [List.Forall]; repeat' constructor
theorem pc5_fresh : (pc5 : List (HloOp τ sig (Elt F))).Forall fun op => op.fresh = ∅ := by
  simp only [List.Forall]; repeat' constructor
theorem pc6_fresh : (pc6 : List (HloOp τ sig (Elt F))).Forall fun op => op.fresh = ∅ := by
  simp only [List.Forall]; repeat' constructor
theorem pc7_fresh : (pc7 : List (HloOp τ sig (Elt F))).Forall fun op => op.fresh = ∅ := by
  simp only [List.Forall]; repeat' constructor
theorem pc8_fresh : (pc8 : List (HloOp τ sig (Elt F))).Forall fun op => op.fresh = ∅ := by
  simp only [List.Forall]; repeat' constructor
theorem pc9_fresh : (pc9 : List (HloOp τ sig (Elt F))).Forall fun op => op.fresh = ∅ := by
  simp only [List.Forall]; repeat' constructor
theorem pc10_fresh : (pc10 : List (HloOp τ sig (Elt F))).Forall fun op => op.fresh = ∅ := by
  simp only [List.Forall]; repeat' constructor
theorem pc11_fresh : (pc11 : List (HloOp τ sig (Elt F))).Forall fun op => op.fresh = ∅ := by
  simp only [List.Forall]; repeat' constructor
theorem pc12_fresh : (pc12 : List (HloOp τ sig (Elt F))).Forall fun op => op.fresh = ∅ := by
  simp only [List.Forall]; repeat' constructor
theorem pc13_fresh : (pc13 : List (HloOp τ sig (Elt F))).Forall fun op => op.fresh = ∅ := by
  simp only [List.Forall]; repeat' constructor
theorem pc14_fresh : (pc14 : List (HloOp τ sig (Elt F))).Forall fun op => op.fresh = ∅ := by
  simp only [List.Forall]; repeat' constructor
theorem pc15_fresh : (pc15 : List (HloOp τ sig (Elt F))).Forall fun op => op.fresh = ∅ := by
  simp only [List.Forall]; repeat' constructor
theorem pc16_fresh : (pc16 : List (HloOp τ sig (Elt F))).Forall fun op => op.fresh = ∅ := by
  simp only [List.Forall]; repeat' constructor
theorem pc17_fresh : (pc17 : List (HloOp τ sig (Elt F))).Forall fun op => op.fresh = ∅ := by
  simp only [List.Forall]; repeat' constructor
theorem pc18_fresh : (pc18 : List (HloOp τ sig (Elt F))).Forall fun op => op.fresh = ∅ := by
  simp only [List.Forall]; repeat' constructor

theorem ops_fresh : ∀ op ∈ (ops : List (HloOp τ sig (Elt F))), op.fresh = ∅ :=
  List.forall_iff_forall_mem.mp <|
  forall_app pc0_fresh <| forall_app pc1_fresh <| forall_app pc2_fresh <| forall_app (forall_app pc3_fresh pc4_fresh) <|
  forall_app pc5_fresh <| forall_app (forall_app pc6_fresh pc7_fresh) <| forall_app pc8_fresh <| forall_app pc9_fresh <|
  forall_app (forall_app pc10_fresh pc11_fresh) <| forall_app pc12_fresh <| forall_app (forall_app pc13_fresh pc14_fresh) <|
  forall_app pc15_fresh <| forall_app pc16_fresh <| forall_app pc17_fresh pc18_fresh

/-! ## The run -/

/-- On every device, for any float values, from any memory with zero counters: every weakly fair execution of @main
    terminates with each TensorCore buffer at the fold of the 306 operations' results over the launch contents. -/
theorem run_after (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after ops (StableHlo.launchContents m d) (Proc.devRef .tc b) :=
  StableHlo.run_seq scopedRefs_eq scopedSems_eq defs main (fun _ => ops) main_eq (fun _ => ops_sub) m ρ (hfresh := fun _ => ops_fresh)

end Cert.ReferenceIdeal.Hand

end
-- ==== Proof.RefChunkLemma.lean ====
/-
  One window pair's stretch of the reference, read as a value.

  The stretch takes two slices of the colour image and two of the target image, anchored at `(ay, ax)` and `(by, bx)` and of
  `h × w` pixels each, squares the first difference and takes the absolute value of the second, sums both over the three
  channels, weighs the second sum by the exponential of `γ` times the first, sums over batch and window, divides by the pixel
  count, doubles and adds the running total.  Read at the scalar shape's one index this is the running total plus twice the mean
  of `tot`: each sum over an index set is the iterated sum over its coordinates, a slice read at an index is the image read at
  the shifted index, and the zero word the channel sums start from adds nothing.
-/
import Idealize.ShloMosaic.PureOps.Ideal.Laws
import Idealize.ShloMosaic.Lib.IdealHost
import Idealize.ShloMosaic.Lib.Pipeline.Value
import proofs.«102783_j41472204210650_1_alg».proof.Proof.Spec

noncomputable section

open scoped BigOperators

namespace Cert.Stencil

open Idealize.ShloMosaic Idealize.ShloMosaic.ValueIdx

/-- A reduction over the channel axis of `16 × 3 × h × w`, as the kernel-side shape fact that names the inserted index. -/
theorem reduces_of_reducesTo {h w : ℕ} (hR : (⟨4, ![16, 3, h, w]⟩ : Shape).ReducesTo [1] ⟨3, ![16, h, w]⟩) :
    (⟨4, ![16, 3, h, w]⟩ : Shape).Reduces [1] ⟨3, ![16, h, w]⟩ :=
  ⟨hR.1, Nat.succ_pos 2, hR.2⟩

/-- The index over `(b, r, c)` with channel `k` inserted is `(b, k, r, c)`, coordinate by coordinate. -/
theorem lift_coords {h w : ℕ} (hRed : (⟨4, ![16, 3, h, w]⟩ : Shape).Reduces [1] ⟨3, ![16, h, w]⟩)
    (b : Fin 16) (r : Fin h) (c : Fin w) (k : Fin 3) :
    (hRed.lift (ix3 b r c) k (0 : Fin 4)).val = b.val ∧ (hRed.lift (ix3 b r c) k (1 : Fin 4)).val = k.val
      ∧ (hRed.lift (ix3 b r c) k (2 : Fin 4)).val = r.val ∧ (hRed.lift (ix3 b r c) k (3 : Fin 4)).val = c.val :=
  ⟨rfl, rfl, rfl, rfl⟩

/-- A slice of an image anchored at `(oy, ox)`, read at `(b, k, r, c)`, is the image at `(b, k, oy + r, ox + c)`. -/
theorem slice_lift (A : Img) {h w : ℕ} (oy ox : ℕ)
    (hs : (⟨4, ![16, 3, 512, 512]⟩ : Shape).Slices ![0, 0, oy, ox] ⟨4, ![16, 3, h, w]⟩)
    (hRed : (⟨4, ![16, 3, h, w]⟩ : Shape).Reduces [1] ⟨3, ![16, h, w]⟩)
    (b : Fin 16) (r : Fin h) (c : Fin w) (k : Fin 3) :
    extractStridedSlice ⟨4, ![16, 3, h, w]⟩ ![0, 0, oy, ox] A hs (hRed.lift (ix3 b r c) k) = rd A b k (oy + r.val) (ox + c.val) := by
  have hy : oy + h ≤ 512 := hs.2 (2 : Fin 4)
  have hx : ox + w ≤ 512 := hs.2 (3 : Fin 4)
  have hr := r.isLt
  have hc := c.isLt
  rw [rd_eq A b k (oy + r.val) (ox + c.val) (by omega) (by omega)]
  obtain ⟨e0, e1, e2, e3⟩ := lift_coords hRed b r c k
  refine extractStridedSlice_apply _ A hs _ _ fun a => ?_
  match a with
  | ⟨0, _⟩ => show b.val = 0 + _; rw [Nat.zero_add]; exact e0.symm
  | ⟨1, _⟩ => show k.val = 0 + _; rw [Nat.zero_add]; exact e1.symm
  | ⟨2, _⟩ => show oy + r.val = oy + _; exact congrArg (oy + ·) e2.symm
  | ⟨3, _⟩ => show ox + c.val = ox + _; exact congrArg (ox + ·) e3.symm

/-- The difference of two slices at `(b, k, r, c)` is the difference of the two windows at that pixel. -/
theorem diff_lift (A : Img) {h w : ℕ} (ay ax by_ bx : ℕ)
    (hsA : (⟨4, ![16, 3, 512, 512]⟩ : Shape).Slices ![0, 0, ay, ax] ⟨4, ![16, 3, h, w]⟩)
    (hsB : (⟨4, ![16, 3, 512, 512]⟩ : Shape).Slices ![0, 0, by_, bx] ⟨4, ![16, 3, h, w]⟩)
    (hRed : (⟨4, ![16, 3, h, w]⟩ : Shape).Reduces [1] ⟨3, ![16, h, w]⟩)
    (b : Fin 16) (r : Fin h) (c : Fin w) (k : Fin 3) :
    subf (F := Ideal) (φ := .f32) (extractStridedSlice ⟨4, ![16, 3, h, w]⟩ ![0, 0, ay, ax] A hsA)
        (extractStridedSlice ⟨4, ![16, 3, h, w]⟩ ![0, 0, by_, bx] A hsB) (hRed.lift (ix3 b r c) k)
      = dif A ay ax by_ bx b k r.val c.val := by
  rw [subf_apply, slice_lift A ay ax hsA hRed b r c k, slice_lift A by_ bx hsB hRed b r c k]
  rfl

/-- THE STRETCH AS A VALUE: the composed term of one window pair's operations is the running total plus twice the mean of the
    window pair's sum. -/
theorem chunk_value (h w ay ax by_ bx : ℕ) (Y T : Img) (L : (⟨0, ![]⟩ : Shape).Idx → EReal) (N : BitVec 32)
    (hsA : (⟨4, ![16, 3, 512, 512]⟩ : Shape).Slices ![0, 0, ay, ax] ⟨4, ![16, 3, h, w]⟩)
    (hsB : (⟨4, ![16, 3, 512, 512]⟩ : Shape).Slices ![0, 0, by_, bx] ⟨4, ![16, 3, h, w]⟩)
    (hR1 : (⟨4, ![16, 3, h, w]⟩ : Shape).ReducesTo [1] ⟨3, ![16, h, w]⟩)
    (hR3 : (⟨3, ![16, h, w]⟩ : Shape).ReducesTo [0, 1, 2] ⟨0, ![]⟩)
    (hB : (⟨0, ![]⟩ : Shape).BroadcastsInDim ⟨3, ![16, h, w]⟩ (![] : Fin 0 → Fin 3))
    (h0 : 0 < (⟨0, ![]⟩ : Shape).numel) :
    addf (F := Ideal) (φ := .f32) L
      (mulf (constant (F := Ideal) ⟨0, ![]⟩ .f32 0x40000000#32)
        (Host.divf (F := Ideal)
          (Host.reduceAdd (F := Ideal)
            (mulf
              (Host.exp (F := Ideal)
                (mulf
                  (Host.reduceAdd (F := Ideal)
                    (mulf
                      (subf (extractStridedSlice ⟨4, ![16, 3, h, w]⟩ ![0, 0, ay, ax] Y hsA)
                        (extractStridedSlice ⟨4, ![16, 3, h, w]⟩ ![0, 0, by_, bx] Y hsB))
                      (subf (extractStridedSlice ⟨4, ![16, 3, h, w]⟩ ![0, 0, ay, ax] Y hsA)
                        (extractStridedSlice ⟨4, ![16, 3, h, w]⟩ ![0, 0, by_, bx] Y hsB)))
                    (constant (F := Ideal) ⟨0, ![]⟩ .f32 0x00000000#32) hR1 h0)
                  (broadcastInDim ⟨3, ![16, h, w]⟩ ![] hB (constant (F := Ideal) ⟨0, ![]⟩ .f32 0xBBA3D70A#32))))
              (Host.reduceAdd (F := Ideal)
                (Host.absf (F := Ideal)
                  (subf (extractStridedSlice ⟨4, ![16, 3, h, w]⟩ ![0, 0, ay, ax] T hsA)
                    (extractStridedSlice ⟨4, ![16, 3, h, w]⟩ ![0, 0, by_, bx] T hsB)))
                (constant (F := Ideal) ⟨0, ![]⟩ .f32 0x00000000#32) hR1 h0))
            (constant (F := Ideal) ⟨0, ![]⟩ .f32 0x00000000#32) hR3 h0)
          (constant (F := Ideal) ⟨0, ![]⟩ .f32 N)))
      = fun _ => L ix0 + mean2 (tot Y T ay ax by_ bx h w) N := by
  have hRed := reduces_of_reducesTo hR1
  funext i
  obtain rfl : i = ix0 := eq_ix0 i
  rw [addf_apply, mulf_apply, constant_apply, hostDivf_apply, constant_apply, hostReduceAdd_apply, constant_apply,
    Ideal.hostReduceAdd_total hR3 (fun b => b.elim0)]
  unfold mean2
  refine congrArg (fun S => L ix0 + Ideal.ofBits .f32 0x40000000#32 * Ideal.div (Ideal.ofBits .f32 0x00000000#32 + S) (Ideal.ofBits .f32 N)) ?_
  rw [sum_idx3]
  unfold tot
  refine Finset.sum_congr rfl fun b _ => Finset.sum_congr rfl fun r _ => Finset.sum_congr rfl fun c _ => ?_
  rw [mulf_apply]
  unfold px
  refine congrArg₂ (· * ·) (congrArg Ideal.exp ?_) ?_
  · rw [mulf_apply, broadcastInDim_scalar_apply, constant_apply, hostReduceAdd_apply, constant_apply,
      Ideal.hostReduceAdd_single hR1 hRed, Ideal.ofBits_zero_f32, zero_add]
    refine congrArg₂ (· * ·) (Finset.sum_congr rfl fun k _ => ?_) rfl
    rw [mulf_apply, diff_lift Y ay ax by_ bx hsA hsB hRed b r c k]
  · rw [hostReduceAdd_apply, constant_apply, Ideal.hostReduceAdd_single hR1 hRed, Ideal.ofBits_zero_f32, zero_add]
    refine Finset.sum_congr rfl fun k _ => ?_
    show FloatOps.hostAbsf _ = _
    rw [Ideal.hostAbsf_def, Ideal.absf_def, diff_lift T ay ax by_ bx hsA hsB hRed b r c k]

end Cert.Stencil

end
-- ==== Proof.RefChunks.lean ====
/-
  The reference's twelve window-pair stretches read as values: after the operations of stretch K the running total's buffer
  holds the previous total plus twice the mean of the K-th window pair's sum (Cert.Stencil.tot over the colour image and the
  target image), and the three images the stretches read are left as they were.  Each stretch is the composition of its
  operations into one term over the buffer contents, which is an instance of the window-pair lemma Cert.Stencil.chunk_value.
-/
import proofs.«102783_j41472204210650_1_alg».proof.Proof.RefOps
import proofs.«102783_j41472204210650_1_alg».proof.Proof.RefChunkLemma
import proofs.«102783_j41472204210650_1_alg».proof.Proof.Spec

noncomputable section

namespace Cert.ReferenceIdeal.Hand

open Cert.ReferenceIdeal Cert.ReferenceIdeal.Gen Idealize.ShloMosaic Idealize.ShloMosaic.TcCoe Idealize.SL.Sem

/-- Stretch 1: windows anchored at (1, 0) and (0, 0), 511 × 512 pixels; the running total starts from the zero word. -/
theorem chunk1 (V : Valuation τ sig (Elt Ideal)) :
    StableHlo.after (ops1 (F := Ideal)) V (Proc.devRef .tc main_v23)
      = fun _ => Ideal.ofBits .f32 0x00000000#32 + Cert.Stencil.mean2 (Cert.Stencil.tot (V (Proc.devRef .tc main_v5)) (V (Proc.devRef .tc main_arg1)) 1 0 0 0 511 512) 0x4A7F8000#32 := by
  simp only [ops1, pc1]
  after_results_simp
  exact Cert.Stencil.chunk_value 511 512 1 0 0 0 (V (Proc.devRef .tc main_v5)) (V (Proc.devRef .tc main_arg1))
    (constant (F := Ideal) S_ .f32 0x00000000#32) 0x4A7F8000#32
    slices_S16x3x512x512_S16x3x511x512_0_0_1_0 slices_S16x3x512x512_S16x3x511x512_0_0_0_0
    reducesTo_S16x3x511x512_S16x511x512_d1 reducesTo_S16x511x512_S_d0_1_2 bcast_S_S16x511x512 h_S_

/-- Stretch 1 writes only its own result buffers: the two input images and the colour image are kept. -/
theorem chunk1_kept (V : Valuation τ sig (Elt Ideal)) (b : Ref sig .tc) (hb : b = main_arg0 ∨ b = main_arg1 ∨ b = main_v5) :
    StableHlo.after (ops1 (F := Ideal)) V (Proc.devRef .tc b) = V (Proc.devRef .tc b) := by
  rcases hb with rfl | rfl | rfl <;> (simp only [ops1, pc1]; after_results_simp)

/-- Stretch 2: windows anchored at (0, 1) and (0, 0), 512 × 511 pixels; added to the total of stretch 1. -/
theorem chunk2 (V : Valuation τ sig (Elt Ideal)) :
    StableHlo.after (ops2 (F := Ideal)) V (Proc.devRef .tc main_v41)
      = fun _ => HAdd.hAdd (α := EReal) (β := EReal) (γ := EReal) (V (Proc.devRef .tc main_v23) ValueIdx.ix0) (Cert.Stencil.mean2 (Cert.Stencil.tot (V (Proc.devRef .tc main_v5)) (V (Proc.devRef .tc main_arg1)) 0 1 0 0 512 511) 0x4A7F8000#32) := by
  simp only [ops2, pc2]
  after_results_simp
  exact Cert.Stencil.chunk_value 512 511 0 1 0 0 (V (Proc.devRef .tc main_v5)) (V (Proc.devRef .tc main_arg1))
    (V (Proc.devRef .tc main_v23)) 0x4A7F8000#32
    slices_S16x3x512x512_S16x3x512x511_0_0_0_1 slices_S16x3x512x512_S16x3x512x511_0_0_0_0
    reducesTo_S16x3x512x511_S16x512x511_d1 reducesTo_S16x512x511_S_d0_1_2 bcast_S_S16x512x511 h_S_

/-- Stretch 2 writes only its own result buffers: the two input images and the colour image are kept. -/
theorem chunk2_kept (V : Valuation τ sig (Elt Ideal)) (b : Ref sig .tc) (hb : b = main_arg0 ∨ b = main_arg1 ∨ b = main_v5) :
    StableHlo.after (ops2 (F := Ideal)) V (Proc.devRef .tc b) = V (Proc.devRef .tc b) := by
  rcases hb with rfl | rfl | rfl <;> (simp only [ops2, pc2]; after_results_simp)

/-- Stretch 3: windows anchored at (1, 1) and (0, 0), 511 × 511 pixels; added to the total of stretch 2. -/
theorem chunk3 (V : Valuation τ sig (Elt Ideal)) :
    StableHlo.after (ops3 (F := Ideal)) V (Proc.devRef .tc main_v59)
      = fun _ => HAdd.hAdd (α := EReal) (β := EReal) (γ := EReal) (V (Proc.devRef .tc main_v41) ValueIdx.ix0) (Cert.Stencil.mean2 (Cert.Stencil.tot (V (Proc.devRef .tc main_v5)) (V (Proc.devRef .tc main_arg1)) 1 1 0 0 511 511) 0x4A7F0040#32) := by
  simp only [ops3, pc3, pc4, List.cons_append, List.nil_append]
  after_results_simp
  exact Cert.Stencil.chunk_value 511 511 1 1 0 0 (V (Proc.devRef .tc main_v5)) (V (Proc.devRef .tc main_arg1))
    (V (Proc.devRef .tc main_v41)) 0x4A7F0040#32
    slices_S16x3x512x512_S16x3x511x511_0_0_1_1 slices_S16x3x512x512_S16x3x511x511_0_0_0_0
    reducesTo_S16x3x511x511_S16x511x511_d1 reducesTo_S16x511x511_S_d0_1_2 bcast_S_S16x511x511 h_S_

/-- Stretch 3 writes only its own result buffers: the two input images and the colour image are kept. -/
theorem chunk3_kept (V : Valuation τ sig (Elt Ideal)) (b : Ref sig .tc) (hb : b = main_arg0 ∨ b = main_arg1 ∨ b = main_v5) :
    StableHlo.after (ops3 (F := Ideal)) V (Proc.devRef .tc b) = V (Proc.devRef .tc b) := by
  rcases hb with rfl | rfl | rfl <;> (simp only [ops3, pc3, pc4, List.cons_append, List.nil_append]; after_results_simp)

/-- Stretch 4: windows anchored at (1, 0) and (0, 1), 511 × 511 pixels; added to the total of stretch 3. -/
theorem chunk4 (V : Valuation τ sig (Elt Ideal)) :
    StableHlo.after (ops4 (F := Ideal)) V (Proc.devRef .tc main_v77)
      = fun _ => HAdd.hAdd (α := EReal) (β := EReal) (γ := EReal) (V (Proc.devRef .tc main_v59) ValueIdx.ix0) (Cert.Stencil.mean2 (Cert.Stencil.tot (V (Proc.devRef .tc main_v5)) (V (Proc.devRef .tc main_arg1)) 1 0 0 1 511 511) 0x4A7F0040#32) := by
  simp only [ops4, pc5]
  after_results_simp
  exact Cert.Stencil.chunk_value 511 511 1 0 0 1 (V (Proc.devRef .tc main_v5)) (V (Proc.devRef .tc main_arg1))
    (V (Proc.devRef .tc main_v59)) 0x4A7F0040#32
    slices_S16x3x512x512_S16x3x511x511_0_0_1_0 slices_S16x3x512x512_S16x3x511x511_0_0_0_1
    reducesTo_S16x3x511x511_S16x511x511_d1 reducesTo_S16x511x511_S_d0_1_2 bcast_S_S16x511x511 h_S_

/-- Stretch 4 writes only its own result buffers: the two input images and the colour image are kept. -/
theorem chunk4_kept (V : Valuation τ sig (Elt Ideal)) (b : Ref sig .tc) (hb : b = main_arg0 ∨ b = main_arg1 ∨ b = main_v5) :
    StableHlo.after (ops4 (F := Ideal)) V (Proc.devRef .tc b) = V (Proc.devRef .tc b) := by
  rcases hb with rfl | rfl | rfl <;> (simp only [ops4, pc5]; after_results_simp)

/-- Stretch 5: windows anchored at (2, 0) and (0, 0), 510 × 512 pixels; added to the total of stretch 4. -/
theorem chunk5 (V : Valuation τ sig (Elt Ideal)) :
    StableHlo.after (ops5 (F := Ideal)) V (Proc.devRef .tc main_v95)
      = fun _ => HAdd.hAdd (α := EReal) (β := EReal) (γ := EReal) (V (Proc.devRef .tc main_v77) ValueIdx.ix0) (Cert.Stencil.mean2 (Cert.Stencil.tot (V (Proc.devRef .tc main_v5)) (V (Proc.devRef .tc main_arg1)) 2 0 0 0 510 512) 0x4A7F0000#32) := by
  simp only [ops5, pc6, pc7, List.cons_append, List.nil_append]
  after_results_simp
  exact Cert.Stencil.chunk_value 510 512 2 0 0 0 (V (Proc.devRef .tc main_v5)) (V (Proc.devRef .tc main_arg1))
    (V (Proc.devRef .tc main_v77)) 0x4A7F0000#32
    slices_S16x3x512x512_S16x3x510x512_0_0_2_0 slices_S16x3x512x512_S16x3x510x512_0_0_0_0
    reducesTo_S16x3x510x512_S16x510x512_d1 reducesTo_S16x510x512_S_d0_1_2 bcast_S_S16x510x512 h_S_

/-- Stretch 5 writes only its own result buffers: the two input images and the colour image are kept. -/
theorem chunk5_kept (V : Valuation τ sig (Elt Ideal)) (b : Ref sig .tc) (hb : b = main_arg0 ∨ b = main_arg1 ∨ b = main_v5) :
    StableHlo.after (ops5 (F := Ideal)) V (Proc.devRef .tc b) = V (Proc.devRef .tc b) := by
  rcases hb with rfl | rfl | rfl <;> (simp only [ops5, pc6, pc7, List.cons_append, List.nil_append]; after_results_simp)

/-- Stretch 6: windows anchored at (0, 2) and (0, 0), 512 × 510 pixels; added to the total of stretch 5. -/
theorem chunk6 (V : Valuation τ sig (Elt Ideal)) :
    StableHlo.after (ops6 (F := Ideal)) V (Proc.devRef .tc main_v113)
      = fun _ => HAdd.hAdd (α := EReal) (β := EReal) (γ := EReal) (V (Proc.devRef .tc main_v95) ValueIdx.ix0) (Cert.Stencil.mean2 (Cert.Stencil.tot (V (Proc.devRef .tc main_v5)) (V (Proc.devRef .tc main_arg1)) 0 2 0 0 512 510) 0x4A7F0000#32) := by
  simp only [ops6, pc8]
  after_results_simp
  exact Cert.Stencil.chunk_value 512 510 0 2 0 0 (V (Proc.devRef .tc main_v5)) (V (Proc.devRef .tc main_arg1))
    (V (Proc.devRef .tc main_v95)) 0x4A7F0000#32
    slices_S16x3x512x512_S16x3x512x510_0_0_0_2 slices_S16x3x512x512_S16x3x512x510_0_0_0_0
    reducesTo_S16x3x512x510_S16x512x510_d1 reducesTo_S16x512x510_S_d0_1_2 bcast_S_S16x512x510 h_S_

/-- Stretch 6 writes only its own result buffers: the two input images and the colour image are kept. -/
theorem chunk6_kept (V : Valuation τ sig (Elt Ideal)) (b : Ref sig .tc) (hb : b = main_arg0 ∨ b = main_arg1 ∨ b = main_v5) :
    StableHlo.after (ops6 (F := Ideal)) V (Proc.devRef .tc b) = V (Proc.devRef .tc b) := by
  rcases hb with rfl | rfl | rfl <;> (simp only [ops6, pc8]; after_results_simp)

/-- Stretch 7: windows anchored at (2, 1) and (0, 0), 510 × 511 pixels; added to the total of stretch 6. -/
theorem chunk7 (V : Valuation τ sig (Elt Ideal)) :
    StableHlo.after (ops7 (F := Ideal)) V (Proc.devRef .tc main_v131)
      = fun _ => HAdd.hAdd (α := EReal) (β := EReal) (γ := EReal) (V (Proc.devRef .tc main_v113) ValueIdx.ix0) (Cert.Stencil.mean2 (Cert.Stencil.tot (V (Proc.devRef .tc main_v5)) (V (Proc.devRef .tc main_arg1)) 2 1 0 0 510 511) 0x4A7E8080#32) := by
  simp only [ops7, pc9]
  after_results_simp
  exact Cert.Stencil.chunk_value 510 511 2 1 0 0 (V (Proc.devRef .tc main_v5)) (V (Proc.devRef .tc main_arg1))
    (V (Proc.devRef .tc main_v113)) 0x4A7E8080#32
    slices_S16x3x512x512_S16x3x510x511_0_0_2_1 slices_S16x3x512x512_S16x3x510x511_0_0_0_0
    reducesTo_S16x3x510x511_S16x510x511_d1 reducesTo_S16x510x511_S_d0_1_2 bcast_S_S16x510x511 h_S_

/-- Stretch 7 writes only its own result buffers: the two input images and the colour image are kept. -/
theorem chunk7_kept (V : Valuation τ sig (Elt Ideal)) (b : Ref sig .tc) (hb : b = main_arg0 ∨ b = main_arg1 ∨ b = main_v5) :
    StableHlo.after (ops7 (F := Ideal)) V (Proc.devRef .tc b) = V (Proc.devRef .tc b) := by
  rcases hb with rfl | rfl | rfl <;> (simp only [ops7, pc9]; after_results_simp)

/-- Stretch 8: windows anchored at (2, 0) and (0, 1), 510 × 511 pixels; added to the total of stretch 7. -/
theorem chunk8 (V : Valuation τ sig (Elt Ideal)) :
    StableHlo.after (ops8 (F := Ideal)) V (Proc.devRef .tc main_v149)
      = fun _ => HAdd.hAdd (α := EReal) (β := EReal) (γ := EReal) (V (Proc.devRef .tc main_v131) ValueIdx.ix0) (Cert.Stencil.mean2 (Cert.Stencil.tot (V (Proc.devRef .tc main_v5)) (V (Proc.devRef .tc main_arg1)) 2 0 0 1 510 511) 0x4A7E8080#32) := by
  simp only [ops8, pc10, pc11, List.cons_append, List.nil_append]
  after_results_simp
  exact Cert.Stencil.chunk_value 510 511 2 0 0 1 (V (Proc.devRef .tc main_v5)) (V (Proc.devRef .tc main_arg1))
    (V (Proc.devRef .tc main_v131)) 0x4A7E8080#32
    slices_S16x3x512x512_S16x3x510x511_0_0_2_0 slices_S16x3x512x512_S16x3x510x511_0_0_0_1
    reducesTo_S16x3x510x511_S16x510x511_d1 reducesTo_S16x510x511_S_d0_1_2 bcast_S_S16x510x511 h_S_

/-- Stretch 8 writes only its own result buffers: the two input images and the colour image are kept. -/
theorem chunk8_kept (V : Valuation τ sig (Elt Ideal)) (b : Ref sig .tc) (hb : b = main_arg0 ∨ b = main_arg1 ∨ b = main_v5) :
    StableHlo.after (ops8 (F := Ideal)) V (Proc.devRef .tc b) = V (Proc.devRef .tc b) := by
  rcases hb with rfl | rfl | rfl <;> (simp only [ops8, pc10, pc11, List.cons_append, List.nil_append]; after_results_simp)

/-- Stretch 9: windows anchored at (1, 2) and (0, 0), 511 × 510 pixels; added to the total of stretch 8. -/
theorem chunk9 (V : Valuation τ sig (Elt Ideal)) :
    StableHlo.after (ops9 (F := Ideal)) V (Proc.devRef .tc main_v167)
      = fun _ => HAdd.hAdd (α := EReal) (β := EReal) (γ := EReal) (V (Proc.devRef .tc main_v149) ValueIdx.ix0) (Cert.Stencil.mean2 (Cert.Stencil.tot (V (Proc.devRef .tc main_v5)) (V (Proc.devRef .tc main_arg1)) 1 2 0 0 511 510) 0x4A7E8080#32) := by
  simp only [ops9, pc12]
  after_results_simp
  exact Cert.Stencil.chunk_value 511 510 1 2 0 0 (V (Proc.devRef .tc main_v5)) (V (Proc.devRef .tc main_arg1))
    (V (Proc.devRef .tc main_v149)) 0x4A7E8080#32
    slices_S16x3x512x512_S16x3x511x510_0_0_1_2 slices_S16x3x512x512_S16x3x511x510_0_0_0_0
    reducesTo_S16x3x511x510_S16x511x510_d1 reducesTo_S16x511x510_S_d0_1_2 bcast_S_S16x511x510 h_S_

/-- Stretch 9 writes only its own result buffers: the two input images and the colour image are kept. -/
theorem chunk9_kept (V : Valuation τ sig (Elt Ideal)) (b : Ref sig .tc) (hb : b = main_arg0 ∨ b = main_arg1 ∨ b = main_v5) :
    StableHlo.after (ops9 (F := Ideal)) V (Proc.devRef .tc b) = V (Proc.devRef .tc b) := by
  rcases hb with rfl | rfl | rfl <;> (simp only [ops9, pc12]; after_results_simp)

/-- Stretch 10: windows anchored at (1, 0) and (0, 2), 511 × 510 pixels; added to the total of stretch 9. -/
theorem chunk10 (V : Valuation τ sig (Elt Ideal)) :
    StableHlo.after (ops10 (F := Ideal)) V (Proc.devRef .tc main_v185)
      = fun _ => HAdd.hAdd (α := EReal) (β := EReal) (γ := EReal) (V (Proc.devRef .tc main_v167) ValueIdx.ix0) (Cert.Stencil.mean2 (Cert.Stencil.tot (V (Proc.devRef .tc main_v5)) (V (Proc.devRef .tc main_arg1)) 1 0 0 2 511 510) 0x4A7E8080#32) := by
  simp only [ops10, pc13, pc14, List.cons_append, List.nil_append]
  after_results_simp
  exact Cert.Stencil.chunk_value 511 510 1 0 0 2 (V (Proc.devRef .tc main_v5)) (V (Proc.devRef .tc main_arg1))
    (V (Proc.devRef .tc main_v167)) 0x4A7E8080#32
    slices_S16x3x512x512_S16x3x511x510_0_0_1_0 slices_S16x3x512x512_S16x3x511x510_0_0_0_2
    reducesTo_S16x3x511x510_S16x511x510_d1 reducesTo_S16x511x510_S_d0_1_2 bcast_S_S16x511x510 h_S_

/-- Stretch 10 writes only its own result buffers: the two input images and the colour image are kept. -/
theorem chunk10_kept (V : Valuation τ sig (Elt Ideal)) (b : Ref sig .tc) (hb : b = main_arg0 ∨ b = main_arg1 ∨ b = main_v5) :
    StableHlo.after (ops10 (F := Ideal)) V (Proc.devRef .tc b) = V (Proc.devRef .tc b) := by
  rcases hb with rfl | rfl | rfl <;> (simp only [ops10, pc13, pc14, List.cons_append, List.nil_append]; after_results_simp)

/-- Stretch 11: windows anchored at (2, 2) and (0, 0), 510 × 510 pixels; added to the total of stretch 10. -/
theorem chunk11 (V : Valuation τ sig (Elt Ideal)) :
    StableHlo.after (ops11 (F := Ideal)) V (Proc.devRef .tc main_v203)
      = fun _ => HAdd.hAdd (α := EReal) (β := EReal) (γ := EReal) (V (Proc.devRef .tc main_v185) ValueIdx.ix0) (Cert.Stencil.mean2 (Cert.Stencil.tot (V (Proc.devRef .tc main_v5)) (V (Proc.devRef .tc main_arg1)) 2 2 0 0 510 510) 0x4A7E0100#32) := by
  simp only [ops11, pc15]
  after_results_simp
  exact Cert.Stencil.chunk_value 510 510 2 2 0 0 (V (Proc.devRef .tc main_v5)) (V (Proc.devRef .tc main_arg1))
    (V (Proc.devRef .tc main_v185)) 0x4A7E0100#32
    slices_S16x3x512x512_S16x3x510x510_0_0_2_2 slices_S16x3x512x512_S16x3x510x510_0_0_0_0
    reducesTo_S16x3x510x510_S16x510x510_d1 reducesTo_S16x510x510_S_d0_1_2 bcast_S_S16x510x510 h_S_

/-- Stretch 11 writes only its own result buffers: the two input images and the colour image are kept. -/
theorem chunk11_kept (V : Valuation τ sig (Elt Ideal)) (b : Ref sig .tc) (hb : b = main_arg0 ∨ b = main_arg1 ∨ b = main_v5) :
    StableHlo.after (ops11 (F := Ideal)) V (Proc.devRef .tc b) = V (Proc.devRef .tc b) := by
  rcases hb with rfl | rfl | rfl <;> (simp only [ops11, pc15]; after_results_simp)

/-- Stretch 12: windows anchored at (2, 0) and (0, 2), 510 × 510 pixels; added to the total of stretch 11. -/
theorem chunk12 (V : Valuation τ sig (Elt Ideal)) :
    StableHlo.after (ops12 (F := Ideal)) V (Proc.devRef .tc main_v221)
      = fun _ => HAdd.hAdd (α := EReal) (β := EReal) (γ := EReal) (V (Proc.devRef .tc main_v203) ValueIdx.ix0) (Cert.Stencil.mean2 (Cert.Stencil.tot (V (Proc.devRef .tc main_v5)) (V (Proc.devRef .tc main_arg1)) 2 0 0 2 510 510) 0x4A7E0100#32) := by
  simp only [ops12, pc16]
  after_results_simp
  exact Cert.Stencil.chunk_value 510 510 2 0 0 2 (V (Proc.devRef .tc main_v5)) (V (Proc.devRef .tc main_arg1))
    (V (Proc.devRef .tc main_v203)) 0x4A7E0100#32
    slices_S16x3x512x512_S16x3x510x510_0_0_2_0 slices_S16x3x512x512_S16x3x510x510_0_0_0_2
    reducesTo_S16x3x510x510_S16x510x510_d1 reducesTo_S16x510x510_S_d0_1_2 bcast_S_S16x510x510 h_S_

/-- Stretch 12 writes only its own result buffers: the two input images and the colour image are kept. -/
theorem chunk12_kept (V : Valuation τ sig (Elt Ideal)) (b : Ref sig .tc) (hb : b = main_arg0 ∨ b = main_arg1 ∨ b = main_v5) :
    StableHlo.after (ops12 (F := Ideal)) V (Proc.devRef .tc b) = V (Proc.devRef .tc b) := by
  rcases hb with rfl | rfl | rfl <;> (simp only [ops12, pc16]; after_results_simp)

end Cert.ReferenceIdeal.Hand

end
-- ==== Proof.RefValue.lean ====
/-
  The value of the reference program.  Its 306 operations fall into fourteen stretches: the colour transform of the first image
  (eight operations, named `ychain` and never opened: the kernel's program applies the same eight), one stretch per window pair,
  each adding twice the mean of its window sum to a running total, and the stretch forming 1.5 times the mean squared difference
  of the two images and adding it.  No stretch writes the two images or the transformed image, so each stretch reads them as the
  first stretch left them, and the result is the loss of the specification at the first image, its colour transform and the second
  image.  The squared-difference stretch reduces over all four axes at once: a sum over the index set of the images, which is the
  four-fold sum over its coordinates.
-/
import proofs.«102783_j41472204210650_1_alg».proof.Proof.RefOps
import proofs.«102783_j41472204210650_1_alg».proof.Proof.Spec
import proofs.«102783_j41472204210650_1_alg».proof.Proof.RefChunks
import Idealize.ShloMosaic.PureOps.Ideal.Laws
import Idealize.ShloMosaic.Lib.IdealHost
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx
open scoped BigOperators

/-! ## The colour transform -/

/-- The colour transform of an image as the first eight operations compute it: the image regrouped into rows of three consecutive
    elements, each row multiplied by the 3 × 3 matrix and shifted by the offset vector, and regrouped back. Never opened. -/
def ychain (X : Cert.Stencil.Img) : Cert.Stencil.Img :=
  shapeCast S16x3x512x512
    (addf
      (Host.dotGeneral (F := Ideal) (φ₁ := .f32) dot_S4194304x3_S3x3_S4194304x3_1_0_0_1_n_n none
        (shapeCast S4194304x3 (X : FVec Ideal S16x3x512x512 .f32) shapeCasts_S16x3x512x512_S4194304x3)
        (fun i => FloatOps.ofBits .f32 (lit0 (S3x3.rowMajor i))))
      (broadcastInDim S4194304x3 ![0, 1] bcast_S1x3_S4194304x3_0_1
        (broadcastInDim S1x3 ![1] bcast_S3_S1x3_1 (fun i => FloatOps.ofBits .f32 (lit1 (S3.rowMajor i))))))
    shapeCasts_S4194304x3_S16x3x512x512

/-- After the first stretch the transformed image is the colour transform of the first argument. -/
theorem after_opsY (V : Valuation τ sig (Elt Ideal)) :
    StableHlo.after (opsY (F := Ideal)) V (Proc.devRef .tc main_v5) = ychain (V (Proc.devRef .tc main_arg0)) := by
  after_results
  rfl

/-- The first stretch keeps the first argument. -/
theorem opsY_kept0 (V : Valuation τ sig (Elt Ideal)) :
    StableHlo.after (opsY (F := Ideal)) V (Proc.devRef .tc main_arg0) = V (Proc.devRef .tc main_arg0) := by
  after_results

/-- The first stretch keeps the second argument. -/
theorem opsY_kept1 (V : Valuation τ sig (Elt Ideal)) :
    StableHlo.after (opsY (F := Ideal)) V (Proc.devRef .tc main_arg1) = V (Proc.devRef .tc main_arg1) := by
  after_results

/-! ## The mean squared difference -/

/-- The last stretch: the running total plus 1.5 times the quotient of the sum of all squared differences (started from the zero
    word) by the element count. The reduction over all four axes is the sum over the images' index set, regrouped by coordinates. -/
theorem after_opsF (V : Valuation τ sig (Elt Ideal)) :
    StableHlo.after (opsF (F := Ideal)) V (Proc.devRef .tc main_v227)
      = fun _ => HAdd.hAdd (α := EReal) (β := EReal) (γ := EReal) (V (Proc.devRef .tc main_v221) ValueIdx.ix0)
          (Ideal.ofBits .f32 0x3FC00000#32
            * Ideal.div (Ideal.ofBits .f32 0x00000000#32 + Cert.Stencil.sq (V (Proc.devRef .tc main_arg0)) (V (Proc.devRef .tc main_arg1)))
                (Ideal.ofBits .f32 0x4B400000#32)) := by
  rw [StableHlo.after_append]
  after_results
  funext i
  rw [addf_apply, mulf_apply, constant_apply, hostDivf_apply, constant_apply, hostReduceAdd_apply, constant_apply,
    Ideal.hostReduceAdd_total _ (fun b => b.elim0), eq_ix0 i, Cert.Stencil.sum_idx4]
  rfl

/-! ## The two arguments are never written -/

variable {F : FTy → Type} [FloatOps F]

theorem pc0_kept (V : Valuation τ sig (Elt F)) (b : Ref sig .tc) (hb : b = main_arg0 ∨ b = main_arg1) :
    StableHlo.after (pc0 (F := F)) V (Proc.devRef .tc b) = V (Proc.devRef .tc b) := by
  rcases hb with rfl | rfl <;> after_results_simp
theorem pc1_kept (V : Valuation τ sig (Elt F)) (b : Ref sig .tc) (hb : b = main_arg0 ∨ b = main_arg1) :
    StableHlo.after (pc1 (F := F)) V (Proc.devRef .tc b) = V (Proc.devRef .tc b) := by
  rcases hb with rfl | rfl <;> after_results_simp
theorem pc2_kept (V : Valuation τ sig (Elt F)) (b : Ref sig .tc) (hb : b = main_arg0 ∨ b = main_arg1) :
    StableHlo.after (pc2 (F := F)) V (Proc.devRef .tc b) = V (Proc.devRef .tc b) := by
  rcases hb with rfl | rfl <;> after_results_simp
theorem pc3_kept (V : Valuation τ sig (Elt F)) (b : Ref sig .tc) (hb : b = main_arg0 ∨ b = main_arg1) :
    StableHlo.after (pc3 (F := F)) V (Proc.devRef .tc b) = V (Proc.devRef .tc b) := by
  rcases hb with rfl | rfl <;> after_results_simp
theorem pc4_kept (V : Valuation τ sig (Elt F)) (b : Ref sig .tc) (hb : b = main_arg0 ∨ b = main_arg1) :
    StableHlo.after (pc4 (F := F)) V (Proc.devRef .tc b) = V (Proc.devRef .tc b) := by
  rcases hb with rfl | rfl <;> after_results_simp
theorem pc5_kept (V : Valuation τ sig (Elt F)) (b : Ref sig .tc) (hb : b = main_arg0 ∨ b = main_arg1) :
    StableHlo.after (pc5 (F := F)) V (Proc.devRef .tc b) = V (Proc.devRef .tc b) := by
  rcases hb with rfl | rfl <;> after_results_simp
theorem pc6_kept (V : Valuation τ sig (Elt F)) (b : Ref sig .tc) (hb : b = main_arg0 ∨ b = main_arg1) :
    StableHlo.after (pc6 (F := F)) V (Proc.devRef .tc b) = V (Proc.devRef .tc b) := by
  rcases hb with rfl | rfl <;> after_results_simp
theorem pc7_kept (V : Valuation τ sig (Elt F)) (b : Ref sig .tc) (hb : b = main_arg0 ∨ b = main_arg1) :
    StableHlo.after (pc7 (F := F)) V (Proc.devRef .tc b) = V (Proc.devRef .tc b) := by
  rcases hb with rfl | rfl <;> after_results_simp
theorem pc8_kept (V : Valuation τ sig (Elt F)) (b : Ref sig .tc) (hb : b = main_arg0 ∨ b = main_arg1) :
    StableHlo.after (pc8 (F := F)) V (Proc.devRef .tc b) = V (Proc.devRef .tc b) := by
  rcases hb with rfl | rfl <;> after_results_simp
theorem pc9_kept (V : Valuation τ sig (Elt F)) (b : Ref sig .tc) (hb : b = main_arg0 ∨ b = main_arg1) :
    StableHlo.after (pc9 (F := F)) V (Proc.devRef .tc b) = V (Proc.devRef .tc b) := by
  rcases hb with rfl | rfl <;> after_results_simp
theorem pc10_kept (V : Valuation τ sig (Elt F)) (b : Ref sig .tc) (hb : b = main_arg0 ∨ b = main_arg1) :
    StableHlo.after (pc10 (F := F)) V (Proc.devRef .tc b) = V (Proc.devRef .tc b) := by
  rcases hb with rfl | rfl <;> after_results_simp
theorem pc11_kept (V : Valuation τ sig (Elt F)) (b : Ref sig .tc) (hb : b = main_arg0 ∨ b = main_arg1) :
    StableHlo.after (pc11 (F := F)) V (Proc.devRef .tc b) = V (Proc.devRef .tc b) := by
  rcases hb with rfl | rfl <;> after_results_simp
theorem pc12_kept (V : Valuation τ sig (Elt F)) (b : Ref sig .tc) (hb : b = main_arg0 ∨ b = main_arg1) :
    StableHlo.after (pc12 (F := F)) V (Proc.devRef .tc b) = V (Proc.devRef .tc b) := by
  rcases hb with rfl | rfl <;> after_results_simp
theorem pc13_kept (V : Valuation τ sig (Elt F)) (b : Ref sig .tc) (hb : b = main_arg0 ∨ b = main_arg1) :
    StableHlo.after (pc13 (F := F)) V (Proc.devRef .tc b) = V (Proc.devRef .tc b) := by
  rcases hb with rfl | rfl <;> after_results_simp
theorem pc14_kept (V : Valuation τ sig (Elt F)) (b : Ref sig .tc) (hb : b = main_arg0 ∨ b = main_arg1) :
    StableHlo.after (pc14 (F := F)) V (Proc.devRef .tc b) = V (Proc.devRef .tc b) := by
  rcases hb with rfl | rfl <;> after_results_simp
theorem pc15_kept (V : Valuation τ sig (Elt F)) (b : Ref sig .tc) (hb : b = main_arg0 ∨ b = main_arg1) :
    StableHlo.after (pc15 (F := F)) V (Proc.devRef .tc b) = V (Proc.devRef .tc b) := by
  rcases hb with rfl | rfl <;> after_results_simp
theorem pc16_kept (V : Valuation τ sig (Elt F)) (b : Ref sig .tc) (hb : b = main_arg0 ∨ b = main_arg1) :
    StableHlo.after (pc16 (F := F)) V (Proc.devRef .tc b) = V (Proc.devRef .tc b) := by
  rcases hb with rfl | rfl <;> after_results_simp
theorem pc17_kept (V : Valuation τ sig (Elt F)) (b : Ref sig .tc) (hb : b = main_arg0 ∨ b = main_arg1) :
    StableHlo.after (pc17 (F := F)) V (Proc.devRef .tc b) = V (Proc.devRef .tc b) := by
  rcases hb with rfl | rfl <;> after_results_simp
theorem pc18_kept (V : Valuation τ sig (Elt F)) (b : Ref sig .tc) (hb : b = main_arg0 ∨ b = main_arg1) :
    StableHlo.after (pc18 (F := F)) V (Proc.devRef .tc b) = V (Proc.devRef .tc b) := by
  rcases hb with rfl | rfl <;> after_results_simp

/-- No operation of the program writes an argument: after all 306 the two arguments hold what they held. -/
theorem ref_kept (V : Valuation τ sig (Elt F)) (b : Ref sig .tc) (hb : b = main_arg0 ∨ b = main_arg1) :
    StableHlo.after (ops (F := F)) V (Proc.devRef .tc b) = V (Proc.devRef .tc b) := by
  simp only [StableHlo.after_append]
  rw [pc18_kept _ b hb, pc17_kept _ b hb, pc16_kept _ b hb, pc15_kept _ b hb, pc14_kept _ b hb, pc13_kept _ b hb, pc12_kept _ b hb, pc11_kept _ b hb, pc10_kept _ b hb, pc9_kept _ b hb, pc8_kept _ b hb, pc7_kept _ b hb, pc6_kept _ b hb, pc5_kept _ b hb, pc4_kept _ b hb, pc3_kept _ b hb, pc2_kept _ b hb, pc1_kept _ b hb, pc0_kept _ b hb]

theorem ref_kept0 (V : Valuation τ sig (Elt F)) :
    StableHlo.after (ops (F := F)) V (Proc.devRef .tc main_arg0) = V (Proc.devRef .tc main_arg0) := ref_kept V main_arg0 (Or.inl rfl)

theorem ref_kept1 (V : Valuation τ sig (Elt F)) :
    StableHlo.after (ops (F := F)) V (Proc.devRef .tc main_arg1) = V (Proc.devRef .tc main_arg1) := ref_kept V main_arg1 (Or.inr rfl)

/-! ## The whole program -/

/-- Fourteen lines in a row: the contents after each in turn. -/
theorem after_append14 {τ : Topo} {sig : RefSig} {Val : EltTy → Type} (l0 l1 l2 l3 l4 l5 l6 l7 l8 l9 l10 l11 l12 l13 : List (HloOp τ sig Val)) (V : Valuation τ sig Val) :
    StableHlo.after (l0 ++ (l1 ++ (l2 ++ (l3 ++ (l4 ++ (l5 ++ (l6 ++ (l7 ++ (l8 ++ (l9 ++ (l10 ++ (l11 ++ (l12 ++ (l13)))))))))))))) V
      = StableHlo.after l13 (StableHlo.after l12 (StableHlo.after l11 (StableHlo.after l10 (StableHlo.after l9 (StableHlo.after l8 (StableHlo.after l7 (StableHlo.after l6 (StableHlo.after l5 (StableHlo.after l4 (StableHlo.after l3 (StableHlo.after l2 (StableHlo.after l1 (StableHlo.after l0 V))))))))))))) := by
  simp only [StableHlo.after_append]

/-- The result of the reference program is the loss of the specification at the first argument, its colour transform and the second
    argument: the last stretch's value, then each window stretch's in turn from the last to the first (each reading the two images
    and the transformed image as kept by the stretches before it), then the colour transform; the nested sum that results is the
    loss unfolded. -/
theorem ref_value (V : Valuation τ sig (Elt Ideal)) :
    StableHlo.after (ops (F := Ideal)) V (Proc.devRef .tc main_v227)
      = fun _ => Cert.Stencil.loss (V (Proc.devRef .tc main_arg0)) (ychain (V (Proc.devRef .tc main_arg0))) (V (Proc.devRef .tc main_arg1)) := by
  rw [after_append14 opsY ops1 ops2 ops3 ops4 ops5 ops6 ops7 ops8 ops9 ops10 ops11 ops12 opsF V]
  rw [after_opsF]
  rw [chunk12, chunk12_kept _ main_arg0 (Or.inl rfl), chunk12_kept _ main_arg1 (Or.inr (Or.inl rfl))]
  rw [chunk11, chunk11_kept _ main_arg0 (Or.inl rfl), chunk11_kept _ main_arg1 (Or.inr (Or.inl rfl)), chunk11_kept _ main_v5 (Or.inr (Or.inr rfl))]
  rw [chunk10, chunk10_kept _ main_arg0 (Or.inl rfl), chunk10_kept _ main_arg1 (Or.inr (Or.inl rfl)), chunk10_kept _ main_v5 (Or.inr (Or.inr rfl))]
  rw [chunk9, chunk9_kept _ main_arg0 (Or.inl rfl), chunk9_kept _ main_arg1 (Or.inr (Or.inl rfl)), chunk9_kept _ main_v5 (Or.inr (Or.inr rfl))]
  rw [chunk8, chunk8_kept _ main_arg0 (Or.inl rfl), chunk8_kept _ main_arg1 (Or.inr (Or.inl rfl)), chunk8_kept _ main_v5 (Or.inr (Or.inr rfl))]
  rw [chunk7, chunk7_kept _ main_arg0 (Or.inl rfl), chunk7_kept _ main_arg1 (Or.inr (Or.inl rfl)), chunk7_kept _ main_v5 (Or.inr (Or.inr rfl))]
  rw [chunk6, chunk6_kept _ main_arg0 (Or.inl rfl), chunk6_kept _ main_arg1 (Or.inr (Or.inl rfl)), chunk6_kept _ main_v5 (Or.inr (Or.inr rfl))]
  rw [chunk5, chunk5_kept _ main_arg0 (Or.inl rfl), chunk5_kept _ main_arg1 (Or.inr (Or.inl rfl)), chunk5_kept _ main_v5 (Or.inr (Or.inr rfl))]
  rw [chunk4, chunk4_kept _ main_arg0 (Or.inl rfl), chunk4_kept _ main_arg1 (Or.inr (Or.inl rfl)), chunk4_kept _ main_v5 (Or.inr (Or.inr rfl))]
  rw [chunk3, chunk3_kept _ main_arg0 (Or.inl rfl), chunk3_kept _ main_arg1 (Or.inr (Or.inl rfl)), chunk3_kept _ main_v5 (Or.inr (Or.inr rfl))]
  rw [chunk2, chunk2_kept _ main_arg0 (Or.inl rfl), chunk2_kept _ main_arg1 (Or.inr (Or.inl rfl)), chunk2_kept _ main_v5 (Or.inr (Or.inr rfl))]
  rw [chunk1, chunk1_kept _ main_arg0 (Or.inl rfl), chunk1_kept _ main_arg1 (Or.inr (Or.inl rfl)), chunk1_kept _ main_v5 (Or.inr (Or.inr rfl))]
  rw [after_opsY, opsY_kept0, opsY_kept1]
  rfl

end Cert.ReferenceIdeal.Hand

end
-- ==== Proof.lean ====
/-
  The certificate's five claims, assembled.

  Both idealized programs compute the same extended real, the loss of the specification (Proof/Spec.lean), of the first argument `x`,
  its colour transform `y` and the second argument `t`: for twelve window pairs twice the mean over batch and window of
  exp(γ Σ_ch Δy²) · Σ_ch |Δt|, plus 1.5 times the mean of (x − t)². The kernel program forms the per-entry window sums in its grid and the
  sums over the batch, the means and the total on the host after the region (Proof/KerValue.lean); the reference forms each sum over batch
  and window at once (Proof/RefValue.lean). As finite sums of extended reals the two groupings are the same sum (the triple sum over the
  coordinates), so no hypothesis on the inputs is used. The colour transform is the same eight operations in both programs and is never
  opened. Each frame claim is its program's run with the result dropped; the idealization rewrote nothing, so `preserves` is trivial.
-/
import proofs.«102783_j41472204210650_1_alg».proof.Defs
import proofs.«102783_j41472204210650_1_alg».proof.Proof.Gen.Kernel
import proofs.«102783_j41472204210650_1_alg».proof.Proof.Gen.KernelIdeal
import proofs.«102783_j41472204210650_1_alg».proof.Proof.Gen.ReferenceIdeal
import proofs.«102783_j41472204210650_1_alg».proof.Proof.Gen.Pre_finite_inputs
import proofs.«102783_j41472204210650_1_alg».proof.Proof.FrameK
import proofs.«102783_j41472204210650_1_alg».proof.Proof.FrameKI
import proofs.«102783_j41472204210650_1_alg».proof.Proof.KerValue
import proofs.«102783_j41472204210650_1_alg».proof.Proof.RefRun
import proofs.«102783_j41472204210650_1_alg».proof.Proof.RefValue
import Idealize.ShloMosaic.Adequacy
import Idealize.ShloMosaic.Init

noncomputable section

namespace Cert.Proof

open Idealize.ShloMosaic Idealize.SL.Sem

/-- The colour transform is the same term in the two programs. -/
theorem ychain_eq (X : Cert.Stencil.Img) : Cert.ReferenceIdeal.Hand.ychain X = Cert.KernelIdeal.Val.ychainK X := rfl

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono
    (fun _ h c => ⟨(h c Cert.ReferenceIdeal.main_arg0).trans (Cert.ReferenceIdeal.Hand.ref_kept0 _),
      (h c Cert.ReferenceIdeal.main_arg1).trans (Cert.ReferenceIdeal.Hand.ref_kept1 _)⟩)
    (Cert.ReferenceIdeal.Hand.run_after (F := Ideal) m ρ)

theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨?_, ?_, ?_⟩) (Cert.ReferenceIdeal.Hand.run_after (F := Ideal) m' ρ')
  · have e0 : StableHlo.launchContents m' c (Proc.devRef .tc Cert.ReferenceIdeal.main_arg0)
        = m ((c.tc : Thread Cert.KernelIdeal.nD Cert.KernelIdeal.τ).loc Cert.KernelIdeal.main_arg0) := (hagree c).1
    have e1 : StableHlo.launchContents m' c (Proc.devRef .tc Cert.ReferenceIdeal.main_arg1)
        = m ((c.tc : Thread Cert.KernelIdeal.nD Cert.KernelIdeal.τ).loc Cert.KernelIdeal.main_arg1) := (hagree c).2
    rw [h c Cert.ReferenceIdeal.main_v227, Cert.ReferenceIdeal.Hand.ref_value, ychain_eq, e0, e1]
    rfl
  · exact (h c Cert.ReferenceIdeal.main_arg0).trans (Cert.ReferenceIdeal.Hand.ref_kept0 _)
  · exact (h c Cert.ReferenceIdeal.main_arg1).trans (Cert.ReferenceIdeal.Hand.ref_kept1 _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
